-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v100)) (v2 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_v99) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S2x4194304 : Shape := ⟨2, ![2, 4194304]⟩
abbrev S32x16 : Shape := ⟨2, ![32, 16]⟩
abbrev S16 : Shape := ⟨1, ![16]⟩
abbrev S16x16 : Shape := ⟨2, ![16, 16]⟩
abbrev S16384x256 : Shape := ⟨2, ![16384, 256]⟩
abbrev S256 : Shape := ⟨1, ![256]⟩
abbrev S256x1024 : Shape := ⟨2, ![256, 1024]⟩
abbrev S1024 : Shape := ⟨1, ![1024]⟩
abbrev S256x1 : Shape := ⟨2, ![256, 1]⟩
abbrev S1 : Shape := ⟨1, ![1]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16384x256 : S_.BroadcastsInDim S16384x256 (![] : Fin 0 → Fin S16384x256.rank)
  reducesTo_S16384x256_S_d0_1 : S16384x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S256x1 .f32 := Host.absf main_arg16
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S16384x256 .f32) (main_arg13 : FVec F S256 .f32) (main_arg14 : FVec F S256x1 .f32) (main_arg15 : FVec F S1 .f32) (main_arg16 : FVec F S256x1 .f32) (main_arg17 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S16384x256 .f32 := Host.absf main_arg12
  let main_cst_20 : FVec F S_ .f32 := constant S_ .f32 0x7F800000#32
  let main_v55 : FVec F S16384x256 .f32 := broadcastInDim S16384x256 ![] bcast_S_S16384x256 main_cst_20
  let main_v56 : IVec S16384x256 1 := cmpf .olt main_v54 main_v55
  let main_c_21 : IVec S_ 1 := constantI S_ 1 1#1
  let main_v57 : IVec S_ 1 := (fun x v => Host.reduce IntOp.andi x v reducesTo_S16384x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg14
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg15 main_arg16 main_arg17 main_v63 main_v67

def fn_part2 {F : FTy → Type} [FloatOps F] (main_arg8 : FVec F S16384x256 .f32) (main_arg9 : FVec F S256 .f32) (main_arg10 : FVec F S256x1024 .f32) (main_arg11 : FVec F S1024 .f32) (main_arg12 : FVec F S16384x256 .f32) (main_arg13 : FVec F S256 .f32) (main_arg14 : FVec F S256x1 .f32) (main_arg15 : FVec F S1 .f32) (main_arg16 : FVec F S256x1 .f32) (main_arg17 : FVec F S1 .f32) (main_v33 : IVec S_ 1) : IVec S_ 1 :=
  let main_v34 : FVec F S16384x256 .f32 := Host.absf main_arg8
  let main_cst_12 : FVec F S_ .f32 := constant S_ .f32 0x7F800000#32
  let main_v35 : FVec F S16384x256 .f32 := broadcastInDim S16384x256 ![] bcast_S_S16384x256 main_cst_12
  let main_v36 : IVec S16384x256 1 := cmpf .olt main_v34 main_v35
  let main_c_13 : IVec S_ 1 := constantI S_ 1 1#1
  let main_v37 : IVec S_ 1 := (fun x v => Host.reduce IntOp.andi x v reducesTo_S16384x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1024 .f32 := Host.absf main_arg10
  let main_cst_16 : FVec F S_ .f32 := constant S_ .f32 0x7F800000#32
  let main_v45 : FVec F S256x1024 .f32 := broadcastInDim S256x1024 ![] bcast_S_S256x1024 main_cst_16
  let main_v46 : IVec S256x1024 1 := cmpf .olt main_v44 main_v45
  let main_c_17 : IVec S_ 1 := constantI S_ 1 1#1
  let main_v47 : IVec S_ 1 := (fun x v => Host.reduce IntOp.andi x v reducesTo_S256x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_arg15 main_arg16 main_arg17 main_v48 main_v49 main_v50

def fn_part1 {F : FTy → Type} [FloatOps F] (main_arg5 : FVec F S16 .f32) (main_arg6 : FVec F S16x16 .f32) (main_arg7 : FVec F S16 .f32) (main_arg8 : FVec F S16384x256 .f32) (main_arg9 : FVec F S256 .f32) (main_arg10 : FVec F S256x1024 .f32) (main_arg11 : FVec F S1024 .f32) (main_arg12 : FVec F S16384x256 .f32) (main_arg13 : FVec F S256 .f32) (main_arg14 : FVec F S256x1 .f32) (main_arg15 : FVec F S1 .f32) (main_arg16 : FVec F S256x1 .f32) (main_arg17 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S131072x32 .f32) (main_arg1 : IVec S2x4194304 32) (main_arg2 : FVec F S32x16 .f32) (main_arg3 : FVec F S16 .f32) (main_arg4 : FVec F S16x16 .f32) (main_arg5 : FVec F S16 .f32) (main_arg6 : FVec F S16x16 .f32) (main_arg7 : FVec F S16 .f32) (main_arg8 : FVec F S16384x256 .f32) (main_arg9 : FVec F S256 .f32) (main_arg10 : FVec F S256x1024 .f32) (main_arg11 : FVec F S1024 .f32) (main_arg12 : FVec F S16384x256 .f32) (main_arg13 : FVec F S256 .f32) (main_arg14 : FVec F S256x1 .f32) (main_arg15 : FVec F S1 .f32) (main_arg16 : FVec F S256x1 .f32) (main_arg17 : FVec F S1 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S131072x32 : Shape := ⟨2, ![131072, 32]⟩
abbrev S2x4194304 : Shape := ⟨2, ![2, 4194304]⟩
abbrev S32x16 : Shape := ⟨2, ![32, 16]⟩
abbrev S16 : Shape := ⟨1, ![16]⟩
abbrev S16x16 : Shape := ⟨2, ![16, 16]⟩
abbrev S16384x256 : Shape := ⟨2, ![16384, 256]⟩
abbrev S256 : Shape := ⟨1, ![256]⟩
abbrev S256x1024 : Shape := ⟨2, ![256, 1024]⟩
abbrev S1024 : Shape := ⟨1, ![1024]⟩
abbrev S256x1 : Shape := ⟨2, ![256, 1]⟩
abbrev S1 : Shape := ⟨1, ![1]⟩
abbrev S1x4194304 : Shape := ⟨2, ![1, 4194304]⟩
abbrev S4194304 : Shape := ⟨1, ![4194304]⟩
abbrev S131072 : Shape := ⟨1, ![131072]⟩
abbrev S4325376 : Shape := ⟨1, ![4325376]⟩
abbrev S_ : Shape := ⟨0, ![]⟩
abbrev S4325376x1 : Shape := ⟨2, ![4325376, 1]⟩
abbrev S131072x16 : Shape := ⟨2, ![131072, 16]⟩
abbrev S16384x32 : Shape := ⟨2, ![16384, 32]⟩
abbrev S16384x16 : Shape := ⟨2, ![16384, 16]⟩
abbrev S4325376x16 : Shape := ⟨2, ![4325376, 16]⟩
abbrev S1x16 : Shape := ⟨2, ![1, 16]⟩
abbrev S128x16384 : Shape := ⟨2, ![128, 16384]⟩
abbrev S256x2 : Shape := ⟨2, ![256, 2]⟩
abbrev S2 : Shape := ⟨1, ![2]⟩
abbrev S1x256 : Shape := ⟨2, ![1, 256]⟩
abbrev S1x1024 : Shape := ⟨2, ![1, 1024]⟩
abbrev S1x2 : Shape := ⟨2, ![1, 2]⟩
abbrev S128x1024 : Shape := ⟨2, ![128, 1024]⟩
abbrev S128x2 : Shape := ⟨2, ![128, 2]⟩
abbrev S128x256 : Shape := ⟨2, ![128, 256]⟩
abbrev S128x1 : Shape := ⟨2, ![128, 1]⟩

abbrev nBuf : Space → Nat
  | .hbm => 146
  | .vmem => 26
  | .smem => 0
  | _ => 0

abbrev hbmTy0_0 (i : Nat) : BufTy := match i % 128 with
  | 0 => ⟨S131072x32, .f32⟩
  | 1 => ⟨S2x4194304, .i32⟩
  | 2 => ⟨S32x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16384x256, .f32⟩
  | 9 => ⟨S256, .f32⟩
  | 10 => ⟨S256x1024, .f32⟩
  | 11 => ⟨S1024, .f32⟩
  | 12 => ⟨S16384x256, .f32⟩
  | 13 => ⟨S256, .f32⟩
  | 14 => ⟨S256x1, .f32⟩
  | 15 => ⟨S1, .f32⟩
  | 16 => ⟨S256x1, .f32⟩
  | 17 => ⟨S1, .f32⟩
  | 18 => ⟨S1x4194304, .i32⟩
  | 19 => ⟨S4194304, .i32⟩
  | 20 => ⟨S1x4194304, .i32⟩
  | 21 => ⟨S4194304, .i32⟩
  | 22 => ⟨S131072, .i32⟩
  | 23 => ⟨S4325376, .i32⟩
  | 24 => ⟨S4325376, .i32⟩
  | 25 => ⟨S_, .f32⟩
  | 26 => ⟨S4325376, .f32⟩
  | 27 => ⟨S_, .f32⟩
  | 28 => ⟨S131072, .f32⟩
  | 29 => ⟨S4325376x1, .i32⟩
  | 30 => ⟨S131072, .f32⟩
  | 31 => ⟨S_, .f32⟩
  | 32 => ⟨S131072, .f32⟩
  | 33 => ⟨S131072, .i1⟩
  | 34 => ⟨S_, .f32⟩
  | 35 => ⟨S131072, .f32⟩
  | 36 => ⟨S131072, .f32⟩
  | 37 => ⟨S131072, .f32⟩
  | 38 => ⟨S_, .f32⟩
  | 39 => ⟨S_, .f32⟩
  | 40 => ⟨S131072, .f32⟩
  | 41 => ⟨S131072, .f32⟩
  | 42 => ⟨S_, .i32⟩
  | 43 => ⟨S4325376, .i32⟩
  | 44 => ⟨S4325376, .i1⟩
  | 45 => ⟨S_, .i32⟩
  | 46 => ⟨S4325376, .i32⟩
  | 47 => ⟨S4325376, .i32⟩
  | 48 => ⟨S4325376, .i32⟩
  | 49 => ⟨S4325376x1, .i32⟩
  | 50 => ⟨S4325376, .f32⟩
  | 51 => ⟨S_, .i32⟩
  | 52 => ⟨S4325376, .i32⟩
  | 53 => ⟨S4325376, .i1⟩
  | 54 => ⟨S_, .i32⟩
  | 55 => ⟨S4325376, .i32⟩
  | 56 => ⟨S4325376, .i32⟩
  | 57 => ⟨S4325376, .i32⟩
  | 58 => ⟨S4325376x1, .i32⟩
  | 59 => ⟨S4325376, .f32⟩
  | 60 => ⟨S4325376, .f32⟩
  | 61 => ⟨S131072x16, .f32⟩
  | 62 => ⟨S4325376x1, .f32⟩
  | 63 => ⟨S_, .i32⟩
  | 64 => ⟨S4325376, .i32⟩
  | 65 => ⟨S4325376, .i1⟩
  | 66 => ⟨S_, .i32⟩
  | 67 => ⟨S4325376, .i32⟩
  | 68 => ⟨S4325376, .i32⟩
  | 69 => ⟨S4325376, .i32⟩
  | 70 => ⟨S4325376x1, .i32⟩
  | 71 => ⟨S4325376x16, .f32⟩
  | 72 => ⟨S4325376x16, .f32⟩
  | 73 => ⟨S4325376x16, .f32⟩
  | 74 => ⟨S_, .f32⟩
  | 75 => ⟨S131072x16, .f32⟩
  | 76 => ⟨S4325376x1, .i32⟩
  | 77 => ⟨S131072x16, .f32⟩
  | 78 => ⟨S1x16, .f32⟩
  | 79 => ⟨S131072x16, .f32⟩
  | 80 => ⟨S131072x16, .f32⟩
  | 81 => ⟨S_, .f32⟩
  | 82 => ⟨S131072x16, .f32⟩
  | 83 => ⟨S131072x16, .f32⟩
  | 84 => ⟨S131072x16, .f32⟩
  | 85 => ⟨S4325376x1, .f32⟩
  | 86 => ⟨S_, .i32⟩
  | 87 => ⟨S4325376, .i32⟩
  | 88 => ⟨S4325376, .i1⟩
  | 89 => ⟨S_, .i32⟩
  | 90 => ⟨S4325376, .i32⟩
  | 91 => ⟨S4325376, .i32⟩
  | 92 => ⟨S4325376, .i32⟩
  | 93 => ⟨S4325376x1, .i32⟩
  | 94 => ⟨S4325376x16, .f32⟩
  | 95 => ⟨S4325376x16, .f32⟩
  | 96 => ⟨S4325376x16, .f32⟩
  | 97 => ⟨S_, .f32⟩
  | 98 => ⟨S131072x16, .f32⟩
  | 99 => ⟨S4325376x1, .i32⟩
  | 100 => ⟨S131072x16, .f32⟩
  | 101 => ⟨S1x16, .f32⟩
  | 102 => ⟨S131072x16, .f32⟩
  | 103 => ⟨S131072x16, .f32⟩
  | 104 => ⟨S_, .f32⟩
  | 105 => ⟨S131072x16, .f32⟩
  | 106 => ⟨S131072x16, .f32⟩
  | 107 => ⟨S131072x16, .f32⟩
  | 108 => ⟨S4325376x1, .f32⟩
  | 109 => ⟨S_, .i32⟩
  | 110 => ⟨S4325376, .i32⟩
  | 111 => ⟨S4325376, .i1⟩
  | 112 => ⟨S_, .i32⟩
  | 113 => ⟨S4325376, .i32⟩
  | 114 => ⟨S4325376, .i32⟩
  | 115 => ⟨S4325376, .i32⟩
  | 116 => ⟨S4325376x1, .i32⟩
  | 117 => ⟨S4325376x16, .f32⟩
  | 118 => ⟨S4325376x16, .f32⟩
  | 119 => ⟨S4325376x16, .f32⟩
  | 120 => ⟨S_, .f32⟩
  | 121 => ⟨S131072x16, .f32⟩
  | 122 => ⟨S4325376x1, .i32⟩
  | 123 => ⟨S131072x16, .f32⟩
  | 124 => ⟨S1x16, .f32⟩
  | 125 => ⟨S131072x16, .f32⟩
  | 126 => ⟨S131072x16, .f32⟩
  | 127 => ⟨S_, .f32⟩
  | _ => ⟨S131072x32, .f32⟩

abbrev hbmTy0_1 (i : Nat) : BufTy := match i % 128 with
  | 0 => ⟨S131072x16, .f32⟩
  | 1 => ⟨S131072x16, .f32⟩
  | 2 => ⟨S128x16384, .f32⟩
  | 3 => ⟨S256x2, .f32⟩
  | 4 => ⟨S2, .f32⟩
  | 5 => ⟨S128x16384, .bf16⟩
  | 6 => ⟨S16384x256, .bf16⟩
  | 7 => ⟨S256x1024, .bf16⟩
  | 8 => ⟨S16384x256, .bf16⟩
  | 9 => ⟨S256x2, .bf16⟩
  | 10 => ⟨S1x256, .f32⟩
  | 11 => ⟨S1x1024, .f32⟩
  | 12 => ⟨S1x256, .f32⟩
  | 13 => ⟨S1x2, .f32⟩
  | 14 => ⟨S128x1024, .f32⟩
  | 15 => ⟨S128x2, .f32⟩
  | 16 => ⟨S128x1, .f32⟩
  | 17 => ⟨S128x1, .f32⟩
  | _ => ⟨S131072x32, .f32⟩

abbrev hbmTy (i : Nat) : BufTy := match i / 128 with
  | 0 => hbmTy0_0 i
  | 1 => hbmTy0_1 i
  | _ => ⟨S131072x32, .f32⟩

abbrev bufTy : (tb : Table) → Fin (tcTables nBuf tb) → BufTy
  | .hbm, ⟨i, _⟩ => hbmTy i
  | .local _ .vmem, ⟨0, _⟩ => ⟨S16384x32, .f32⟩
  | .local _ .vmem, ⟨1, _⟩ => ⟨S16384x32, .f32⟩
  | .local _ .vmem, ⟨2, _⟩ => ⟨S32x16, .f32⟩
  | .local _ .vmem, ⟨3, _⟩ => ⟨S16384x16, .f32⟩
  | .local _ .vmem, ⟨4, _⟩ => ⟨S16384x16, .f32⟩
  | .local _ .vmem, ⟨5, _⟩ => ⟨S16384x16, .f32⟩
  | .local _ .vmem, ⟨6, _⟩ => ⟨S16384x16, .f32⟩
  | .local _ .vmem, ⟨7, _⟩ => ⟨S16x16, .f32⟩
  | .local _ .vmem, ⟨8, _⟩ => ⟨S16384x16, .f32⟩
  | .local _ .vmem, ⟨9, _⟩ => ⟨S16384x16, .f32⟩
  | .local _ .vmem, ⟨10, _⟩ => ⟨S16384x16, .f32⟩
  | .local _ .vmem, ⟨11, _⟩ => ⟨S16384x16, .f32⟩
  | .local _ .vmem, ⟨12, _⟩ => ⟨S16x16, .f32⟩
  | .local _ .vmem, ⟨13, _⟩ => ⟨S16384x16, .f32⟩
  | .local _ .vmem, ⟨14, _⟩ => ⟨S16384x16, .f32⟩
  | .local _ .vmem, ⟨15, _⟩ => ⟨S128x16384, .bf16⟩
  | .local _ .vmem, ⟨16, _⟩ => ⟨S16384x256, .bf16⟩
  | .local _ .vmem, ⟨17, _⟩ => ⟨S1x256, .f32⟩
  | .local _ .vmem, ⟨18, _⟩ => ⟨S256x1024, .bf16⟩
  | .local _ .vmem, ⟨19, _⟩ => ⟨S1x1024, .f32⟩
  | .local _ .vmem, ⟨20, _⟩ => ⟨S16384x256, .bf16⟩
  | .local _ .vmem, ⟨21, _⟩ => ⟨S1x256, .f32⟩
  | .local _ .vmem, ⟨22, _⟩ => ⟨S256x2, .bf16⟩
  | .local _ .vmem, ⟨23, _⟩ => ⟨S1x2, .f32⟩
  | .local _ .vmem, ⟨24, _⟩ => ⟨S128x1024, .f32⟩
  | .local _ .vmem, ⟨25, _⟩ => ⟨S128x2, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_v52 : Ref sig .tc := ⟨.hbm, 87, rfl⟩
abbrev main_v53 : Ref sig .tc := ⟨.hbm, 88, rfl⟩
abbrev main_c_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call2_cst : Ref sig .tc := ⟨.hbm, 104, rfl⟩
abbrev main_call2_v0 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_13 : Ref sig .tc := ⟨.hbm, 109, rfl⟩
abbrev main_v70 : Ref sig .tc := ⟨.hbm, 110, rfl⟩
abbrev main_v71 : Ref sig .tc := ⟨.hbm, 111, rfl⟩
abbrev main_c_14 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call3_cst : Ref sig .tc := ⟨.hbm, 127, rfl⟩
abbrev main_call3_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98_0 : Ref sig .tc := ⟨.hbm, 142, rfl⟩
abbrev main_v98_1 : Ref sig .tc := ⟨.hbm, 143, rfl⟩
abbrev main_v99 : Ref sig .tc := ⟨.hbm, 144, rfl⟩
abbrev main_v100 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc3_stg9_0 : Ref sig .tc := ⟨.vmem, 24, rfl⟩
abbrev cc3_stg10_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21
abbrev cc3_sem7_0 : DmaSem sig := 22
abbrev cc3_sem8_0 : DmaSem sig := 23
abbrev cc3_sem9_0 : DmaSem sig := 24
abbrev cc3_sem10_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16384x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16384x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x16384 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16384x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16384x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x2 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x2 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  concatenates_S4194304_S131072_S4325376_d0 : Shape.Concatenates [S4194304, S131072] S4325376 0
  bcast_S_S4325376 : S_.BroadcastsInDim S4325376 (![] : Fin 0 → Fin S4325376.rank)
  bcast_S_S131072 : S_.BroadcastsInDim S131072 (![] : Fin 0 → Fin S131072.rank)
  bcast_S4325376_S4325376x1_0 : S4325376.BroadcastsInDim S4325376x1 (![0] : Fin 1 → Fin S4325376x1.rank)
  inb_S16384x32_S16384x32_0_0 : ∀ a, (![0, 0] : Fin 2 → Nat) a + S16384x32.size a ≤ S16384x32.size a
  h_S16384x32 : 0 < S16384x32.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S16384x16_S16384x16_0_0 : ∀ a, (![0, 0] : Fin 2 → Nat) a + S16384x16.size a ≤ S16384x16.size a
  h_S16384x16 : 0 < S16384x16.numel
  bcast_S4325376x1_S4325376x16_0_1 : S4325376x1.BroadcastsInDim S4325376x16 (![0, 1] : Fin 2 → Fin S4325376x16.rank)
  bcast_S_S131072x16 : S_.BroadcastsInDim S131072x16 (![] : Fin 0 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  shapeCasts_S16384x16_S16384x16 : S16384x16.ShapeCasts S16384x16
  inb_S16x16_S16x16_0_0 : ∀ a, (![0, 0] : Fin 2 → Nat) a + S16x16.size a ≤ S16x16.size a
  h_S16x16 : 0 < S16x16.numel
  shapeCasts_S131072x16_S128x16384 : S131072x16.ShapeCasts S128x16384
  concatenates_S256x1_S256x1_S256x2_d1 : Shape.Concatenates [S256x1, S256x1] S256x2 1
  concatenates_S1_S1_S2_d0 : Shape.Concatenates [S1, S1] S2 0
  shapeCasts_S256_S1x256 : S256.ShapeCasts S1x256
  shapeCasts_S1024_S1x1024 : S1024.ShapeCasts S1x1024
  shapeCasts_S2_S1x2 : S2.ShapeCasts S1x2
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  slices_S128x2_S128x1_0_0 : S128x2.Slices ![0, 0] S128x1
  slices_S128x2_S128x1_0_1 : S128x2.Slices ![0, 1] S128x1
  scatter_S131072_S4325376x1_S4325376_n_0_0_1_wf : ScatterDims.WF S131072 S4325376x1 S4325376 [] [0] [0] 1
  gather_S131072_S4325376x1_S4325376_n_0_n_n_0_1_1_wf : GatherDims.WF S131072 S4325376x1 S4325376 [] [0] [] [0] [] 1 ![1]
  dot_S16384x32_S32x16_S16384x16_1_0_0_1_n_n_wf : DotDims.WF S16384x32 S32x16 S16384x16 [1] [0] [0] [1] [] []
  gather_S131072x16_S4325376x1_S4325376x16_1_0_n_n_0_1_116_wf : GatherDims.WF S131072x16 S4325376x1 S4325376x16 [1] [0] [] [0] [] 1 ![1, 16]
  scatter_S131072x16_S4325376x1_S4325376x16_1_0_0_1_wf : ScatterDims.WF S131072x16 S4325376x1 S4325376x16 [1] [0] [0] 1
  dot_S16384x16_S16x16_S16384x16_1_0_0_1_n_n_wf : DotDims.WF S16384x16 S16x16 S16384x16 [1] [0] [0] [1] [] []
  dot_S128x16384_S16384x256_S128x256_1_0_0_1_n_n_wf : DotDims.WF S128x16384 S16384x256 S128x256 [1] [0] [0] [1] [] []
  dot_S128x256_S256x1024_S128x1024_1_0_0_1_n_n_wf : DotDims.WF S128x256 S256x1024 S128x1024 [1] [0] [0] [1] [] []
  dot_S128x256_S256x2_S128x2_1_0_0_1_n_n_wf : DotDims.WF S128x256 S256x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S131072x32.size a
  hwx0_0 : ∀ i : grid0.Coords, EltTy.bits .f32 = 32 ∨ (Rect.block (s := S131072x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x16.size a ≤ S131072x16.size a
  hwx0_2 : ∀ i : grid0.Coords, EltTy.bits .f32 = 32 ∨ (Rect.block (s := S131072x16) S16384x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x16.size a ≤ S131072x16.size a
  hwx1_0 : ∀ i : grid1.Coords, EltTy.bits .f32 = 32 ∨ (Rect.block (s := S131072x16) S16384x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x16.size a ≤ S131072x16.size a
  hwx1_2 : ∀ i : grid1.Coords, EltTy.bits .f32 = 32 ∨ (Rect.block (s := S131072x16) S16384x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x16.size a ≤ S131072x16.size a
  hwx2_0 : ∀ i : grid2.Coords, EltTy.bits .f32 = 32 ∨ (Rect.block (s := S131072x16) S16384x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x16.size a ≤ S131072x16.size a
  hwx2_2 : ∀ i : grid2.Coords, EltTy.bits .f32 = 32 ∨ (Rect.block (s := S131072x16) S16384x16.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x16384.size a ≤ S128x16384.size a
  hwx3_0 : ∀ i : grid3.Coords, EltTy.bits .bf16 = 32 ∨ (Rect.block (s := S128x16384) S128x16384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x256.size a ≤ S16384x256.size a
  hwx3_1 : ∀ i : grid3.Coords, EltTy.bits .bf16 = 32 ∨ (Rect.block (s := S16384x256) S16384x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S256x1024.size a
  hwx3_3 : ∀ i : grid3.Coords, EltTy.bits .bf16 = 32 ∨ (Rect.block (s := S256x1024) S256x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16384x256.size a ≤ S16384x256.size a
  hwx3_5 : ∀ i : grid3.Coords, EltTy.bits .bf16 = 32 ∨ (Rect.block (s := S16384x256) S16384x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x2.size a ≤ S256x2.size a
  hwx3_7 : ∀ i : grid3.Coords, EltTy.bits .bf16 = 32 ∨ (Rect.block (s := S256x2) S256x2.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x2.size a ≤ S1x2.size a
  hwx3_8 : ∀ i : grid3.Coords, EltTy.bits .f32 = 32 ∨ (Rect.block (s := S1x2) S1x2.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x1024.size a ≤ S128x1024.size a
  hwx3_9 : ∀ i : grid3.Coords, EltTy.bits .f32 = 32 ∨ (Rect.block (s := S128x1024) S128x1024.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x2.size a ≤ S128x2.size a
  hwx3_10 : ∀ i : grid3.Coords, EltTy.bits .f32 = 32 ∨ (Rect.block (s := S128x2) S128x2.size (cc3_transform_10 i) (hinb3_10 i)).WholeWords (EltTy.packing .f32)

variable [Facts₀]

def scatter_S131072_S4325376x1_S4325376_n_0_0_1 : ScatterDims S131072 S4325376x1 S4325376 where
  updateWindowDims := []
  insertedWindowDims := [0]
  scatterDimsToOperandDims := [0]
  indexVectorDim := 1
  wf := scatter_S131072_S4325376x1_S4325376_n_0_0_1_wf
def gather_S131072_S4325376x1_S4325376_n_0_n_n_0_1_1 : GatherDims S131072 S4325376x1 S4325376 where
  offsetDims := []
  collapsedSliceDims := [0]
  operandBatchingDims := []
  startIndicesBatchingDims := []
  startIndexMap := [0]
  indexVectorDim := 1
  sliceSizes := ![1]
  wf := gather_S131072_S4325376x1_S4325376_n_0_n_n_0_1_1_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def gather_S131072x16_S4325376x1_S4325376x16_1_0_n_n_0_1_116 : GatherDims S131072x16 S4325376x1 S4325376x16 where
  offsetDims := [1]
  collapsedSliceDims := [0]
  operandBatchingDims := []
  startIndicesBatchingDims := []
  startIndexMap := [0]
  indexVectorDim := 1
  sliceSizes := ![1, 16]
  wf := gather_S131072x16_S4325376x1_S4325376x16_1_0_n_n_0_1_116_wf
def scatter_S131072x16_S4325376x1_S4325376x16_1_0_0_1 : ScatterDims S131072x16 S4325376x1 S4325376x16 where
  updateWindowDims := [1]
  insertedWindowDims := [0]
  scatterDimsToOperandDims := [0]
  indexVectorDim := 1
  wf := scatter_S131072x16_S4325376x1_S4325376x16_1_0_0_1_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S128x16384_S16384x256_S128x256_1_0_0_1_n_n : DotDims S128x16384 S16384x256 S128x256 where
  lhsContracting := [1]
  rhsContracting := [0]
  lhsNonContracting := [0]
  rhsNonContracting := [1]
  lhsBatch := []
  rhsBatch := []
  wf := dot_S128x16384_S16384x256_S128x256_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S16384x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S16384x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S16384x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S16384x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S16384x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S128x16384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v90) S16384x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S256x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S16384x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v96) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v93) S256x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v97) S1x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v98_0) S128x1024.size cc3_transform_9 reads3_9 true true 1 stage3_9 sem3_9
    hrank3 hreads3_9 hinb3_9 nbuf3_9 (Memref.isWhole_whole _) hwx3_9 hstage3_9

abbrev win3_10 : Pipeline.Window sig grid3 :=
  Pipeline.Window.ofSpec (Memref.whole main_v98_1) S128x2.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S131072x32 : Shape := ⟨2, ![131072, 32]⟩
abbrev S2x4194304 : Shape := ⟨2, ![2, 4194304]⟩
abbrev S32x16 : Shape := ⟨2, ![32, 16]⟩
abbrev S16 : Shape := ⟨1, ![16]⟩
abbrev S16x16 : Shape := ⟨2, ![16, 16]⟩
abbrev S16384x256 : Shape := ⟨2, ![16384, 256]⟩
abbrev S256 : Shape := ⟨1, ![256]⟩
abbrev S256x1024 : Shape := ⟨2, ![256, 1024]⟩
abbrev S1024 : Shape := ⟨1, ![1024]⟩
abbrev S256x1 : Shape := ⟨2, ![256, 1]⟩
abbrev S1 : Shape := ⟨1, ![1]⟩
abbrev S1x4194304 : Shape := ⟨2, ![1, 4194304]⟩
abbrev S4194304 : Shape := ⟨1, ![4194304]⟩
abbrev S131072 : Shape := ⟨1, ![131072]⟩
abbrev S4325376 : Shape := ⟨1, ![4325376]⟩
abbrev S_ : Shape := ⟨0, ![]⟩
abbrev S4325376x1 : Shape := ⟨2, ![4325376, 1]⟩
abbrev S131072x16 : Shape := ⟨2, ![131072, 16]⟩
abbrev S4325376x16 : Shape := ⟨2, ![4325376, 16]⟩
abbrev S1x16 : Shape := ⟨2, ![1, 16]⟩
abbrev S128x16384 : Shape := ⟨2, ![128, 16384]⟩
abbrev S128x256 : Shape := ⟨2, ![128, 256]⟩
abbrev S1x256 : Shape := ⟨2, ![1, 256]⟩
abbrev S128x1024 : Shape := ⟨2, ![128, 1024]⟩
abbrev S1x1024 : Shape := ⟨2, ![1, 1024]⟩
abbrev S128x1 : Shape := ⟨2, ![128, 1]⟩
abbrev S1x1 : Shape := ⟨2, ![1, 1]⟩

abbrev nBuf : Space → Nat
  | .hbm => 243
  | .vmem => 0
  | .smem => 0
  | _ => 0

abbrev hbmTy0_0 (i : Nat) : BufTy := match i % 128 with
  | 0 => ⟨S131072x32, .f32⟩
  | 1 => ⟨S2x4194304, .i32⟩
  | 2 => ⟨S32x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16384x256, .f32⟩
  | 9 => ⟨S256, .f32⟩
  | 10 => ⟨S256x1024, .f32⟩
  | 11 => ⟨S1024, .f32⟩
  | 12 => ⟨S16384x256, .f32⟩
  | 13 => ⟨S256, .f32⟩
  | 14 => ⟨S256x1, .f32⟩
  | 15 => ⟨S1, .f32⟩
  | 16 => ⟨S256x1, .f32⟩
  | 17 => ⟨S1, .f32⟩
  | 18 => ⟨S1x4194304, .i32⟩
  | 19 => ⟨S4194304, .i32⟩
  | 20 => ⟨S1x4194304, .i32⟩
  | 21 => ⟨S4194304, .i32⟩
  | 22 => ⟨S131072, .i32⟩
  | 23 => ⟨S4325376, .i32⟩
  | 24 => ⟨S4325376, .i32⟩
  | 25 => ⟨S_, .f32⟩
  | 26 => ⟨S4325376, .f32⟩
  | 27 => ⟨S_, .f32⟩
  | 28 => ⟨S131072, .f32⟩
  | 29 => ⟨S4325376x1, .i32⟩
  | 30 => ⟨S131072, .f32⟩
  | 31 => ⟨S_, .f32⟩
  | 32 => ⟨S131072, .f32⟩
  | 33 => ⟨S131072, .i1⟩
  | 34 => ⟨S_, .f32⟩
  | 35 => ⟨S131072, .f32⟩
  | 36 => ⟨S131072, .f32⟩
  | 37 => ⟨S131072, .f32⟩
  | 38 => ⟨S_, .f32⟩
  | 39 => ⟨S_, .f32⟩
  | 40 => ⟨S131072, .f32⟩
  | 41 => ⟨S131072, .f32⟩
  | 42 => ⟨S_, .i32⟩
  | 43 => ⟨S4325376, .i32⟩
  | 44 => ⟨S4325376, .i1⟩
  | 45 => ⟨S_, .i32⟩
  | 46 => ⟨S4325376, .i32⟩
  | 47 => ⟨S4325376, .i32⟩
  | 48 => ⟨S4325376, .i32⟩
  | 49 => ⟨S4325376x1, .i32⟩
  | 50 => ⟨S4325376, .f32⟩
  | 51 => ⟨S_, .i32⟩
  | 52 => ⟨S4325376, .i32⟩
  | 53 => ⟨S4325376, .i1⟩
  | 54 => ⟨S_, .i32⟩
  | 55 => ⟨S4325376, .i32⟩
  | 56 => ⟨S4325376, .i32⟩
  | 57 => ⟨S4325376, .i32⟩
  | 58 => ⟨S4325376x1, .i32⟩
  | 59 => ⟨S4325376, .f32⟩
  | 60 => ⟨S4325376, .f32⟩
  | 61 => ⟨S131072x16, .f32⟩
  | 62 => ⟨S4325376x1, .f32⟩
  | 63 => ⟨S_, .i32⟩
  | 64 => ⟨S4325376, .i32⟩
  | 65 => ⟨S4325376, .i1⟩
  | 66 => ⟨S_, .i32⟩
  | 67 => ⟨S4325376, .i32⟩
  | 68 => ⟨S4325376, .i32⟩
  | 69 => ⟨S4325376, .i32⟩
  | 70 => ⟨S4325376x1, .i32⟩
  | 71 => ⟨S4325376x16, .f32⟩
  | 72 => ⟨S4325376x16, .f32⟩
  | 73 => ⟨S4325376x16, .f32⟩
  | 74 => ⟨S_, .f32⟩
  | 75 => ⟨S131072x16, .f32⟩
  | 76 => ⟨S4325376x1, .i32⟩
  | 77 => ⟨S131072x16, .f32⟩
  | 78 => ⟨S1x16, .f32⟩
  | 79 => ⟨S131072x16, .f32⟩
  | 80 => ⟨S131072x16, .f32⟩
  | 81 => ⟨S_, .f32⟩
  | 82 => ⟨S131072x16, .f32⟩
  | 83 => ⟨S131072x16, .f32⟩
  | 84 => ⟨S1x4194304, .i32⟩
  | 85 => ⟨S4194304, .i32⟩
  | 86 => ⟨S1x4194304, .i32⟩
  | 87 => ⟨S4194304, .i32⟩
  | 88 => ⟨S131072, .i32⟩
  | 89 => ⟨S4325376, .i32⟩
  | 90 => ⟨S4325376, .i32⟩
  | 91 => ⟨S_, .f32⟩
  | 92 => ⟨S4325376, .f32⟩
  | 93 => ⟨S_, .f32⟩
  | 94 => ⟨S131072, .f32⟩
  | 95 => ⟨S4325376x1, .i32⟩
  | 96 => ⟨S131072, .f32⟩
  | 97 => ⟨S_, .f32⟩
  | 98 => ⟨S131072, .f32⟩
  | 99 => ⟨S131072, .i1⟩
  | 100 => ⟨S_, .f32⟩
  | 101 => ⟨S131072, .f32⟩
  | 102 => ⟨S131072, .f32⟩
  | 103 => ⟨S131072, .f32⟩
  | 104 => ⟨S_, .f32⟩
  | 105 => ⟨S_, .f32⟩
  | 106 => ⟨S131072, .f32⟩
  | 107 => ⟨S131072, .f32⟩
  | 108 => ⟨S_, .i32⟩
  | 109 => ⟨S4325376, .i32⟩
  | 110 => ⟨S4325376, .i1⟩
  | 111 => ⟨S_, .i32⟩
  | 112 => ⟨S4325376, .i32⟩
  | 113 => ⟨S4325376, .i32⟩
  | 114 => ⟨S4325376, .i32⟩
  | 115 => ⟨S4325376x1, .i32⟩
  | 116 => ⟨S4325376, .f32⟩
  | 117 => ⟨S_, .i32⟩
  | 118 => ⟨S4325376, .i32⟩
  | 119 => ⟨S4325376, .i1⟩
  | 120 => ⟨S_, .i32⟩
  | 121 => ⟨S4325376, .i32⟩
  | 122 => ⟨S4325376, .i32⟩
  | 123 => ⟨S4325376, .i32⟩
  | 124 => ⟨S4325376x1, .i32⟩
  | 125 => ⟨S4325376, .f32⟩
  | 126 => ⟨S4325376, .f32⟩
  | 127 => ⟨S131072x16, .f32⟩
  | _ => ⟨S131072x32, .f32⟩

abbrev hbmTy0_1 (i : Nat) : BufTy := match i % 128 with
  | 0 => ⟨S4325376x1, .f32⟩
  | 1 => ⟨S_, .i32⟩
  | 2 => ⟨S4325376, .i32⟩
  | 3 => ⟨S4325376, .i1⟩
  | 4 => ⟨S_, .i32⟩
  | 5 => ⟨S4325376, .i32⟩
  | 6 => ⟨S4325376, .i32⟩
  | 7 => ⟨S4325376, .i32⟩
  | 8 => ⟨S4325376x1, .i32⟩
  | 9 => ⟨S4325376x16, .f32⟩
  | 10 => ⟨S4325376x16, .f32⟩
  | 11 => ⟨S4325376x16, .f32⟩
  | 12 => ⟨S_, .f32⟩
  | 13 => ⟨S131072x16, .f32⟩
  | 14 => ⟨S4325376x1, .i32⟩
  | 15 => ⟨S131072x16, .f32⟩
  | 16 => ⟨S1x16, .f32⟩
  | 17 => ⟨S131072x16, .f32⟩
  | 18 => ⟨S131072x16, .f32⟩
  | 19 => ⟨S_, .f32⟩
  | 20 => ⟨S131072x16, .f32⟩
  | 21 => ⟨S131072x16, .f32⟩
  | 22 => ⟨S1x4194304, .i32⟩
  | 23 => ⟨S4194304, .i32⟩
  | 24 => ⟨S1x4194304, .i32⟩
  | 25 => ⟨S4194304, .i32⟩
  | 26 => ⟨S131072, .i32⟩
  | 27 => ⟨S4325376, .i32⟩
  | 28 => ⟨S4325376, .i32⟩
  | 29 => ⟨S_, .f32⟩
  | 30 => ⟨S4325376, .f32⟩
  | 31 => ⟨S_, .f32⟩
  | 32 => ⟨S131072, .f32⟩
  | 33 => ⟨S4325376x1, .i32⟩
  | 34 => ⟨S131072, .f32⟩
  | 35 => ⟨S_, .f32⟩
  | 36 => ⟨S131072, .f32⟩
  | 37 => ⟨S131072, .i1⟩
  | 38 => ⟨S_, .f32⟩
  | 39 => ⟨S131072, .f32⟩
  | 40 => ⟨S131072, .f32⟩
  | 41 => ⟨S131072, .f32⟩
  | 42 => ⟨S_, .f32⟩
  | 43 => ⟨S_, .f32⟩
  | 44 => ⟨S131072, .f32⟩
  | 45 => ⟨S131072, .f32⟩
  | 46 => ⟨S_, .i32⟩
  | 47 => ⟨S4325376, .i32⟩
  | 48 => ⟨S4325376, .i1⟩
  | 49 => ⟨S_, .i32⟩
  | 50 => ⟨S4325376, .i32⟩
  | 51 => ⟨S4325376, .i32⟩
  | 52 => ⟨S4325376, .i32⟩
  | 53 => ⟨S4325376x1, .i32⟩
  | 54 => ⟨S4325376, .f32⟩
  | 55 => ⟨S_, .i32⟩
  | 56 => ⟨S4325376, .i32⟩
  | 57 => ⟨S4325376, .i1⟩
  | 58 => ⟨S_, .i32⟩
  | 59 => ⟨S4325376, .i32⟩
  | 60 => ⟨S4325376, .i32⟩
  | 61 => ⟨S4325376, .i32⟩
  | 62 => ⟨S4325376x1, .i32⟩
  | 63 => ⟨S4325376, .f32⟩
  | 64 => ⟨S4325376, .f32⟩
  | 65 => ⟨S131072x16, .f32⟩
  | 66 => ⟨S4325376x1, .f32⟩
  | 67 => ⟨S_, .i32⟩
  | 68 => ⟨S4325376, .i32⟩
  | 69 => ⟨S4325376, .i1⟩
  | 70 => ⟨S_, .i32⟩
  | 71 => ⟨S4325376, .i32⟩
  | 72 => ⟨S4325376, .i32⟩
  | 73 => ⟨S4325376, .i32⟩
  | 74 => ⟨S4325376x1, .i32⟩
  | 75 => ⟨S4325376x16, .f32⟩
  | 76 => ⟨S4325376x16, .f32⟩
  | 77 => ⟨S4325376x16, .f32⟩
  | 78 => ⟨S_, .f32⟩
  | 79 => ⟨S131072x16, .f32⟩
  | 80 => ⟨S4325376x1, .i32⟩
  | 81 => ⟨S131072x16, .f32⟩
  | 82 => ⟨S1x16, .f32⟩
  | 83 => ⟨S131072x16, .f32⟩
  | 84 => ⟨S131072x16, .f32⟩
  | 85 => ⟨S_, .f32⟩
  | 86 => ⟨S131072x16, .f32⟩
  | 87 => ⟨S131072x16, .f32⟩
  | 88 => ⟨S128x16384, .f32⟩
  | 89 => ⟨S128x256, .f32⟩
  | 90 => ⟨S1x256, .f32⟩
  | 91 => ⟨S128x256, .f32⟩
  | 92 => ⟨S128x256, .f32⟩
  | 93 => ⟨S_, .f32⟩
  | 94 => ⟨S128x256, .f32⟩
  | 95 => ⟨S128x256, .f32⟩
  | 96 => ⟨S128x1024, .f32⟩
  | 97 => ⟨S1x1024, .f32⟩
  | 98 => ⟨S128x1024, .f32⟩
  | 99 => ⟨S128x1024, .f32⟩
  | 100 => ⟨S128x256, .f32⟩
  | 101 => ⟨S1x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x1, .f32⟩
  | 108 => ⟨S1x1, .f32⟩
  | 109 => ⟨S128x1, .f32⟩
  | 110 => ⟨S128x1, .f32⟩
  | 111 => ⟨S128x1, .f32⟩
  | 112 => ⟨S1x1, .f32⟩
  | 113 => ⟨S128x1, .f32⟩
  | 114 => ⟨S128x1, .f32⟩
  | _ => ⟨S131072x32, .f32⟩

abbrev hbmTy (i : Nat) : BufTy := match i / 128 with
  | 0 => hbmTy0_0 i
  | 1 => hbmTy0_1 i
  | _ => ⟨S131072x32, .f32⟩

abbrev bufTy : (tb : Table) → Fin (tcTables nBuf tb) → BufTy
  | .hbm, ⟨i, _⟩ => hbmTy i
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_call2_v0 : Ref sig .tc := ⟨.hbm, 105, rfl⟩
abbrev main_call2_v1 : Ref sig .tc := ⟨.hbm, 106, rfl⟩
abbrev main_v66 : Ref sig .tc := ⟨.hbm, 107, rfl⟩
abbrev main_c_15 : Ref sig .tc := ⟨.hbm, 108, rfl⟩
abbrev main_v67 : Ref sig .tc := ⟨.hbm, 109, rfl⟩
abbrev main_v68 : Ref sig .tc := ⟨.hbm, 110, rfl⟩
abbrev main_c_16 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_17 : Ref sig .tc := ⟨.hbm, 117, rfl⟩
abbrev main_v74 : Ref sig .tc := ⟨.hbm, 118, rfl⟩
abbrev main_v75 : Ref sig .tc := ⟨.hbm, 119, rfl⟩
abbrev main_c_18 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_19 : Ref sig .tc := ⟨.hbm, 129, rfl⟩
abbrev main_v84 : Ref sig .tc := ⟨.hbm, 130, rfl⟩
abbrev main_v85 : Ref sig .tc := ⟨.hbm, 131, rfl⟩
abbrev main_c_20 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_21 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_call3_cst : Ref sig .tc := ⟨.hbm, 147, rfl⟩
abbrev main_call3_v0 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_22 : Ref sig .tc := ⟨.hbm, 157, rfl⟩
abbrev main_v107 : Ref sig .tc := ⟨.hbm, 158, rfl⟩
abbrev main_cst_23 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_24 : Ref sig .tc := ⟨.hbm, 163, rfl⟩
abbrev main_v111 : Ref sig .tc := ⟨.hbm, 164, rfl⟩
abbrev main_v112 : Ref sig .tc := ⟨.hbm, 165, rfl⟩
abbrev main_cst_25 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_26 : Ref sig .tc := ⟨.hbm, 170, rfl⟩
abbrev main_call4_v0 : Ref sig .tc := ⟨.hbm, 171, rfl⟩
abbrev main_call4_v1 : Ref sig .tc := ⟨.hbm, 172, rfl⟩
abbrev main_v116 : Ref sig .tc := ⟨.hbm, 173, rfl⟩
abbrev main_c_27 : Ref sig .tc := ⟨.hbm, 174, rfl⟩
abbrev main_v117 : Ref sig .tc := ⟨.hbm, 175, rfl⟩
abbrev main_v118 : Ref sig .tc := ⟨.hbm, 176, rfl⟩
abbrev main_c_28 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_29 : Ref sig .tc := ⟨.hbm, 183, rfl⟩
abbrev main_v124 : Ref sig .tc := ⟨.hbm, 184, rfl⟩
abbrev main_v125 : Ref sig .tc := ⟨.hbm, 185, rfl⟩
abbrev main_c_30 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_c_31 : Ref sig .tc := ⟨.hbm, 195, rfl⟩
abbrev main_v134 : Ref sig .tc := ⟨.hbm, 196, rfl⟩
abbrev main_v135 : Ref sig .tc := ⟨.hbm, 197, rfl⟩
abbrev main_c_32 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_33 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_call5_cst : Ref sig .tc := ⟨.hbm, 213, rfl⟩
abbrev main_call5_v0 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_call6_cst : Ref sig .tc := ⟨.hbm, 221, rfl⟩
abbrev main_call6_v0 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_call7_cst : Ref sig .tc := ⟨.hbm, 232, rfl⟩
abbrev main_call7_v0 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  concatenates_S4194304_S131072_S4325376_d0 : Shape.Concatenates [S4194304, S131072] S4325376 0
  bcast_S_S4325376 : S_.BroadcastsInDim S4325376 (![] : Fin 0 → Fin S4325376.rank)
  bcast_S_S131072 : S_.BroadcastsInDim S131072 (![] : Fin 0 → Fin S131072.rank)
  bcast_S4325376_S4325376x1_0 : S4325376.BroadcastsInDim S4325376x1 (![0] : Fin 1 → Fin S4325376x1.rank)
  bcast_S4325376x1_S4325376x16_0_1 : S4325376x1.BroadcastsInDim S4325376x16 (![0, 1] : Fin 2 → Fin S4325376x16.rank)
  bcast_S_S131072x16 : S_.BroadcastsInDim S131072x16 (![] : Fin 0 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  shapeCasts_S131072x16_S128x16384 : S131072x16.ShapeCasts S128x16384
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S131072_S4325376x1_S4325376_n_0_0_1_wf : ScatterDims.WF S131072 S4325376x1 S4325376 [] [0] [0] 1
  gather_S131072_S4325376x1_S4325376_n_0_n_n_0_1_1_wf : GatherDims.WF S131072 S4325376x1 S4325376 [] [0] [] [0] [] 1 ![1]
  dot_S131072x32_S32x16_S131072x16_1_0_0_1_n_n_wf : DotDims.WF S131072x32 S32x16 S131072x16 [1] [0] [0] [1] [] []
  gather_S131072x16_S4325376x1_S4325376x16_1_0_n_n_0_1_116_wf : GatherDims.WF S131072x16 S4325376x1 S4325376x16 [1] [0] [] [0] [] 1 ![1, 16]
  scatter_S131072x16_S4325376x1_S4325376x16_1_0_0_1_wf : ScatterDims.WF S131072x16 S4325376x1 S4325376x16 [1] [0] [0] 1
  dot_S131072x16_S16x16_S131072x16_1_0_0_1_n_n_wf : DotDims.WF S131072x16 S16x16 S131072x16 [1] [0] [0] [1] [] []
  dot_S128x16384_S16384x256_S128x256_1_0_0_1_n_n_wf : DotDims.WF S128x16384 S16384x256 S128x256 [1] [0] [0] [1] [] []
  dot_S128x256_S256x1024_S128x1024_1_0_0_1_n_n_wf : DotDims.WF S128x256 S256x1024 S128x1024 [1] [0] [0] [1] [] []
  dot_S128x256_S256x1_S128x1_1_0_0_1_n_n_wf : DotDims.WF S128x256 S256x1 S128x1 [1] [0] [0] [1] [] []

variable [Facts₀]

def scatter_S131072_S4325376x1_S4325376_n_0_0_1 : ScatterDims S131072 S4325376x1 S4325376 where
  updateWindowDims := []
  insertedWindowDims := [0]
  scatterDimsToOperandDims := [0]
  indexVectorDim := 1
  wf := scatter_S131072_S4325376x1_S4325376_n_0_0_1_wf
def gather_S131072_S4325376x1_S4325376_n_0_n_n_0_1_1 : GatherDims S131072 S4325376x1 S4325376 where
  offsetDims := []
  collapsedSliceDims := [0]
  operandBatchingDims := []
  startIndicesBatchingDims := []
  startIndexMap := [0]
  indexVectorDim := 1
  sliceSizes := ![1]
  wf := gather_S131072_S4325376x1_S4325376_n_0_n_n_0_1_1_wf
def dot_S131072x32_S32x16_S131072x16_1_0_0_1_n_n : DotDims S131072x32 S32x16 S131072x16 where
  lhsContracting := [1]
  rhsContracting := [0]
  lhsNonContracting := [0]
  rhsNonContracting := [1]
  lhsBatch := []
  rhsBatch := []
  wf := dot_S131072x32_S32x16_S131072x16_1_0_0_1_n_n_wf
def gather_S131072x16_S4325376x1_S4325376x16_1_0_n_n_0_1_116 : GatherDims S131072x16 S4325376x1 S4325376x16 where
  offsetDims := [1]
  collapsedSliceDims := [0]
  operandBatchingDims := []
  startIndicesBatchingDims := []
  startIndexMap := [0]
  indexVectorDim := 1
  sliceSizes := ![1, 16]
  wf := gather_S131072x16_S4325376x1_S4325376x16_1_0_n_n_0_1_116_wf
def scatter_S131072x16_S4325376x1_S4325376x16_1_0_0_1 : ScatterDims S131072x16 S4325376x1 S4325376x16 where
  updateWindowDims := [1]
  insertedWindowDims := [0]
  scatterDimsToOperandDims := [0]
  indexVectorDim := 1
  wf := scatter_S131072x16_S4325376x1_S4325376x16_1_0_0_1_wf
def dot_S131072x16_S16x16_S131072x16_1_0_0_1_n_n : DotDims S131072x16 S16x16 S131072x16 where
  lhsContracting := [1]
  rhsContracting := [0]
  lhsNonContracting := [0]
  rhsNonContracting := [1]
  lhsBatch := []
  rhsBatch := []
  wf := dot_S131072x16_S16x16_S131072x16_1_0_0_1_n_n_wf
def dot_S128x16384_S16384x256_S128x256_1_0_0_1_n_n : DotDims S128x16384 S16384x256 S128x256 where
  lhsContracting := [1]
  rhsContracting := [0]
  lhsNonContracting := [0]
  rhsNonContracting := [1]
  lhsBatch := []
  rhsBatch := []
  wf := dot_S128x16384_S16384x256_S128x256_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

class Facts : Prop extends Facts₀ where

variable [Facts]
-- ==== Proof.KernelRun.lean ====
/-
  The idealized kernel's whole run, with its three results named.

  @main is fifteen segments: stretches of host operations and four TensorCore regions. The contents of every unscoped
  buffer at each segment boundary are a fold from the launch memory: a stretch applies its operations in order, a
  region leaves each of its windows' arrays at what its write-backs leave and every other buffer alone. Every weakly
  fair execution terminates without a fault in a state whose unscoped buffers hold the last boundary's contents; read at
  the three result buffers and at the eighteen arguments, that is the statement below. The arguments end as launched;
  what the result buffers hold is opened, boundary by boundary, in the modules that follow.
-/
import proofs.«180005_j27084063768597_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the policy head, the second value head and
    the first value head at the last boundary's contents and the arguments as launched. -/
theorem run_results : θ_run defs (onTc (τ := τ) (main (F := F))) ⟨m, fun _ => 0, ρ⟩ (fun r => ∀ c : Dev nD,
      r.2.mem ((c.tc : Thread nD τ).loc main_v98_0) = W15 m ρ c (Proc.devRef .tc main_v98_0)
      ∧ r.2.mem ((c.tc : Thread nD τ).loc main_v100) = W15 m ρ c (Proc.devRef .tc main_v100)
      ∧ r.2.mem ((c.tc : Thread nD τ).loc main_v99) = W15 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v98_0 (by decide)),
       h c _ (mem_uc main_v100 (by decide)),
       h c _ (mem_uc main_v99 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.KernelIdeal.Whole

end
-- ==== Proof.GraphStagesKernel.lean ====
/-
  The graph side of the idealized kernel's host program, as functions of arrays.

  The graph is given as a 2 × E array of node numbers (row 0 the sources, row 1 the targets). Every node gets a
  self-loop: the index vectors are the edge endpoints followed by 0 … N−1. A node's degree is the number of index
  entries that target it (a scatter-add of ones); its weight is 1/√degree where the degree is positive and 0 elsewhere;
  an edge's coefficient is the product of its two endpoints' weights (two gathers, negative node numbers wrapped by N).
  One graph layer takes the node features already multiplied by the layer's weight matrix, gathers each edge's source
  row, scales it by the edge's coefficient, scatter-adds the rows to the edges' targets, adds the bias to every row and
  takes the maximum with zero. These are the host operations of the program, composed; nothing is evaluated here.
-/
import proofs.«180005_j27084063768597_1_alg».proof.KernelIdeal
import proofs.«180005_j27084063768597_1_alg».proof.Proof.Gen.KernelIdeal

noncomputable section

namespace Cert.KernelIdeal.Graph

open Cert.KernelIdeal Cert.KernelIdeal.Gen Idealize.ShloMosaic Idealize.ShloMosaic.TcCoe Idealize.SL.Sem

variable {F : FTy → Type} [FloatOps F]

/-- The edges' source nodes followed by every node once. -/
def srcIdx (ei : (⟨S2x4194304, .i32⟩ : BufTy).Contents (Elt F)) : (⟨S4325376, .i32⟩ : BufTy).Contents (Elt F) :=
  concatenate S4325376 0 [⟨S4194304, (shapeCast _ (extractStridedSlice S1x4194304 ![0, 0] ei slices_S2x4194304_S1x4194304_0_0) shapeCasts_S1x4194304_S4194304)⟩, ⟨S131072, (iotaInDim S131072 32 0)⟩] concatenates_S4194304_S131072_S4325376_d0

/-- The edges' target nodes followed by every node once. -/
def dstIdx (ei : (⟨S2x4194304, .i32⟩ : BufTy).Contents (Elt F)) : (⟨S4325376, .i32⟩ : BufTy).Contents (Elt F) :=
  concatenate S4325376 0 [⟨S4194304, (shapeCast _ (extractStridedSlice S1x4194304 ![1, 0] ei slices_S2x4194304_S1x4194304_1_0) shapeCasts_S1x4194304_S4194304)⟩, ⟨S131072, (iotaInDim S131072 32 0)⟩] concatenates_S4194304_S131072_S4325376_d0

/-- An index vector as a column, negative entries wrapped by the node count. -/
def wrapIdx (v : (⟨S4325376, .i32⟩ : BufTy).Contents (Elt F)) : (⟨S4325376x1, .i32⟩ : BufTy).Contents (Elt F) :=
  broadcastInDim S4325376x1 ![0] bcast_S4325376_S4325376x1_0 (select (cmpi .slt v (broadcastInDim S4325376 ![] bcast_S_S4325376 (constantI S_ 32 0#32))) (addi v (broadcastInDim S4325376 ![] bcast_S_S4325376 (constantI S_ 32 131072#32))) v)

/-- Each node's degree: the number of index entries that target it. -/
def degree (dst : (⟨S4325376, .i32⟩ : BufTy).Contents (Elt F)) : (⟨S131072, .f32⟩ : BufTy).Contents (Elt F) :=
  Host.scatterAdd scatter_S131072_S4325376x1_S4325376_n_0_0_1 (broadcastInDim S131072 ![] bcast_S_S131072 (constant S_ .f32 0x00000000#32)) (broadcastInDim S4325376x1 ![0] bcast_S4325376_S4325376x1_0 dst) (broadcastInDim S4325376 ![] bcast_S_S4325376 (constant S_ .f32 0x3F800000#32))

/-- Each node's weight: the inverse square root of its degree (taken of the larger of the degree and one) where the
    degree is positive, zero elsewhere. -/
def nodeWeight (dst : (⟨S4325376, .i32⟩ : BufTy).Contents (Elt F)) : (⟨S131072, .f32⟩ : BufTy).Contents (Elt F) :=
  select (cmpf .ogt (degree dst) (broadcastInDim S131072 ![] bcast_S_S131072 (constant S_ .f32 0x00000000#32))) (Host.rsqrt (maximumf (degree dst) (broadcastInDim S131072 ![] bcast_S_S131072 (constant S_ .f32 0x3F800000#32)))) (broadcastInDim S131072 ![] bcast_S_S131072 (id (constant S_ .f32 0x00000000#32)))

/-- Each edge's coefficient: the product of its source's and its target's weights. -/
def edgeCoeff (src dst : (⟨S4325376, .i32⟩ : BufTy).Contents (Elt F)) : (⟨S4325376, .f32⟩ : BufTy).Contents (Elt F) :=
  mulf (Host.gather gather_S131072_S4325376x1_S4325376_n_0_n_n_0_1_1 (nodeWeight dst) (wrapIdx src)) (Host.gather gather_S131072_S4325376x1_S4325376_n_0_n_n_0_1_1 (nodeWeight dst) (wrapIdx dst))

/-- One graph layer after its matrix product: gather the sources' rows, scale by the edges' coefficients, add up at the
    targets, add the bias, take the maximum with zero. -/
def layer (src dst : (⟨S4325376, .i32⟩ : BufTy).Contents (Elt F)) (coeff : (⟨S4325376, .f32⟩ : BufTy).Contents (Elt F)) (hw : (⟨S131072x16, .f32⟩ : BufTy).Contents (Elt F)) (b : (⟨S16, .f32⟩ : BufTy).Contents (Elt F)) : (⟨S131072x16, .f32⟩ : BufTy).Contents (Elt F) :=
  maximumf (addf (Host.scatterAdd scatter_S131072x16_S4325376x1_S4325376x16_1_0_0_1 (broadcastInDim S131072x16 ![] bcast_S_S131072x16 (constant S_ .f32 0x00000000#32)) (broadcastInDim S4325376x1 ![0] bcast_S4325376_S4325376x1_0 dst) (mulf (broadcastInDim S4325376x16 ![0, 1] bcast_S4325376x1_S4325376x16_0_1 (broadcastInDim S4325376x1 ![0] bcast_S4325376_S4325376x1_0 coeff)) (Host.gather gather_S131072x16_S4325376x1_S4325376x16_1_0_n_n_0_1_116 hw (wrapIdx src)))) (broadcastInDim S131072x16 ![0, 1] bcast_S1x16_S131072x16_0_1 (broadcastInDim S1x16 ![1] bcast_S16_S1x16_1 b))) (broadcastInDim S131072x16 ![] bcast_S_S131072x16 (constant S_ .f32 0x00000000#32))

/-- One graph layer over the graph's own index vectors and coefficients, all computed from the edge array. -/
def hiddenOf (ei : (⟨S2x4194304, .i32⟩ : BufTy).Contents (Elt F)) (hw : (⟨S131072x16, .f32⟩ : BufTy).Contents (Elt F)) (b : (⟨S16, .f32⟩ : BufTy).Contents (Elt F)) : (⟨S131072x16, .f32⟩ : BufTy).Contents (Elt F) :=
  layer (srcIdx ei) (dstIdx ei) (edgeCoeff (srcIdx ei) (dstIdx ei)) hw b

end Cert.KernelIdeal.Graph

end
-- ==== Proof.LibBufCasts.lean ====
/-
  Contents of a typed buffer reference, moved to the buffer's own type and back.

  A function called from @main states its operations at the types of the tensor values; each operand is moved from its
  buffer's type to the value's type, and each result back, along the equation "the buffer's type is the value's type".
  Whatever that equation's proof, the two moves cancel: reading a called function's line of operations leaves them
  stacked in pairs around every intermediate value, and these two equations remove the pairs without unfolding anything.
-/
import Idealize.ShloMosaic.Lib.StableHlo

namespace Cert.Lib.BufCasts

open Idealize.ShloMosaic Idealize.ShloMosaic.StableHlo

variable {sig : RefSig} {Val : EltTy → Type} {T : BufTy}

/-- Contents moved to the buffer's own type and back to the value's type are unchanged. -/
theorem ofBuf_toBuf (x : TRef sig T) (v : T.Contents Val) : x.ofBuf (x.toBuf v) = v := by
  obtain ⟨r, h, h1, h2⟩ := x
  subst h
  rfl

/-- Contents moved to the value's type and back to the buffer's own type are unchanged. -/
theorem toBuf_ofBuf (x : TRef sig T) (v : x.ref.ty.Contents Val) : x.toBuf (x.ofBuf v) = v := by
  obtain ⟨r, h, h1, h2⟩ := x
  subst h
  rfl

end Cert.Lib.BufCasts
-- ==== Proof.KernelStages.lean ====
/-
  The kernel's host stretches as functions of what the regions leave.

  Between two regions the host program is a straight line of single-assignment operations; the buffer a later stage
  reads holds the composition of the operations that lead to it, applied to the buffers as the previous region left
  them. The graph's two index vectors and the edges' coefficients are computed once, before the first region, and
  carried unchanged across every later segment (no later operation or region writes them). Each of the three layers is
  the same composition over the previous region's product; the last region's operands are casts, reshapes and two
  joins of the third layer's output and of the arguments; the three results are the last region's first output and the
  two columns of its second.
-/
import proofs.«180005_j27084063768597_1_alg».proof.Proof.Gen.KernelIdeal.Frame
import proofs.«180005_j27084063768597_1_alg».proof.Proof.GraphStagesKernel
import proofs.«180005_j27084063768597_1_alg».proof.Proof.LibBufCasts
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Contents moved between a buffer's type and its tensor value's type

A function called from @main (the rectifier, the select) states its operations at the tensor values' types and moves
each operand and result along "the buffer's type is the value's type". At a literal buffer that move is the identity. -/

theorem toBuf_main_v16 (h1 : main_v16.ty = (⟨S131072, .f32⟩ : BufTy)) (h2 : main_v16.space ≠ .host) (h3 : main_v16.isScoped = false) (v : (⟨S131072, .f32⟩ : BufTy).Contents (Elt Ideal)) :
    (TRef.of (sig := sig) (T := ⟨S131072, .f32⟩) main_v16 h1 h2 h3).toBuf v = v := rfl
theorem ofBuf_main_v12 (h1 : main_v12.ty = (⟨S131072, .i1⟩ : BufTy)) (h2 : main_v12.space ≠ .host) (h3 : main_v12.isScoped = false) (v : (⟨S131072, .i1⟩ : BufTy).Contents (Elt Ideal)) :
    (TRef.of (sig := sig) (T := ⟨S131072, .i1⟩) main_v12 h1 h2 h3).ofBuf v = v := rfl
theorem ofBuf_main_v15 (h1 : main_v15.ty = (⟨S131072, .f32⟩ : BufTy)) (h2 : main_v15.space ≠ .host) (h3 : main_v15.isScoped = false) (v : (⟨S131072, .f32⟩ : BufTy).Contents (Elt Ideal)) :
    (TRef.of (sig := sig) (T := ⟨S131072, .f32⟩) main_v15 h1 h2 h3).ofBuf v = v := rfl
theorem ofBuf_main_cst_3 (h1 : main_cst_3.ty = (⟨S_, .f32⟩ : BufTy)) (h2 : main_cst_3.space ≠ .host) (h3 : main_cst_3.isScoped = false) (v : (⟨S_, .f32⟩ : BufTy).Contents (Elt Ideal)) :
    (TRef.of (sig := sig) (T := ⟨S_, .f32⟩) main_cst_3 h1 h2 h3).ofBuf v = v := rfl
theorem toBuf_main_v49 (h1 : main_v49.ty = (⟨S131072x16, .f32⟩ : BufTy)) (h2 : main_v49.space ≠ .host) (h3 : main_v49.isScoped = false) (v : (⟨S131072x16, .f32⟩ : BufTy).Contents (Elt Ideal)) :
    (TRef.of (sig := sig) (T := ⟨S131072x16, .f32⟩) main_v49 h1 h2 h3).toBuf v = v := rfl
theorem ofBuf_main_v48 (h1 : main_v48.ty = (⟨S131072x16, .f32⟩ : BufTy)) (h2 : main_v48.space ≠ .host) (h3 : main_v48.isScoped = false) (v : (⟨S131072x16, .f32⟩ : BufTy).Contents (Elt Ideal)) :
    (TRef.of (sig := sig) (T := ⟨S131072x16, .f32⟩) main_v48 h1 h2 h3).ofBuf v = v := rfl
theorem toBuf_main_v67 (h1 : main_v67.ty = (⟨S131072x16, .f32⟩ : BufTy)) (h2 : main_v67.space ≠ .host) (h3 : main_v67.isScoped = false) (v : (⟨S131072x16, .f32⟩ : BufTy).Contents (Elt Ideal)) :
    (TRef.of (sig := sig) (T := ⟨S131072x16, .f32⟩) main_v67 h1 h2 h3).toBuf v = v := rfl
theorem ofBuf_main_v66 (h1 : main_v66.ty = (⟨S131072x16, .f32⟩ : BufTy)) (h2 : main_v66.space ≠ .host) (h3 : main_v66.isScoped = false) (v : (⟨S131072x16, .f32⟩ : BufTy).Contents (Elt Ideal)) :
    (TRef.of (sig := sig) (T := ⟨S131072x16, .f32⟩) main_v66 h1 h2 h3).ofBuf v = v := rfl
theorem toBuf_main_v85 (h1 : main_v85.ty = (⟨S131072x16, .f32⟩ : BufTy)) (h2 : main_v85.space ≠ .host) (h3 : main_v85.isScoped = false) (v : (⟨S131072x16, .f32⟩ : BufTy).Contents (Elt Ideal)) :
    (TRef.of (sig := sig) (T := ⟨S131072x16, .f32⟩) main_v85 h1 h2 h3).toBuf v = v := rfl
theorem ofBuf_main_v84 (h1 : main_v84.ty = (⟨S131072x16, .f32⟩ : BufTy)) (h2 : main_v84.space ≠ .host) (h3 : main_v84.isScoped = false) (v : (⟨S131072x16, .f32⟩ : BufTy).Contents (Elt Ideal)) :
    (TRef.of (sig := sig) (T := ⟨S131072x16, .f32⟩) main_v84 h1 h2 h3).ofBuf v = v := rfl

/-- Finish a read that the one-pass form leaves inside a list of (shape, array) pairs: rewrite each operation's result at
    its own buffer to its function's value, and at any other buffer to what was there. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- After the first stretches: the two index vectors and the edges' coefficients, functions of the graph alone. -/
theorem at3_src : W3 m ρ c (Proc.devRef .tc main_v5) = Graph.srcIdx (m ((c : Thread nD τ).loc main_arg1)) := by
  show StableHlo.after hostOps0_2 (StableHlo.after hostOps0_1 (StableHlo.after hostOps0 (W0 m ρ c))) (Proc.devRef .tc main_v5) = _
  after_results_simp <;> rfl
theorem at3_dst : W3 m ρ c (Proc.devRef .tc main_v6) = Graph.dstIdx (m ((c : Thread nD τ).loc main_arg1)) := by
  show StableHlo.after hostOps0_2 (StableHlo.after hostOps0_1 (StableHlo.after hostOps0 (W0 m ρ c))) (Proc.devRef .tc main_v6) = _
  after_results_simp <;> rfl
theorem at3_coeff : W3 m ρ c (Proc.devRef .tc main_v31) = Graph.edgeCoeff (Graph.srcIdx (m ((c : Thread nD τ).loc main_arg1))) (Graph.dstIdx (m ((c : Thread nD τ).loc main_arg1))) := by
  show StableHlo.after hostOps0_2 (StableHlo.after hostOps0_1 (StableHlo.after hostOps0 (W0 m ρ c))) (Proc.devRef .tc main_v31) = _
  after_results_simp
  simp only [Cert.Lib.BufCasts.ofBuf_toBuf, Cert.Lib.BufCasts.toBuf_ofBuf, toBuf_main_v16, ofBuf_main_v12, ofBuf_main_v15, ofBuf_main_cst_3]
  finish_results
  rfl
theorem keep4_main_v5 : W4 m ρ c (Proc.devRef .tc main_v5) = W3 m ρ c (Proc.devRef .tc main_v5) := W4_of_ne m ρ c main_v5 (by decide)
theorem at4_src : W4 m ρ c (Proc.devRef .tc main_v5) = Graph.srcIdx (m ((c : Thread nD τ).loc main_arg1)) := (keep4_main_v5 m ρ c).trans (at3_src m ρ c)
theorem keep6_main_v5 : W6 m ρ c (Proc.devRef .tc main_v5) = W4 m ρ c (Proc.devRef .tc main_v5) := by
  show StableHlo.after hostOps1_1 (StableHlo.after hostOps1 (W4 m ρ c)) (Proc.devRef .tc main_v5) = _
  after_results_simp
theorem at6_src : W6 m ρ c (Proc.devRef .tc main_v5) = Graph.srcIdx (m ((c : Thread nD τ).loc main_arg1)) := (keep6_main_v5 m ρ c).trans (at4_src m ρ c)
theorem keep7_main_v5 : W7 m ρ c (Proc.devRef .tc main_v5) = W6 m ρ c (Proc.devRef .tc main_v5) := W7_of_ne m ρ c main_v5 (by decide)
theorem at7_src : W7 m ρ c (Proc.devRef .tc main_v5) = Graph.srcIdx (m ((c : Thread nD τ).loc main_arg1)) := (keep7_main_v5 m ρ c).trans (at6_src m ρ c)
theorem keep9_main_v5 : W9 m ρ c (Proc.devRef .tc main_v5) = W7 m ρ c (Proc.devRef .tc main_v5) := by
  show StableHlo.after hostOps2_1 (StableHlo.after hostOps2 (W7 m ρ c)) (Proc.devRef .tc main_v5) = _
  after_results_simp
theorem at9_src : W9 m ρ c (Proc.devRef .tc main_v5) = Graph.srcIdx (m ((c : Thread nD τ).loc main_arg1)) := (keep9_main_v5 m ρ c).trans (at7_src m ρ c)
theorem keep10_main_v5 : W10 m ρ c (Proc.devRef .tc main_v5) = W9 m ρ c (Proc.devRef .tc main_v5) := W10_of_ne m ρ c main_v5 (by decide)
theorem at10_src : W10 m ρ c (Proc.devRef .tc main_v5) = Graph.srcIdx (m ((c : Thread nD τ).loc main_arg1)) := (keep10_main_v5 m ρ c).trans (at9_src m ρ c)
theorem keep4_main_v6 : W4 m ρ c (Proc.devRef .tc main_v6) = W3 m ρ c (Proc.devRef .tc main_v6) := W4_of_ne m ρ c main_v6 (by decide)
theorem at4_dst : W4 m ρ c (Proc.devRef .tc main_v6) = Graph.dstIdx (m ((c : Thread nD τ).loc main_arg1)) := (keep4_main_v6 m ρ c).trans (at3_dst m ρ c)
theorem keep6_main_v6 : W6 m ρ c (Proc.devRef .tc main_v6) = W4 m ρ c (Proc.devRef .tc main_v6) := by
  show StableHlo.after hostOps1_1 (StableHlo.after hostOps1 (W4 m ρ c)) (Proc.devRef .tc main_v6) = _
  after_results_simp
theorem at6_dst : W6 m ρ c (Proc.devRef .tc main_v6) = Graph.dstIdx (m ((c : Thread nD τ).loc main_arg1)) := (keep6_main_v6 m ρ c).trans (at4_dst m ρ c)
theorem keep7_main_v6 : W7 m ρ c (Proc.devRef .tc main_v6) = W6 m ρ c (Proc.devRef .tc main_v6) := W7_of_ne m ρ c main_v6 (by decide)
theorem at7_dst : W7 m ρ c (Proc.devRef .tc main_v6) = Graph.dstIdx (m ((c : Thread nD τ).loc main_arg1)) := (keep7_main_v6 m ρ c).trans (at6_dst m ρ c)
theorem keep9_main_v6 : W9 m ρ c (Proc.devRef .tc main_v6) = W7 m ρ c (Proc.devRef .tc main_v6) := by
  show StableHlo.after hostOps2_1 (StableHlo.after hostOps2 (W7 m ρ c)) (Proc.devRef .tc main_v6) = _
  after_results_simp
theorem at9_dst : W9 m ρ c (Proc.devRef .tc main_v6) = Graph.dstIdx (m ((c : Thread nD τ).loc main_arg1)) := (keep9_main_v6 m ρ c).trans (at7_dst m ρ c)
theorem keep10_main_v6 : W10 m ρ c (Proc.devRef .tc main_v6) = W9 m ρ c (Proc.devRef .tc main_v6) := W10_of_ne m ρ c main_v6 (by decide)
theorem at10_dst : W10 m ρ c (Proc.devRef .tc main_v6) = Graph.dstIdx (m ((c : Thread nD τ).loc main_arg1)) := (keep10_main_v6 m ρ c).trans (at9_dst m ρ c)
theorem keep4_main_v31 : W4 m ρ c (Proc.devRef .tc main_v31) = W3 m ρ c (Proc.devRef .tc main_v31) := W4_of_ne m ρ c main_v31 (by decide)
theorem at4_coeff : W4 m ρ c (Proc.devRef .tc main_v31) = Graph.edgeCoeff (Graph.srcIdx (m ((c : Thread nD τ).loc main_arg1))) (Graph.dstIdx (m ((c : Thread nD τ).loc main_arg1))) := (keep4_main_v31 m ρ c).trans (at3_coeff m ρ c)
theorem keep6_main_v31 : W6 m ρ c (Proc.devRef .tc main_v31) = W4 m ρ c (Proc.devRef .tc main_v31) := by
  show StableHlo.after hostOps1_1 (StableHlo.after hostOps1 (W4 m ρ c)) (Proc.devRef .tc main_v31) = _
  after_results_simp
theorem at6_coeff : W6 m ρ c (Proc.devRef .tc main_v31) = Graph.edgeCoeff (Graph.srcIdx (m ((c : Thread nD τ).loc main_arg1))) (Graph.dstIdx (m ((c : Thread nD τ).loc main_arg1))) := (keep6_main_v31 m ρ c).trans (at4_coeff m ρ c)
theorem keep7_main_v31 : W7 m ρ c (Proc.devRef .tc main_v31) = W6 m ρ c (Proc.devRef .tc main_v31) := W7_of_ne m ρ c main_v31 (by decide)
theorem at7_coeff : W7 m ρ c (Proc.devRef .tc main_v31) = Graph.edgeCoeff (Graph.srcIdx (m ((c : Thread nD τ).loc main_arg1))) (Graph.dstIdx (m ((c : Thread nD τ).loc main_arg1))) := (keep7_main_v31 m ρ c).trans (at6_coeff m ρ c)
theorem keep9_main_v31 : W9 m ρ c (Proc.devRef .tc main_v31) = W7 m ρ c (Proc.devRef .tc main_v31) := by
  show StableHlo.after hostOps2_1 (StableHlo.after hostOps2 (W7 m ρ c)) (Proc.devRef .tc main_v31) = _
  after_results_simp
theorem at9_coeff : W9 m ρ c (Proc.devRef .tc main_v31) = Graph.edgeCoeff (Graph.srcIdx (m ((c : Thread nD τ).loc main_arg1))) (Graph.dstIdx (m ((c : Thread nD τ).loc main_arg1))) := (keep9_main_v31 m ρ c).trans (at7_coeff m ρ c)
theorem keep10_main_v31 : W10 m ρ c (Proc.devRef .tc main_v31) = W9 m ρ c (Proc.devRef .tc main_v31) := W10_of_ne m ρ c main_v31 (by decide)
theorem at10_coeff : W10 m ρ c (Proc.devRef .tc main_v31) = Graph.edgeCoeff (Graph.srcIdx (m ((c : Thread nD τ).loc main_arg1))) (Graph.dstIdx (m ((c : Thread nD τ).loc main_arg1))) := (keep10_main_v31 m ρ c).trans (at9_coeff m ρ c)

/-- The layer after region 0: the stretch's operations composed, over what the region left. -/
theorem layer_at6 : W6 m ρ c (Proc.devRef .tc main_v49) = Graph.layer (W4 m ρ c (Proc.devRef .tc main_v5)) (W4 m ρ c (Proc.devRef .tc main_v6)) (W4 m ρ c (Proc.devRef .tc main_v31)) (W4 m ρ c (Proc.devRef .tc main_v32)) (W4 m ρ c (Proc.devRef .tc main_arg3)) := by
  show StableHlo.after hostOps1_1 (StableHlo.after hostOps1 (W4 m ρ c)) (Proc.devRef .tc main_v49) = _
  after_results_simp
  simp only [Cert.Lib.BufCasts.ofBuf_toBuf, Cert.Lib.BufCasts.toBuf_ofBuf, toBuf_main_v49, ofBuf_main_v48]
  rfl

/-- The layer after region 1: the stretch's operations composed, over what the region left. -/
theorem layer_at9 : W9 m ρ c (Proc.devRef .tc main_v67) = Graph.layer (W7 m ρ c (Proc.devRef .tc main_v5)) (W7 m ρ c (Proc.devRef .tc main_v6)) (W7 m ρ c (Proc.devRef .tc main_v31)) (W7 m ρ c (Proc.devRef .tc main_v50)) (W7 m ρ c (Proc.devRef .tc main_arg5)) := by
  show StableHlo.after hostOps2_1 (StableHlo.after hostOps2 (W7 m ρ c)) (Proc.devRef .tc main_v67) = _
  after_results_simp
  simp only [Cert.Lib.BufCasts.ofBuf_toBuf, Cert.Lib.BufCasts.toBuf_ofBuf, toBuf_main_v67, ofBuf_main_v66]
  rfl

/-- The layer after region 2: the stretch's operations composed, over what the region left. -/
theorem layer_at12 : W12 m ρ c (Proc.devRef .tc main_v85) = Graph.layer (W10 m ρ c (Proc.devRef .tc main_v5)) (W10 m ρ c (Proc.devRef .tc main_v6)) (W10 m ρ c (Proc.devRef .tc main_v31)) (W10 m ρ c (Proc.devRef .tc main_v68)) (W10 m ρ c (Proc.devRef .tc main_arg7)) := by
  show StableHlo.after hostOps3_1 (StableHlo.after hostOps3 (W10 m ρ c)) (Proc.devRef .tc main_v85) = _
  after_results_simp
  simp only [Cert.Lib.BufCasts.ofBuf_toBuf, Cert.Lib.BufCasts.toBuf_ofBuf, toBuf_main_v85, ofBuf_main_v84]
  rfl

/-- The last region's operands: the third layer's output laid out as 128 rows of 16384 and cast, the weight matrices cast,
    the two one-column matrices joined and cast, the biases as single rows. -/
theorem at13_main_v89 : W13 m ρ c (Proc.devRef .tc main_v89) = truncf (F := Ideal) .bf16 (shapeCast S128x16384 (W12 m ρ c (Proc.devRef .tc main_v85)) shapeCasts_S131072x16_S128x16384) bitsLt_bf16_f32 := by
  show StableHlo.after hostOps3_2 (W12 m ρ c) (Proc.devRef .tc main_v89) = _
  after_results_simp <;> rfl
theorem at13_main_v90 : W13 m ρ c (Proc.devRef .tc main_v90) = truncf (F := Ideal) .bf16 (W12 m ρ c (Proc.devRef .tc main_arg8)) bitsLt_bf16_f32 := by
  show StableHlo.after hostOps3_2 (W12 m ρ c) (Proc.devRef .tc main_v90) = _
  after_results_simp <;> rfl
theorem at13_main_v91 : W13 m ρ c (Proc.devRef .tc main_v91) = truncf (F := Ideal) .bf16 (W12 m ρ c (Proc.devRef .tc main_arg10)) bitsLt_bf16_f32 := by
  show StableHlo.after hostOps3_2 (W12 m ρ c) (Proc.devRef .tc main_v91) = _
  after_results_simp <;> rfl
theorem at13_main_v92 : W13 m ρ c (Proc.devRef .tc main_v92) = truncf (F := Ideal) .bf16 (W12 m ρ c (Proc.devRef .tc main_arg12)) bitsLt_bf16_f32 := by
  show StableHlo.after hostOps3_2 (W12 m ρ c) (Proc.devRef .tc main_v92) = _
  after_results_simp <;> rfl
theorem at13_main_v93 : W13 m ρ c (Proc.devRef .tc main_v93) = truncf (F := Ideal) .bf16 (concatenate S256x2 1 [⟨S256x1, (W12 m ρ c (Proc.devRef .tc main_arg14))⟩, ⟨S256x1, (W12 m ρ c (Proc.devRef .tc main_arg16))⟩] concatenates_S256x1_S256x1_S256x2_d1) bitsLt_bf16_f32 := by
  show StableHlo.after hostOps3_2 (W12 m ρ c) (Proc.devRef .tc main_v93) = _
  after_results_simp <;> rfl
theorem at13_main_v94 : W13 m ρ c (Proc.devRef .tc main_v94) = shapeCast S1x256 (W12 m ρ c (Proc.devRef .tc main_arg9)) shapeCasts_S256_S1x256 := by
  show StableHlo.after hostOps3_2 (W12 m ρ c) (Proc.devRef .tc main_v94) = _
  after_results_simp <;> rfl
theorem at13_main_v95 : W13 m ρ c (Proc.devRef .tc main_v95) = shapeCast S1x1024 (W12 m ρ c (Proc.devRef .tc main_arg11)) shapeCasts_S1024_S1x1024 := by
  show StableHlo.after hostOps3_2 (W12 m ρ c) (Proc.devRef .tc main_v95) = _
  after_results_simp <;> rfl
theorem at13_main_v96 : W13 m ρ c (Proc.devRef .tc main_v96) = shapeCast S1x256 (W12 m ρ c (Proc.devRef .tc main_arg13)) shapeCasts_S256_S1x256 := by
  show StableHlo.after hostOps3_2 (W12 m ρ c) (Proc.devRef .tc main_v96) = _
  after_results_simp <;> rfl
theorem at13_main_v97 : W13 m ρ c (Proc.devRef .tc main_v97) = shapeCast S1x2 (concatenate S2 0 [⟨S1, (W12 m ρ c (Proc.devRef .tc main_arg15))⟩, ⟨S1, (W12 m ρ c (Proc.devRef .tc main_arg17))⟩] concatenates_S1_S1_S2_d0) shapeCasts_S2_S1x2 := by
  show StableHlo.after hostOps3_2 (W12 m ρ c) (Proc.devRef .tc main_v97) = _
  after_results_simp <;> rfl

/-- The last stretch: the policy head is the last region's first output; the two value heads are the two columns of its
    second output. -/
theorem at15_policy : W15 m ρ c (Proc.devRef .tc main_v98_0) = W14 m ρ c (Proc.devRef .tc main_v98_0) := by
  show StableHlo.after hostOps4 (W14 m ρ c) (Proc.devRef .tc main_v98_0) = _
  after_results_simp
theorem at15_value_int : W15 m ρ c (Proc.devRef .tc main_v99) = extractStridedSlice S128x1 ![0, 0] (W14 m ρ c (Proc.devRef .tc main_v98_1)) slices_S128x2_S128x1_0_0 := by
  show StableHlo.after hostOps4 (W14 m ρ c) (Proc.devRef .tc main_v99) = _
  after_results_simp <;> rfl
theorem at15_value_ext : W15 m ρ c (Proc.devRef .tc main_v100) = extractStridedSlice S128x1 ![0, 1] (W14 m ρ c (Proc.devRef .tc main_v98_1)) slices_S128x2_S128x1_0_1 := by
  show StableHlo.after hostOps4 (W14 m ρ c) (Proc.devRef .tc main_v100) = _
  after_results_simp <;> rfl

end Cert.KernelIdeal.Whole

end
-- ==== Proof.KernelCarry.lean ====
/-
  The arguments across the kernel's segments.

  No host operation and no region writes an argument array, so at every segment boundary an argument's buffer holds
  what it held at launch. Each statement below reads one argument at the boundary where a later stage needs it: a host
  stretch is walked operation by operation (none writes the buffer), a region by its list of window arrays (the buffer
  is none of them).
-/
import proofs.«180005_j27084063768597_1_alg».proof.Proof.Gen.KernelIdeal.Frame
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem at3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem at3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem keep4_main_arg3 : W4 m ρ c (Proc.devRef .tc main_arg3) = W3 m ρ c (Proc.devRef .tc main_arg3) := W4_of_ne m ρ c main_arg3 (by decide)
theorem at4_main_arg3 : W4 m ρ c (Proc.devRef .tc main_arg3) = m ((c : Thread nD τ).loc main_arg3) := (keep4_main_arg3 m ρ c).trans (at3_main_arg3 m ρ c)

theorem at3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem keep4_main_arg4 : W4 m ρ c (Proc.devRef .tc main_arg4) = W3 m ρ c (Proc.devRef .tc main_arg4) := W4_of_ne m ρ c main_arg4 (by decide)
theorem at4_main_arg4 : W4 m ρ c (Proc.devRef .tc main_arg4) = m ((c : Thread nD τ).loc main_arg4) := (keep4_main_arg4 m ρ c).trans (at3_main_arg4 m ρ c)
theorem keep6_main_arg4 : W6 m ρ c (Proc.devRef .tc main_arg4) = W4 m ρ c (Proc.devRef .tc main_arg4) := by
  show StableHlo.after hostOps1_1 (StableHlo.after hostOps1 (W4 m ρ c)) (Proc.devRef .tc main_arg4) = _
  after_results_simp
theorem at6_main_arg4 : W6 m ρ c (Proc.devRef .tc main_arg4) = m ((c : Thread nD τ).loc main_arg4) := (keep6_main_arg4 m ρ c).trans (at4_main_arg4 m ρ c)

theorem at3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp
theorem keep4_main_arg5 : W4 m ρ c (Proc.devRef .tc main_arg5) = W3 m ρ c (Proc.devRef .tc main_arg5) := W4_of_ne m ρ c main_arg5 (by decide)
theorem at4_main_arg5 : W4 m ρ c (Proc.devRef .tc main_arg5) = m ((c : Thread nD τ).loc main_arg5) := (keep4_main_arg5 m ρ c).trans (at3_main_arg5 m ρ c)
theorem keep6_main_arg5 : W6 m ρ c (Proc.devRef .tc main_arg5) = W4 m ρ c (Proc.devRef .tc main_arg5) := by
  show StableHlo.after hostOps1_1 (StableHlo.after hostOps1 (W4 m ρ c)) (Proc.devRef .tc main_arg5) = _
  after_results_simp
theorem at6_main_arg5 : W6 m ρ c (Proc.devRef .tc main_arg5) = m ((c : Thread nD τ).loc main_arg5) := (keep6_main_arg5 m ρ c).trans (at4_main_arg5 m ρ c)
theorem keep7_main_arg5 : W7 m ρ c (Proc.devRef .tc main_arg5) = W6 m ρ c (Proc.devRef .tc main_arg5) := W7_of_ne m ρ c main_arg5 (by decide)
theorem at7_main_arg5 : W7 m ρ c (Proc.devRef .tc main_arg5) = m ((c : Thread nD τ).loc main_arg5) := (keep7_main_arg5 m ρ c).trans (at6_main_arg5 m ρ c)

theorem at3_main_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp
theorem keep4_main_arg6 : W4 m ρ c (Proc.devRef .tc main_arg6) = W3 m ρ c (Proc.devRef .tc main_arg6) := W4_of_ne m ρ c main_arg6 (by decide)
theorem at4_main_arg6 : W4 m ρ c (Proc.devRef .tc main_arg6) = m ((c : Thread nD τ).loc main_arg6) := (keep4_main_arg6 m ρ c).trans (at3_main_arg6 m ρ c)
theorem keep6_main_arg6 : W6 m ρ c (Proc.devRef .tc main_arg6) = W4 m ρ c (Proc.devRef .tc main_arg6) := by
  show StableHlo.after hostOps1_1 (StableHlo.after hostOps1 (W4 m ρ c)) (Proc.devRef .tc main_arg6) = _
  after_results_simp
theorem at6_main_arg6 : W6 m ρ c (Proc.devRef .tc main_arg6) = m ((c : Thread nD τ).loc main_arg6) := (keep6_main_arg6 m ρ c).trans (at4_main_arg6 m ρ c)
theorem keep7_main_arg6 : W7 m ρ c (Proc.devRef .tc main_arg6) = W6 m ρ c (Proc.devRef .tc main_arg6) := W7_of_ne m ρ c main_arg6 (by decide)
theorem at7_main_arg6 : W7 m ρ c (Proc.devRef .tc main_arg6) = m ((c : Thread nD τ).loc main_arg6) := (keep7_main_arg6 m ρ c).trans (at6_main_arg6 m ρ c)
theorem keep9_main_arg6 : W9 m ρ c (Proc.devRef .tc main_arg6) = W7 m ρ c (Proc.devRef .tc main_arg6) := by
  show StableHlo.after hostOps2_1 (StableHlo.after hostOps2 (W7 m ρ c)) (Proc.devRef .tc main_arg6) = _
  after_results_simp
theorem at9_main_arg6 : W9 m ρ c (Proc.devRef .tc main_arg6) = m ((c : Thread nD τ).loc main_arg6) := (keep9_main_arg6 m ρ c).trans (at7_main_arg6 m ρ c)

theorem at3_main_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp
theorem keep4_main_arg7 : W4 m ρ c (Proc.devRef .tc main_arg7) = W3 m ρ c (Proc.devRef .tc main_arg7) := W4_of_ne m ρ c main_arg7 (by decide)
theorem at4_main_arg7 : W4 m ρ c (Proc.devRef .tc main_arg7) = m ((c : Thread nD τ).loc main_arg7) := (keep4_main_arg7 m ρ c).trans (at3_main_arg7 m ρ c)
theorem keep6_main_arg7 : W6 m ρ c (Proc.devRef .tc main_arg7) = W4 m ρ c (Proc.devRef .tc main_arg7) := by
  show StableHlo.after hostOps1_1 (StableHlo.after hostOps1 (W4 m ρ c)) (Proc.devRef .tc main_arg7) = _
  after_results_simp
theorem at6_main_arg7 : W6 m ρ c (Proc.devRef .tc main_arg7) = m ((c : Thread nD τ).loc main_arg7) := (keep6_main_arg7 m ρ c).trans (at4_main_arg7 m ρ c)
theorem keep7_main_arg7 : W7 m ρ c (Proc.devRef .tc main_arg7) = W6 m ρ c (Proc.devRef .tc main_arg7) := W7_of_ne m ρ c main_arg7 (by decide)
theorem at7_main_arg7 : W7 m ρ c (Proc.devRef .tc main_arg7) = m ((c : Thread nD τ).loc main_arg7) := (keep7_main_arg7 m ρ c).trans (at6_main_arg7 m ρ c)
theorem keep9_main_arg7 : W9 m ρ c (Proc.devRef .tc main_arg7) = W7 m ρ c (Proc.devRef .tc main_arg7) := by
  show StableHlo.after hostOps2_1 (StableHlo.after hostOps2 (W7 m ρ c)) (Proc.devRef .tc main_arg7) = _
  after_results_simp
theorem at9_main_arg7 : W9 m ρ c (Proc.devRef .tc main_arg7) = m ((c : Thread nD τ).loc main_arg7) := (keep9_main_arg7 m ρ c).trans (at7_main_arg7 m ρ c)
theorem keep10_main_arg7 : W10 m ρ c (Proc.devRef .tc main_arg7) = W9 m ρ c (Proc.devRef .tc main_arg7) := W10_of_ne m ρ c main_arg7 (by decide)
theorem at10_main_arg7 : W10 m ρ c (Proc.devRef .tc main_arg7) = m ((c : Thread nD τ).loc main_arg7) := (keep10_main_arg7 m ρ c).trans (at9_main_arg7 m ρ c)

theorem at3_main_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp
theorem keep4_main_arg8 : W4 m ρ c (Proc.devRef .tc main_arg8) = W3 m ρ c (Proc.devRef .tc main_arg8) := W4_of_ne m ρ c main_arg8 (by decide)
theorem at4_main_arg8 : W4 m ρ c (Proc.devRef .tc main_arg8) = m ((c : Thread nD τ).loc main_arg8) := (keep4_main_arg8 m ρ c).trans (at3_main_arg8 m ρ c)
theorem keep6_main_arg8 : W6 m ρ c (Proc.devRef .tc main_arg8) = W4 m ρ c (Proc.devRef .tc main_arg8) := by
  show StableHlo.after hostOps1_1 (StableHlo.after hostOps1 (W4 m ρ c)) (Proc.devRef .tc main_arg8) = _
  after_results_simp
theorem at6_main_arg8 : W6 m ρ c (Proc.devRef .tc main_arg8) = m ((c : Thread nD τ).loc main_arg8) := (keep6_main_arg8 m ρ c).trans (at4_main_arg8 m ρ c)
theorem keep7_main_arg8 : W7 m ρ c (Proc.devRef .tc main_arg8) = W6 m ρ c (Proc.devRef .tc main_arg8) := W7_of_ne m ρ c main_arg8 (by decide)
theorem at7_main_arg8 : W7 m ρ c (Proc.devRef .tc main_arg8) = m ((c : Thread nD τ).loc main_arg8) := (keep7_main_arg8 m ρ c).trans (at6_main_arg8 m ρ c)
theorem keep9_main_arg8 : W9 m ρ c (Proc.devRef .tc main_arg8) = W7 m ρ c (Proc.devRef .tc main_arg8) := by
  show StableHlo.after hostOps2_1 (StableHlo.after hostOps2 (W7 m ρ c)) (Proc.devRef .tc main_arg8) = _
  after_results_simp
theorem at9_main_arg8 : W9 m ρ c (Proc.devRef .tc main_arg8) = m ((c : Thread nD τ).loc main_arg8) := (keep9_main_arg8 m ρ c).trans (at7_main_arg8 m ρ c)
theorem keep10_main_arg8 : W10 m ρ c (Proc.devRef .tc main_arg8) = W9 m ρ c (Proc.devRef .tc main_arg8) := W10_of_ne m ρ c main_arg8 (by decide)
theorem at10_main_arg8 : W10 m ρ c (Proc.devRef .tc main_arg8) = m ((c : Thread nD τ).loc main_arg8) := (keep10_main_arg8 m ρ c).trans (at9_main_arg8 m ρ c)
theorem keep12_main_arg8 : W12 m ρ c (Proc.devRef .tc main_arg8) = W10 m ρ c (Proc.devRef .tc main_arg8) := by
  show StableHlo.after hostOps3_1 (StableHlo.after hostOps3 (W10 m ρ c)) (Proc.devRef .tc main_arg8) = _
  after_results_simp
theorem at12_main_arg8 : W12 m ρ c (Proc.devRef .tc main_arg8) = m ((c : Thread nD τ).loc main_arg8) := (keep12_main_arg8 m ρ c).trans (at10_main_arg8 m ρ c)

theorem at3_main_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp
theorem keep4_main_arg9 : W4 m ρ c (Proc.devRef .tc main_arg9) = W3 m ρ c (Proc.devRef .tc main_arg9) := W4_of_ne m ρ c main_arg9 (by decide)
theorem at4_main_arg9 : W4 m ρ c (Proc.devRef .tc main_arg9) = m ((c : Thread nD τ).loc main_arg9) := (keep4_main_arg9 m ρ c).trans (at3_main_arg9 m ρ c)
theorem keep6_main_arg9 : W6 m ρ c (Proc.devRef .tc main_arg9) = W4 m ρ c (Proc.devRef .tc main_arg9) := by
  show StableHlo.after hostOps1_1 (StableHlo.after hostOps1 (W4 m ρ c)) (Proc.devRef .tc main_arg9) = _
  after_results_simp
theorem at6_main_arg9 : W6 m ρ c (Proc.devRef .tc main_arg9) = m ((c : Thread nD τ).loc main_arg9) := (keep6_main_arg9 m ρ c).trans (at4_main_arg9 m ρ c)
theorem keep7_main_arg9 : W7 m ρ c (Proc.devRef .tc main_arg9) = W6 m ρ c (Proc.devRef .tc main_arg9) := W7_of_ne m ρ c main_arg9 (by decide)
theorem at7_main_arg9 : W7 m ρ c (Proc.devRef .tc main_arg9) = m ((c : Thread nD τ).loc main_arg9) := (keep7_main_arg9 m ρ c).trans (at6_main_arg9 m ρ c)
theorem keep9_main_arg9 : W9 m ρ c (Proc.devRef .tc main_arg9) = W7 m ρ c (Proc.devRef .tc main_arg9) := by
  show StableHlo.after hostOps2_1 (StableHlo.after hostOps2 (W7 m ρ c)) (Proc.devRef .tc main_arg9) = _
  after_results_simp
theorem at9_main_arg9 : W9 m ρ c (Proc.devRef .tc main_arg9) = m ((c : Thread nD τ).loc main_arg9) := (keep9_main_arg9 m ρ c).trans (at7_main_arg9 m ρ c)
theorem keep10_main_arg9 : W10 m ρ c (Proc.devRef .tc main_arg9) = W9 m ρ c (Proc.devRef .tc main_arg9) := W10_of_ne m ρ c main_arg9 (by decide)
theorem at10_main_arg9 : W10 m ρ c (Proc.devRef .tc main_arg9) = m ((c : Thread nD τ).loc main_arg9) := (keep10_main_arg9 m ρ c).trans (at9_main_arg9 m ρ c)
theorem keep12_main_arg9 : W12 m ρ c (Proc.devRef .tc main_arg9) = W10 m ρ c (Proc.devRef .tc main_arg9) := by
  show StableHlo.after hostOps3_1 (StableHlo.after hostOps3 (W10 m ρ c)) (Proc.devRef .tc main_arg9) = _
  after_results_simp
theorem at12_main_arg9 : W12 m ρ c (Proc.devRef .tc main_arg9) = m ((c : Thread nD τ).loc main_arg9) := (keep12_main_arg9 m ρ c).trans (at10_main_arg9 m ρ c)

theorem at3_main_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp
theorem keep4_main_arg10 : W4 m ρ c (Proc.devRef .tc main_arg10) = W3 m ρ c (Proc.devRef .tc main_arg10) := W4_of_ne m ρ c main_arg10 (by decide)
theorem at4_main_arg10 : W4 m ρ c (Proc.devRef .tc main_arg10) = m ((c : Thread nD τ).loc main_arg10) := (keep4_main_arg10 m ρ c).trans (at3_main_arg10 m ρ c)
theorem keep6_main_arg10 : W6 m ρ c (Proc.devRef .tc main_arg10) = W4 m ρ c (Proc.devRef .tc main_arg10) := by
  show StableHlo.after hostOps1_1 (StableHlo.after hostOps1 (W4 m ρ c)) (Proc.devRef .tc main_arg10) = _
  after_results_simp
theorem at6_main_arg10 : W6 m ρ c (Proc.devRef .tc main_arg10) = m ((c : Thread nD τ).loc main_arg10) := (keep6_main_arg10 m ρ c).trans (at4_main_arg10 m ρ c)
theorem keep7_main_arg10 : W7 m ρ c (Proc.devRef .tc main_arg10) = W6 m ρ c (Proc.devRef .tc main_arg10) := W7_of_ne m ρ c main_arg10 (by decide)
theorem at7_main_arg10 : W7 m ρ c (Proc.devRef .tc main_arg10) = m ((c : Thread nD τ).loc main_arg10) := (keep7_main_arg10 m ρ c).trans (at6_main_arg10 m ρ c)
theorem keep9_main_arg10 : W9 m ρ c (Proc.devRef .tc main_arg10) = W7 m ρ c (Proc.devRef .tc main_arg10) := by
  show StableHlo.after hostOps2_1 (StableHlo.after hostOps2 (W7 m ρ c)) (Proc.devRef .tc main_arg10) = _
  after_results_simp
theorem at9_main_arg10 : W9 m ρ c (Proc.devRef .tc main_arg10) = m ((c : Thread nD τ).loc main_arg10) := (keep9_main_arg10 m ρ c).trans (at7_main_arg10 m ρ c)
theorem keep10_main_arg10 : W10 m ρ c (Proc.devRef .tc main_arg10) = W9 m ρ c (Proc.devRef .tc main_arg10) := W10_of_ne m ρ c main_arg10 (by decide)
theorem at10_main_arg10 : W10 m ρ c (Proc.devRef .tc main_arg10) = m ((c : Thread nD τ).loc main_arg10) := (keep10_main_arg10 m ρ c).trans (at9_main_arg10 m ρ c)
theorem keep12_main_arg10 : W12 m ρ c (Proc.devRef .tc main_arg10) = W10 m ρ c (Proc.devRef .tc main_arg10) := by
  show StableHlo.after hostOps3_1 (StableHlo.after hostOps3 (W10 m ρ c)) (Proc.devRef .tc main_arg10) = _
  after_results_simp
theorem at12_main_arg10 : W12 m ρ c (Proc.devRef .tc main_arg10) = m ((c : Thread nD τ).loc main_arg10) := (keep12_main_arg10 m ρ c).trans (at10_main_arg10 m ρ c)

theorem at3_main_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results_simp
theorem keep4_main_arg11 : W4 m ρ c (Proc.devRef .tc main_arg11) = W3 m ρ c (Proc.devRef .tc main_arg11) := W4_of_ne m ρ c main_arg11 (by decide)
theorem at4_main_arg11 : W4 m ρ c (Proc.devRef .tc main_arg11) = m ((c : Thread nD τ).loc main_arg11) := (keep4_main_arg11 m ρ c).trans (at3_main_arg11 m ρ c)
theorem keep6_main_arg11 : W6 m ρ c (Proc.devRef .tc main_arg11) = W4 m ρ c (Proc.devRef .tc main_arg11) := by
  show StableHlo.after hostOps1_1 (StableHlo.after hostOps1 (W4 m ρ c)) (Proc.devRef .tc main_arg11) = _
  after_results_simp
theorem at6_main_arg11 : W6 m ρ c (Proc.devRef .tc main_arg11) = m ((c : Thread nD τ).loc main_arg11) := (keep6_main_arg11 m ρ c).trans (at4_main_arg11 m ρ c)
theorem keep7_main_arg11 : W7 m ρ c (Proc.devRef .tc main_arg11) = W6 m ρ c (Proc.devRef .tc main_arg11) := W7_of_ne m ρ c main_arg11 (by decide)
theorem at7_main_arg11 : W7 m ρ c (Proc.devRef .tc main_arg11) = m ((c : Thread nD τ).loc main_arg11) := (keep7_main_arg11 m ρ c).trans (at6_main_arg11 m ρ c)
theorem keep9_main_arg11 : W9 m ρ c (Proc.devRef .tc main_arg11) = W7 m ρ c (Proc.devRef .tc main_arg11) := by
  show StableHlo.after hostOps2_1 (StableHlo.after hostOps2 (W7 m ρ c)) (Proc.devRef .tc main_arg11) = _
  after_results_simp
theorem at9_main_arg11 : W9 m ρ c (Proc.devRef .tc main_arg11) = m ((c : Thread nD τ).loc main_arg11) := (keep9_main_arg11 m ρ c).trans (at7_main_arg11 m ρ c)
theorem keep10_main_arg11 : W10 m ρ c (Proc.devRef .tc main_arg11) = W9 m ρ c (Proc.devRef .tc main_arg11) := W10_of_ne m ρ c main_arg11 (by decide)
theorem at10_main_arg11 : W10 m ρ c (Proc.devRef .tc main_arg11) = m ((c : Thread nD τ).loc main_arg11) := (keep10_main_arg11 m ρ c).trans (at9_main_arg11 m ρ c)
theorem keep12_main_arg11 : W12 m ρ c (Proc.devRef .tc main_arg11) = W10 m ρ c (Proc.devRef .tc main_arg11) := by
  show StableHlo.after hostOps3_1 (StableHlo.after hostOps3 (W10 m ρ c)) (Proc.devRef .tc main_arg11) = _
  after_results_simp
theorem at12_main_arg11 : W12 m ρ c (Proc.devRef .tc main_arg11) = m ((c : Thread nD τ).loc main_arg11) := (keep12_main_arg11 m ρ c).trans (at10_main_arg11 m ρ c)

theorem at3_main_arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results_simp
theorem keep4_main_arg12 : W4 m ρ c (Proc.devRef .tc main_arg12) = W3 m ρ c (Proc.devRef .tc main_arg12) := W4_of_ne m ρ c main_arg12 (by decide)
theorem at4_main_arg12 : W4 m ρ c (Proc.devRef .tc main_arg12) = m ((c : Thread nD τ).loc main_arg12) := (keep4_main_arg12 m ρ c).trans (at3_main_arg12 m ρ c)
theorem keep6_main_arg12 : W6 m ρ c (Proc.devRef .tc main_arg12) = W4 m ρ c (Proc.devRef .tc main_arg12) := by
  show StableHlo.after hostOps1_1 (StableHlo.after hostOps1 (W4 m ρ c)) (Proc.devRef .tc main_arg12) = _
  after_results_simp
theorem at6_main_arg12 : W6 m ρ c (Proc.devRef .tc main_arg12) = m ((c : Thread nD τ).loc main_arg12) := (keep6_main_arg12 m ρ c).trans (at4_main_arg12 m ρ c)
theorem keep7_main_arg12 : W7 m ρ c (Proc.devRef .tc main_arg12) = W6 m ρ c (Proc.devRef .tc main_arg12) := W7_of_ne m ρ c main_arg12 (by decide)
theorem at7_main_arg12 : W7 m ρ c (Proc.devRef .tc main_arg12) = m ((c : Thread nD τ).loc main_arg12) := (keep7_main_arg12 m ρ c).trans (at6_main_arg12 m ρ c)
theorem keep9_main_arg12 : W9 m ρ c (Proc.devRef .tc main_arg12) = W7 m ρ c (Proc.devRef .tc main_arg12) := by
  show StableHlo.after hostOps2_1 (StableHlo.after hostOps2 (W7 m ρ c)) (Proc.devRef .tc main_arg12) = _
  after_results_simp
theorem at9_main_arg12 : W9 m ρ c (Proc.devRef .tc main_arg12) = m ((c : Thread nD τ).loc main_arg12) := (keep9_main_arg12 m ρ c).trans (at7_main_arg12 m ρ c)
theorem keep10_main_arg12 : W10 m ρ c (Proc.devRef .tc main_arg12) = W9 m ρ c (Proc.devRef .tc main_arg12) := W10_of_ne m ρ c main_arg12 (by decide)
theorem at10_main_arg12 : W10 m ρ c (Proc.devRef .tc main_arg12) = m ((c : Thread nD τ).loc main_arg12) := (keep10_main_arg12 m ρ c).trans (at9_main_arg12 m ρ c)
theorem keep12_main_arg12 : W12 m ρ c (Proc.devRef .tc main_arg12) = W10 m ρ c (Proc.devRef .tc main_arg12) := by
  show StableHlo.after hostOps3_1 (StableHlo.after hostOps3 (W10 m ρ c)) (Proc.devRef .tc main_arg12) = _
  after_results_simp
theorem at12_main_arg12 : W12 m ρ c (Proc.devRef .tc main_arg12) = m ((c : Thread nD τ).loc main_arg12) := (keep12_main_arg12 m ρ c).trans (at10_main_arg12 m ρ c)

theorem at3_main_arg13 : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  after_results_simp
theorem keep4_main_arg13 : W4 m ρ c (Proc.devRef .tc main_arg13) = W3 m ρ c (Proc.devRef .tc main_arg13) := W4_of_ne m ρ c main_arg13 (by decide)
theorem at4_main_arg13 : W4 m ρ c (Proc.devRef .tc main_arg13) = m ((c : Thread nD τ).loc main_arg13) := (keep4_main_arg13 m ρ c).trans (at3_main_arg13 m ρ c)
theorem keep6_main_arg13 : W6 m ρ c (Proc.devRef .tc main_arg13) = W4 m ρ c (Proc.devRef .tc main_arg13) := by
  show StableHlo.after hostOps1_1 (StableHlo.after hostOps1 (W4 m ρ c)) (Proc.devRef .tc main_arg13) = _
  after_results_simp
theorem at6_main_arg13 : W6 m ρ c (Proc.devRef .tc main_arg13) = m ((c : Thread nD τ).loc main_arg13) := (keep6_main_arg13 m ρ c).trans (at4_main_arg13 m ρ c)
theorem keep7_main_arg13 : W7 m ρ c (Proc.devRef .tc main_arg13) = W6 m ρ c (Proc.devRef .tc main_arg13) := W7_of_ne m ρ c main_arg13 (by decide)
theorem at7_main_arg13 : W7 m ρ c (Proc.devRef .tc main_arg13) = m ((c : Thread nD τ).loc main_arg13) := (keep7_main_arg13 m ρ c).trans (at6_main_arg13 m ρ c)
theorem keep9_main_arg13 : W9 m ρ c (Proc.devRef .tc main_arg13) = W7 m ρ c (Proc.devRef .tc main_arg13) := by
  show StableHlo.after hostOps2_1 (StableHlo.after hostOps2 (W7 m ρ c)) (Proc.devRef .tc main_arg13) = _
  after_results_simp
theorem at9_main_arg13 : W9 m ρ c (Proc.devRef .tc main_arg13) = m ((c : Thread nD τ).loc main_arg13) := (keep9_main_arg13 m ρ c).trans (at7_main_arg13 m ρ c)
theorem keep10_main_arg13 : W10 m ρ c (Proc.devRef .tc main_arg13) = W9 m ρ c (Proc.devRef .tc main_arg13) := W10_of_ne m ρ c main_arg13 (by decide)
theorem at10_main_arg13 : W10 m ρ c (Proc.devRef .tc main_arg13) = m ((c : Thread nD τ).loc main_arg13) := (keep10_main_arg13 m ρ c).trans (at9_main_arg13 m ρ c)
theorem keep12_main_arg13 : W12 m ρ c (Proc.devRef .tc main_arg13) = W10 m ρ c (Proc.devRef .tc main_arg13) := by
  show StableHlo.after hostOps3_1 (StableHlo.after hostOps3 (W10 m ρ c)) (Proc.devRef .tc main_arg13) = _
  after_results_simp
theorem at12_main_arg13 : W12 m ρ c (Proc.devRef .tc main_arg13) = m ((c : Thread nD τ).loc main_arg13) := (keep12_main_arg13 m ρ c).trans (at10_main_arg13 m ρ c)

theorem at3_main_arg14 : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results_simp
theorem keep4_main_arg14 : W4 m ρ c (Proc.devRef .tc main_arg14) = W3 m ρ c (Proc.devRef .tc main_arg14) := W4_of_ne m ρ c main_arg14 (by decide)
theorem at4_main_arg14 : W4 m ρ c (Proc.devRef .tc main_arg14) = m ((c : Thread nD τ).loc main_arg14) := (keep4_main_arg14 m ρ c).trans (at3_main_arg14 m ρ c)
theorem keep6_main_arg14 : W6 m ρ c (Proc.devRef .tc main_arg14) = W4 m ρ c (Proc.devRef .tc main_arg14) := by
  show StableHlo.after hostOps1_1 (StableHlo.after hostOps1 (W4 m ρ c)) (Proc.devRef .tc main_arg14) = _
  after_results_simp
theorem at6_main_arg14 : W6 m ρ c (Proc.devRef .tc main_arg14) = m ((c : Thread nD τ).loc main_arg14) := (keep6_main_arg14 m ρ c).trans (at4_main_arg14 m ρ c)
theorem keep7_main_arg14 : W7 m ρ c (Proc.devRef .tc main_arg14) = W6 m ρ c (Proc.devRef .tc main_arg14) := W7_of_ne m ρ c main_arg14 (by decide)
theorem at7_main_arg14 : W7 m ρ c (Proc.devRef .tc main_arg14) = m ((c : Thread nD τ).loc main_arg14) := (keep7_main_arg14 m ρ c).trans (at6_main_arg14 m ρ c)
theorem keep9_main_arg14 : W9 m ρ c (Proc.devRef .tc main_arg14) = W7 m ρ c (Proc.devRef .tc main_arg14) := by
  show StableHlo.after hostOps2_1 (StableHlo.after hostOps2 (W7 m ρ c)) (Proc.devRef .tc main_arg14) = _
  after_results_simp
theorem at9_main_arg14 : W9 m ρ c (Proc.devRef .tc main_arg14) = m ((c : Thread nD τ).loc main_arg14) := (keep9_main_arg14 m ρ c).trans (at7_main_arg14 m ρ c)
theorem keep10_main_arg14 : W10 m ρ c (Proc.devRef .tc main_arg14) = W9 m ρ c (Proc.devRef .tc main_arg14) := W10_of_ne m ρ c main_arg14 (by decide)
theorem at10_main_arg14 : W10 m ρ c (Proc.devRef .tc main_arg14) = m ((c : Thread nD τ).loc main_arg14) := (keep10_main_arg14 m ρ c).trans (at9_main_arg14 m ρ c)
theorem keep12_main_arg14 : W12 m ρ c (Proc.devRef .tc main_arg14) = W10 m ρ c (Proc.devRef .tc main_arg14) := by
  show StableHlo.after hostOps3_1 (StableHlo.after hostOps3 (W10 m ρ c)) (Proc.devRef .tc main_arg14) = _
  after_results_simp
theorem at12_main_arg14 : W12 m ρ c (Proc.devRef .tc main_arg14) = m ((c : Thread nD τ).loc main_arg14) := (keep12_main_arg14 m ρ c).trans (at10_main_arg14 m ρ c)

theorem at3_main_arg15 : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results_simp
theorem keep4_main_arg15 : W4 m ρ c (Proc.devRef .tc main_arg15) = W3 m ρ c (Proc.devRef .tc main_arg15) := W4_of_ne m ρ c main_arg15 (by decide)
theorem at4_main_arg15 : W4 m ρ c (Proc.devRef .tc main_arg15) = m ((c : Thread nD τ).loc main_arg15) := (keep4_main_arg15 m ρ c).trans (at3_main_arg15 m ρ c)
theorem keep6_main_arg15 : W6 m ρ c (Proc.devRef .tc main_arg15) = W4 m ρ c (Proc.devRef .tc main_arg15) := by
  show StableHlo.after hostOps1_1 (StableHlo.after hostOps1 (W4 m ρ c)) (Proc.devRef .tc main_arg15) = _
  after_results_simp
theorem at6_main_arg15 : W6 m ρ c (Proc.devRef .tc main_arg15) = m ((c : Thread nD τ).loc main_arg15) := (keep6_main_arg15 m ρ c).trans (at4_main_arg15 m ρ c)
theorem keep7_main_arg15 : W7 m ρ c (Proc.devRef .tc main_arg15) = W6 m ρ c (Proc.devRef .tc main_arg15) := W7_of_ne m ρ c main_arg15 (by decide)
theorem at7_main_arg15 : W7 m ρ c (Proc.devRef .tc main_arg15) = m ((c : Thread nD τ).loc main_arg15) := (keep7_main_arg15 m ρ c).trans (at6_main_arg15 m ρ c)
theorem keep9_main_arg15 : W9 m ρ c (Proc.devRef .tc main_arg15) = W7 m ρ c (Proc.devRef .tc main_arg15) := by
  show StableHlo.after hostOps2_1 (StableHlo.after hostOps2 (W7 m ρ c)) (Proc.devRef .tc main_arg15) = _
  after_results_simp
theorem at9_main_arg15 : W9 m ρ c (Proc.devRef .tc main_arg15) = m ((c : Thread nD τ).loc main_arg15) := (keep9_main_arg15 m ρ c).trans (at7_main_arg15 m ρ c)
theorem keep10_main_arg15 : W10 m ρ c (Proc.devRef .tc main_arg15) = W9 m ρ c (Proc.devRef .tc main_arg15) := W10_of_ne m ρ c main_arg15 (by decide)
theorem at10_main_arg15 : W10 m ρ c (Proc.devRef .tc main_arg15) = m ((c : Thread nD τ).loc main_arg15) := (keep10_main_arg15 m ρ c).trans (at9_main_arg15 m ρ c)
theorem keep12_main_arg15 : W12 m ρ c (Proc.devRef .tc main_arg15) = W10 m ρ c (Proc.devRef .tc main_arg15) := by
  show StableHlo.after hostOps3_1 (StableHlo.after hostOps3 (W10 m ρ c)) (Proc.devRef .tc main_arg15) = _
  after_results_simp
theorem at12_main_arg15 : W12 m ρ c (Proc.devRef .tc main_arg15) = m ((c : Thread nD τ).loc main_arg15) := (keep12_main_arg15 m ρ c).trans (at10_main_arg15 m ρ c)

theorem at3_main_arg16 : W3 m ρ c (Proc.devRef .tc main_arg16) = m ((c : Thread nD τ).loc main_arg16) := by
  show StableHlo.after hostOps0_2 (StableHlo.after hostOps0_1 (StableHlo.after hostOps0 (W0 m ρ c))) (Proc.devRef .tc main_arg16) = _
  after_results_simp
theorem keep4_main_arg16 : W4 m ρ c (Proc.devRef .tc main_arg16) = W3 m ρ c (Proc.devRef .tc main_arg16) := W4_of_ne m ρ c main_arg16 (by decide)
theorem at4_main_arg16 : W4 m ρ c (Proc.devRef .tc main_arg16) = m ((c : Thread nD τ).loc main_arg16) := (keep4_main_arg16 m ρ c).trans (at3_main_arg16 m ρ c)
theorem keep6_main_arg16 : W6 m ρ c (Proc.devRef .tc main_arg16) = W4 m ρ c (Proc.devRef .tc main_arg16) := by
  show StableHlo.after hostOps1_1 (StableHlo.after hostOps1 (W4 m ρ c)) (Proc.devRef .tc main_arg16) = _
  after_results_simp
theorem at6_main_arg16 : W6 m ρ c (Proc.devRef .tc main_arg16) = m ((c : Thread nD τ).loc main_arg16) := (keep6_main_arg16 m ρ c).trans (at4_main_arg16 m ρ c)
theorem keep7_main_arg16 : W7 m ρ c (Proc.devRef .tc main_arg16) = W6 m ρ c (Proc.devRef .tc main_arg16) := W7_of_ne m ρ c main_arg16 (by decide)
theorem at7_main_arg16 : W7 m ρ c (Proc.devRef .tc main_arg16) = m ((c : Thread nD τ).loc main_arg16) := (keep7_main_arg16 m ρ c).trans (at6_main_arg16 m ρ c)
theorem keep9_main_arg16 : W9 m ρ c (Proc.devRef .tc main_arg16) = W7 m ρ c (Proc.devRef .tc main_arg16) := by
  show StableHlo.after hostOps2_1 (StableHlo.after hostOps2 (W7 m ρ c)) (Proc.devRef .tc main_arg16) = _
  after_results_simp
theorem at9_main_arg16 : W9 m ρ c (Proc.devRef .tc main_arg16) = m ((c : Thread nD τ).loc main_arg16) := (keep9_main_arg16 m ρ c).trans (at7_main_arg16 m ρ c)
theorem keep10_main_arg16 : W10 m ρ c (Proc.devRef .tc main_arg16) = W9 m ρ c (Proc.devRef .tc main_arg16) := W10_of_ne m ρ c main_arg16 (by decide)
theorem at10_main_arg16 : W10 m ρ c (Proc.devRef .tc main_arg16) = m ((c : Thread nD τ).loc main_arg16) := (keep10_main_arg16 m ρ c).trans (at9_main_arg16 m ρ c)
theorem keep12_main_arg16 : W12 m ρ c (Proc.devRef .tc main_arg16) = W10 m ρ c (Proc.devRef .tc main_arg16) := by
  show StableHlo.after hostOps3_1 (StableHlo.after hostOps3 (W10 m ρ c)) (Proc.devRef .tc main_arg16) = _
  after_results_simp
theorem at12_main_arg16 : W12 m ρ c (Proc.devRef .tc main_arg16) = m ((c : Thread nD τ).loc main_arg16) := (keep12_main_arg16 m ρ c).trans (at10_main_arg16 m ρ c)

theorem at3_main_arg17 : W3 m ρ c (Proc.devRef .tc main_arg17) = m ((c : Thread nD τ).loc main_arg17) := by
  show StableHlo.after hostOps0_2 (StableHlo.after hostOps0_1 (StableHlo.after hostOps0 (W0 m ρ c))) (Proc.devRef .tc main_arg17) = _
  after_results_simp
theorem keep4_main_arg17 : W4 m ρ c (Proc.devRef .tc main_arg17) = W3 m ρ c (Proc.devRef .tc main_arg17) := W4_of_ne m ρ c main_arg17 (by decide)
theorem at4_main_arg17 : W4 m ρ c (Proc.devRef .tc main_arg17) = m ((c : Thread nD τ).loc main_arg17) := (keep4_main_arg17 m ρ c).trans (at3_main_arg17 m ρ c)
theorem keep6_main_arg17 : W6 m ρ c (Proc.devRef .tc main_arg17) = W4 m ρ c (Proc.devRef .tc main_arg17) := by
  show StableHlo.after hostOps1_1 (StableHlo.after hostOps1 (W4 m ρ c)) (Proc.devRef .tc main_arg17) = _
  after_results_simp
theorem at6_main_arg17 : W6 m ρ c (Proc.devRef .tc main_arg17) = m ((c : Thread nD τ).loc main_arg17) := (keep6_main_arg17 m ρ c).trans (at4_main_arg17 m ρ c)
theorem keep7_main_arg17 : W7 m ρ c (Proc.devRef .tc main_arg17) = W6 m ρ c (Proc.devRef .tc main_arg17) := W7_of_ne m ρ c main_arg17 (by decide)
theorem at7_main_arg17 : W7 m ρ c (Proc.devRef .tc main_arg17) = m ((c : Thread nD τ).loc main_arg17) := (keep7_main_arg17 m ρ c).trans (at6_main_arg17 m ρ c)
theorem keep9_main_arg17 : W9 m ρ c (Proc.devRef .tc main_arg17) = W7 m ρ c (Proc.devRef .tc main_arg17) := by
  show StableHlo.after hostOps2_1 (StableHlo.after hostOps2 (W7 m ρ c)) (Proc.devRef .tc main_arg17) = _
  after_results_simp
theorem at9_main_arg17 : W9 m ρ c (Proc.devRef .tc main_arg17) = m ((c : Thread nD τ).loc main_arg17) := (keep9_main_arg17 m ρ c).trans (at7_main_arg17 m ρ c)
theorem keep10_main_arg17 : W10 m ρ c (Proc.devRef .tc main_arg17) = W9 m ρ c (Proc.devRef .tc main_arg17) := W10_of_ne m ρ c main_arg17 (by decide)
theorem at10_main_arg17 : W10 m ρ c (Proc.devRef .tc main_arg17) = m ((c : Thread nD τ).loc main_arg17) := (keep10_main_arg17 m ρ c).trans (at9_main_arg17 m ρ c)
theorem keep12_main_arg17 : W12 m ρ c (Proc.devRef .tc main_arg17) = W10 m ρ c (Proc.devRef .tc main_arg17) := by
  show StableHlo.after hostOps3_1 (StableHlo.after hostOps3 (W10 m ρ c)) (Proc.devRef .tc main_arg17) = _
  after_results_simp
theorem at12_main_arg17 : W12 m ρ c (Proc.devRef .tc main_arg17) = m ((c : Thread nD τ).loc main_arg17) := (keep12_main_arg17 m ρ c).trans (at10_main_arg17 m ρ c)

end Cert.KernelIdeal.Whole

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibMatProduct.lean ====
/-
  The matrix product at exact arithmetic, as ONE function of two matrices (`Cert.Dense.mm`): entry (p, q) of an m×K
  matrix times a K×n matrix is the sum over k of left (p, k) · right (k, q). The host's dot_general whose dimension
  numbers contract the left factor's columns against the right factor's rows IS this function (an equation between
  functions, so it rewrites under any later stage), and a TensorCore product with the same dimension numbers into a
  zero accumulator has this function's entries. General: no program is named; the hypotheses on the dimension record
  are its six lists, each closed by `rfl` at a printed record.
-/
import Idealize.ShloMosaic.Lib.ValueIdx
import Idealize.ShloMosaic.PureOps.Ideal.Laws
import proofs.«180005_j27084063768597_1_alg».proof.Proof.LibDotEntry
import proofs.«180005_j27084063768597_1_alg».proof.Proof.LibMatDims

noncomputable section

namespace Cert.Dense

open Idealize.ShloMosaic Idealize.ShloMosaic.TcCoe Idealize.SL.Sem Idealize.ShloMosaic.ValueIdx

/-- The product of an m×K matrix by a K×n matrix on the extended reals. -/
def mm {m K n : Nat} (x : FVec Ideal ⟨2, ![m, K]⟩ .f32) (w : FVec Ideal ⟨2, ![K, n]⟩ .f32) : FVec Ideal ⟨2, ![m, n]⟩ .f32 :=
  fun i => ∑ k : Fin K, x (ix2 (i 0) k) * w (ix2 k (i 1))

theorem mm_apply {m K n : Nat} (x : FVec Ideal ⟨2, ![m, K]⟩ .f32) (w : FVec Ideal ⟨2, ![K, n]⟩ .f32) (p : Fin m) (q : Fin n) :
    mm x w (ix2 p q) = ∑ k : Fin K, x (ix2 p k) * w (ix2 k q) := rfl

/-- The host's product with plain matrix dimension numbers (no batch axis, the left factor's axis 1 contracted against
    the right factor's axis 0) is the matrix product. -/
theorem dotGeneral_eq_mm {m K n : Nat} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ .f32) (w : FVec Ideal ⟨2, ![K, n]⟩ .f32) :
    Host.dotGeneral (F := Ideal) D none x w = mm x w := by
  funext i
  obtain ⟨p, q, rfl⟩ : ∃ (p : Fin m) (q : Fin n), i = ix2 p q := ⟨i 0, i 1, eq_ix2 i⟩
  exact Cert.Lib.DotEntry.dotGeneral_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

/-- A TensorCore product with the same dimension numbers into a zero accumulator, read at an entry, is the matrix
    product's entry. The two factors may carry any float format: at exact arithmetic a format is a label. -/
theorem matmul_zero_apply {m K n : Nat} {φ₁ φ₂ : FTy} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ φ₁) (w : FVec Ideal ⟨2, ![K, n]⟩ φ₂) (p : Fin m) (q : Fin n) :
    matmul D none x w (constant (F := Ideal) ⟨2, ![m, n]⟩ .f32 0x00000000#32) (ix2 p q)
      = ∑ k : Fin K, x (ix2 p k) * w (ix2 k q) :=
  Cert.Lib.DotEntry.matmul_zero_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

end Cert.Dense

end
-- ==== Proof.LinearRegions.lean ====
/-
  The three linear regions, each as ONE matrix product of whole arrays.

  Each region runs over eight grid points; point t fetches rows 16384·t … 16384·t + 16383 of the activations and the
  whole weight matrix, multiplies them into a zero accumulator and writes the 16384 × 16 block of products back to the
  same rows of the output. Entry (p, q) of that block is the sum over k of activation (16384·t + p, k) · weight (k, q),
  which is entry (16384·t + p, q) of the product of the whole arrays; the eight blocks tile the output's 131072 rows.
  So after the region the output array is the product of the activations' array by the weights' array, as the region
  found them. Nothing here needs the inputs to be finite: the same sums appear on both sides.
-/
import proofs.«180005_j27084063768597_1_alg».proof.Proof.Gen.KernelIdeal.Frame
import proofs.«180005_j27084063768597_1_alg».proof.Proof.LibMatProduct
import Idealize.ShloMosaic.Lib.ValueIdx
import Idealize.ShloMosaic.Lib.Pipeline.Value
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-! ## Region 0: rows `16384·t … 16384·t + 16383` of the product, at grid point `t` -/

/-- The body's one stored value, at an entry of the block: row `j 0` of the block of activations against column
    `j 1` of the weights. The casts to the narrower float format are the identity on values. -/
theorem pay0_entry (x0 : Vec Ideal S16384x32 .f32) (x1 : Vec Ideal S32x16 .f32) (j : S16384x16.Idx) :
    k0_pay1 (F := Ideal) x0 x1 j = ∑ k : Fin 32, x0 (ix2 (j 0) k) * x1 (ix2 k (j 1)) := by
  obtain ⟨p, q, rfl⟩ : ∃ (p : Fin 16384) (q : Fin 16), j = ix2 p q := ⟨j 0, j 1, eq_ix2 j⟩
  unfold k0_pay1
  refine (Cert.Dense.matmul_zero_apply (m := 16384) (K := 32) (n := 16) dot_S16384x32_S32x16_S16384x16_1_0_0_1_n_n rfl rfl rfl rfl rfl rfl _ _ p q).trans ?_
  rfl

/-- The printed index maps over the grid: the activations' block moves with the output's along the rows, the weights
    stay, and nothing moves along the columns. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every block of rows is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the whole product of the two arrays as the region finds them. -/
theorem flushed0 (V : (c : Dev nD) → (b : Ref sig .tc) → Buf (Elt Ideal) ((c : Thread nD τ).loc b)) (c : Dev nD) (t : Fin cfg0.N) :
    (dat0 V c).flushed 2 t = ((cfg0.win 2).blk t).view.read (Elt Ideal)
      (Cert.Dense.mm (m := 131072) (K := 32) (n := 16) (V c main_arg0) (V c main_arg2)) := by
  show (cfg0.win 2).cut (grid0.coords t) ((dat0 V c).after 2 t) = _
  rw [after0_2]
  unfold out0_2
  rw [View.canon_unit_zero hz]
  simp only [View.ld_unit_zero (S := S16384x32) hz, View.ld_unit_zero (S := S32x16) hz]
  obtain ⟨e0, e1, e2, e3, e4, e5⟩ := idx_facts0 t
  funext j
  refine (pay0_entry (iblk0 V c 0 t) (iblk0 V c 1 t) j).trans ?_
  show _ = Cert.Dense.mm (m := 131072) (K := 32) (n := 16) (V c main_arg0) (V c main_arg2) (((cfg0.win 2).blk t).view.emb j)
  unfold Cert.Dense.mm
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 32 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 32 + 1 * k.val = k.val; omega
    | ⟨1, _⟩ => show win0_1.index t (1 : Fin 2) * 16 + 1 * (j 1).val = win0_2.index t (1 : Fin 2) * 16 + 1 * (j 1).val; omega
  exact congrArg₂ (· * ·) (congrArg (V c main_arg0) h0) (congrArg (V c main_arg2) h1)

/-- An index of the output array is in point `t`'s block iff each coordinate is in the block's range on its axis. -/
theorem mem_blk0 (t : Fin cfg0.N) (i : S131072x16.Idx) :
    i ∈ ((cfg0.win 2).blk t).view.set ↔ ∀ a : Fin 2, win0_2.index t a * S16384x16.size a ≤ (i a).val ∧ (i a).val < win0_2.index t a * S16384x16.size a + S16384x16.size a := by
  show i ∈ ((View.whole main_v32).slice (win0_2.rect t)).set ↔ _
  rw [View.set_slice_whole, Rect.mem_set_unit]
  exact Iff.rfl

/-- Every index of the output array is in the block of the point its row belongs to. -/
theorem cover0 (i : S131072x16.Idx) : ∃ t : Fin cfg0.N, (cfg0.win 2).flush t = true ∧ i ∈ ((cfg0.win 2).blk t).view.set := by
  have hi0 : (i 0).val < 131072 := (i 0).isLt
  have hi1 : (i 1).val < 16 := (i 1).isLt
  obtain ⟨t, ht⟩ := idx_onto0 ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 16 ≤ (i 1).val ∧ (i 1).val < win0_2.index t (1 : Fin 2) * 16 + 16; omega

/-- After the region its output array holds the whole product of the two arrays as the region found them. -/
theorem product0 (V : (c : Dev nD) → (b : Ref sig .tc) → Buf (Elt Ideal) ((c : Thread nD τ).loc b)) (c : Dev nD) :
    (dat0 V c).arrAt 2 cfg0.N = Cert.Dense.mm (m := 131072) (K := 32) (n := 16) (V c main_arg0) (V c main_arg2) :=
  (dat0 V c).arrAt_eq_of_cover 2 _ (fun t _ => flushed0 V c t) cover0

/-! ## Region 1: rows `16384·t … 16384·t + 16383` of the product, at grid point `t` -/

/-- The body's one stored value, at an entry of the block: row `j 0` of the block of activations against column
    `j 1` of the weights. The casts to the narrower float format are the identity on values. -/
theorem pay1_entry (x0 : Vec Ideal S16384x16 .f32) (x1 : Vec Ideal S16x16 .f32) (j : S16384x16.Idx) :
    k1_pay1 (F := Ideal) x0 x1 j = ∑ k : Fin 16, x0 (ix2 (j 0) k) * x1 (ix2 k (j 1)) := by
  obtain ⟨p, q, rfl⟩ : ∃ (p : Fin 16384) (q : Fin 16), j = ix2 p q := ⟨j 0, j 1, eq_ix2 j⟩
  unfold k1_pay1
  rw [shapeCast_self]
  refine (Cert.Dense.matmul_zero_apply (m := 16384) (K := 16) (n := 16) dot_S16384x16_S16x16_S16384x16_1_0_0_1_n_n rfl rfl rfl rfl rfl rfl _ _ p q).trans ?_
  rfl

/-- The printed index maps over the grid: the activations' block moves with the output's along the rows, the weights
    stay, and nothing moves along the columns. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 7 :=
  (by decide +kernel : ∀ t : Fin grid1.N, _)

/-- Every block of rows is some point's. -/
theorem idx_onto1 : ∀ q0 : Fin 8, ∃ t : Fin cfg1.N, win1_2.index t = ![q0.val, 0] :=
  (by decide +kernel : ∀ q0 : Fin 8, ∃ t : Fin grid1.N, win1_2.index t = ![q0.val, 0])

/-- What point `t` writes back is block `t` of the whole product of the two arrays as the region finds them. -/
theorem flushed1 (V : (c : Dev nD) → (b : Ref sig .tc) → Buf (Elt Ideal) ((c : Thread nD τ).loc b)) (c : Dev nD) (t : Fin cfg1.N) :
    (dat1 V c).flushed 2 t = ((cfg1.win 2).blk t).view.read (Elt Ideal)
      (Cert.Dense.mm (m := 131072) (K := 16) (n := 16) (V c main_v49) (V c main_arg4)) := by
  show (cfg1.win 2).cut (grid1.coords t) ((dat1 V c).after 2 t) = _
  rw [after1_2]
  unfold out1_2
  rw [View.canon_unit_zero hz]
  simp only [View.ld_unit_zero (S := S16384x16) hz, View.ld_unit_zero (S := S16x16) hz]
  obtain ⟨e0, e1, e2, e3, e4, e5⟩ := idx_facts1 t
  funext j
  refine (pay1_entry (iblk1 V c 0 t) (iblk1 V c 1 t) j).trans ?_
  show _ = Cert.Dense.mm (m := 131072) (K := 16) (n := 16) (V c main_v49) (V c main_arg4) (((cfg1.win 2).blk t).view.emb j)
  unfold Cert.Dense.mm
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 16384 + 1 * (j 0).val = win1_2.index t (0 : Fin 2) * 16384 + 1 * (j 0).val; omega
    | ⟨1, _⟩ => show win1_0.index t (1 : Fin 2) * 16 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 16 + 1 * k.val = k.val; omega
    | ⟨1, _⟩ => show win1_1.index t (1 : Fin 2) * 16 + 1 * (j 1).val = win1_2.index t (1 : Fin 2) * 16 + 1 * (j 1).val; omega
  exact congrArg₂ (· * ·) (congrArg (V c main_v49) h0) (congrArg (V c main_arg4) h1)

/-- An index of the output array is in point `t`'s block iff each coordinate is in the block's range on its axis. -/
theorem mem_blk1 (t : Fin cfg1.N) (i : S131072x16.Idx) :
    i ∈ ((cfg1.win 2).blk t).view.set ↔ ∀ a : Fin 2, win1_2.index t a * S16384x16.size a ≤ (i a).val ∧ (i a).val < win1_2.index t a * S16384x16.size a + S16384x16.size a := by
  show i ∈ ((View.whole main_v50).slice (win1_2.rect t)).set ↔ _
  rw [View.set_slice_whole, Rect.mem_set_unit]
  exact Iff.rfl

/-- Every index of the output array is in the block of the point its row belongs to. -/
theorem cover1 (i : S131072x16.Idx) : ∃ t : Fin cfg1.N, (cfg1.win 2).flush t = true ∧ i ∈ ((cfg1.win 2).blk t).view.set := by
  have hi0 : (i 0).val < 131072 := (i 0).isLt
  have hi1 : (i 1).val < 16 := (i 1).isLt
  obtain ⟨t, ht⟩ := idx_onto1 ⟨(i 0).val / 16384, by omega⟩
  have q0 : win1_2.index t (0 : Fin 2) = (i 0).val / 16384 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 16384 ≤ (i 0).val ∧ (i 0).val < win1_2.index t (0 : Fin 2) * 16384 + 16384; omega
  | ⟨1, _⟩ => show win1_2.index t (1 : Fin 2) * 16 ≤ (i 1).val ∧ (i 1).val < win1_2.index t (1 : Fin 2) * 16 + 16; omega

/-- After the region its output array holds the whole product of the two arrays as the region found them. -/
theorem product1 (V : (c : Dev nD) → (b : Ref sig .tc) → Buf (Elt Ideal) ((c : Thread nD τ).loc b)) (c : Dev nD) :
    (dat1 V c).arrAt 2 cfg1.N = Cert.Dense.mm (m := 131072) (K := 16) (n := 16) (V c main_v49) (V c main_arg4) :=
  (dat1 V c).arrAt_eq_of_cover 2 _ (fun t _ => flushed1 V c t) cover1

/-! ## Region 2: rows `16384·t … 16384·t + 16383` of the product, at grid point `t` -/

/-- The body's one stored value, at an entry of the block: row `j 0` of the block of activations against column
    `j 1` of the weights. The casts to the narrower float format are the identity on values. -/
theorem pay2_entry (x0 : Vec Ideal S16384x16 .f32) (x1 : Vec Ideal S16x16 .f32) (j : S16384x16.Idx) :
    k2_pay1 (F := Ideal) x0 x1 j = ∑ k : Fin 16, x0 (ix2 (j 0) k) * x1 (ix2 k (j 1)) := by
  obtain ⟨p, q, rfl⟩ : ∃ (p : Fin 16384) (q : Fin 16), j = ix2 p q := ⟨j 0, j 1, eq_ix2 j⟩
  unfold k2_pay1
  rw [shapeCast_self]
  refine (Cert.Dense.matmul_zero_apply (m := 16384) (K := 16) (n := 16) dot_S16384x16_S16x16_S16384x16_1_0_0_1_n_n rfl rfl rfl rfl rfl rfl _ _ p q).trans ?_
  rfl

/-- The printed index maps over the grid: the activations' block moves with the output's along the rows, the weights
    stay, and nothing moves along the columns. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 7 :=
  (by decide +kernel : ∀ t : Fin grid2.N, _)

/-- Every block of rows is some point's. -/
theorem idx_onto2 : ∀ q0 : Fin 8, ∃ t : Fin cfg2.N, win2_2.index t = ![q0.val, 0] :=
  (by decide +kernel : ∀ q0 : Fin 8, ∃ t : Fin grid2.N, win2_2.index t = ![q0.val, 0])

/-- What point `t` writes back is block `t` of the whole product of the two arrays as the region finds them. -/
theorem flushed2 (V : (c : Dev nD) → (b : Ref sig .tc) → Buf (Elt Ideal) ((c : Thread nD τ).loc b)) (c : Dev nD) (t : Fin cfg2.N) :
    (dat2 V c).flushed 2 t = ((cfg2.win 2).blk t).view.read (Elt Ideal)
      (Cert.Dense.mm (m := 131072) (K := 16) (n := 16) (V c main_v67) (V c main_arg6)) := by
  show (cfg2.win 2).cut (grid2.coords t) ((dat2 V c).after 2 t) = _
  rw [after2_2]
  unfold out2_2
  rw [View.canon_unit_zero hz]
  simp only [View.ld_unit_zero (S := S16384x16) hz, View.ld_unit_zero (S := S16x16) hz]
  obtain ⟨e0, e1, e2, e3, e4, e5⟩ := idx_facts2 t
  funext j
  refine (pay2_entry (iblk2 V c 0 t) (iblk2 V c 1 t) j).trans ?_
  show _ = Cert.Dense.mm (m := 131072) (K := 16) (n := 16) (V c main_v67) (V c main_arg6) (((cfg2.win 2).blk t).view.emb j)
  unfold Cert.Dense.mm
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 16384 + 1 * (j 0).val = win2_2.index t (0 : Fin 2) * 16384 + 1 * (j 0).val; omega
    | ⟨1, _⟩ => show win2_0.index t (1 : Fin 2) * 16 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 16 + 1 * k.val = k.val; omega
    | ⟨1, _⟩ => show win2_1.index t (1 : Fin 2) * 16 + 1 * (j 1).val = win2_2.index t (1 : Fin 2) * 16 + 1 * (j 1).val; omega
  exact congrArg₂ (· * ·) (congrArg (V c main_v67) h0) (congrArg (V c main_arg6) h1)

/-- An index of the output array is in point `t`'s block iff each coordinate is in the block's range on its axis. -/
theorem mem_blk2 (t : Fin cfg2.N) (i : S131072x16.Idx) :
    i ∈ ((cfg2.win 2).blk t).view.set ↔ ∀ a : Fin 2, win2_2.index t a * S16384x16.size a ≤ (i a).val ∧ (i a).val < win2_2.index t a * S16384x16.size a + S16384x16.size a := by
  show i ∈ ((View.whole main_v68).slice (win2_2.rect t)).set ↔ _
  rw [View.set_slice_whole, Rect.mem_set_unit]
  exact Iff.rfl

/-- Every index of the output array is in the block of the point its row belongs to. -/
theorem cover2 (i : S131072x16.Idx) : ∃ t : Fin cfg2.N, (cfg2.win 2).flush t = true ∧ i ∈ ((cfg2.win 2).blk t).view.set := by
  have hi0 : (i 0).val < 131072 := (i 0).isLt
  have hi1 : (i 1).val < 16 := (i 1).isLt
  obtain ⟨t, ht⟩ := idx_onto2 ⟨(i 0).val / 16384, by omega⟩
  have q0 : win2_2.index t (0 : Fin 2) = (i 0).val / 16384 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 16384 ≤ (i 0).val ∧ (i 0).val < win2_2.index t (0 : Fin 2) * 16384 + 16384; omega
  | ⟨1, _⟩ => show win2_2.index t (1 : Fin 2) * 16 ≤ (i 1).val ∧ (i 1).val < win2_2.index t (1 : Fin 2) * 16 + 16; omega

/-- After the region its output array holds the whole product of the two arrays as the region found them. -/
theorem product2 (V : (c : Dev nD) → (b : Ref sig .tc) → Buf (Elt Ideal) ((c : Thread nD τ).loc b)) (c : Dev nD) :
    (dat2 V c).arrAt 2 cfg2.N = Cert.Dense.mm (m := 131072) (K := 16) (n := 16) (V c main_v67) (V c main_arg6) :=
  (dat2 V c).arrAt_eq_of_cover 2 _ (fun t _ => flushed2 V c t) cover2

end Cert.KernelIdeal.Whole

end
-- ==== Proof.HeadsRegion.lean ====
/-
  The last region — the two dense heads — as functions of whole arrays.

  The region has one grid point, and every window's block is its whole array: the body loads the nine operands whole,
  computes the policy head and the joined value head, and stores each whole; the write-backs put them in the two output
  arrays. So after the region each output array holds the body's stored value — the skeleton's payload — of the operand
  arrays as the region found them.
-/
import proofs.«180005_j27084063768597_1_alg».proof.Proof.Gen.KernelIdeal.Frame
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz3 : (![0, 0] : Fin 2 → Nat) = fun _ => 0 := funext fun a => by fin_cases a <;> rfl

/-- The printed index maps at the one grid point: every window's block index is zero on both axes. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

/-- Window 0's block is its whole array. -/
theorem whole3_0 (V : (c : Dev nD) → (b : Ref sig .tc) → Buf (Elt Ideal) ((c : Thread nD τ).loc b)) (c : Dev nD) (t : Fin cfg3.N) : iblk3 V c 0 t = V c main_v89 := by
  obtain ⟨a0, b0, a1, b1, a2, b2, a3, b3, a4, b4, a5, b5, a6, b6, a7, b7, a8, b8, a9, b9, a10, b10⟩ := idx_facts3 t
  funext y
  show V c main_v89 (((cfg3.win 0).blk t).view.emb y) = V c main_v89 y
  refine congrArg (V c main_v89) ?_
  funext a; apply Fin.ext
  match a with
  | ⟨0, _⟩ => show win3_0.index t (0 : Fin 2) * 128 + 1 * (y 0).val = (y 0).val; omega
  | ⟨1, _⟩ => show win3_0.index t (1 : Fin 2) * 16384 + 1 * (y 1).val = (y 1).val; omega

/-- Window 1's block is its whole array. -/
theorem whole3_1 (V : (c : Dev nD) → (b : Ref sig .tc) → Buf (Elt Ideal) ((c : Thread nD τ).loc b)) (c : Dev nD) (t : Fin cfg3.N) : iblk3 V c 1 t = V c main_v90 := by
  obtain ⟨a0, b0, a1, b1, a2, b2, a3, b3, a4, b4, a5, b5, a6, b6, a7, b7, a8, b8, a9, b9, a10, b10⟩ := idx_facts3 t
  funext y
  show V c main_v90 (((cfg3.win 1).blk t).view.emb y) = V c main_v90 y
  refine congrArg (V c main_v90) ?_
  funext a; apply Fin.ext
  match a with
  | ⟨0, _⟩ => show win3_1.index t (0 : Fin 2) * 16384 + 1 * (y 0).val = (y 0).val; omega
  | ⟨1, _⟩ => show win3_1.index t (1 : Fin 2) * 256 + 1 * (y 1).val = (y 1).val; omega

/-- Window 2's block is its whole array. -/
theorem whole3_2 (V : (c : Dev nD) → (b : Ref sig .tc) → Buf (Elt Ideal) ((c : Thread nD τ).loc b)) (c : Dev nD) (t : Fin cfg3.N) : iblk3 V c 2 t = V c main_v94 := by
  obtain ⟨a0, b0, a1, b1, a2, b2, a3, b3, a4, b4, a5, b5, a6, b6, a7, b7, a8, b8, a9, b9, a10, b10⟩ := idx_facts3 t
  funext y
  show V c main_v94 (((cfg3.win 2).blk t).view.emb y) = V c main_v94 y
  refine congrArg (V c main_v94) ?_
  funext a; apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Window 3's block is its whole array. -/
theorem whole3_3 (V : (c : Dev nD) → (b : Ref sig .tc) → Buf (Elt Ideal) ((c : Thread nD τ).loc b)) (c : Dev nD) (t : Fin cfg3.N) : iblk3 V c 3 t = V c main_v91 := by
  obtain ⟨a0, b0, a1, b1, a2, b2, a3, b3, a4, b4, a5, b5, a6, b6, a7, b7, a8, b8, a9, b9, a10, b10⟩ := idx_facts3 t
  funext y
  show V c main_v91 (((cfg3.win 3).blk t).view.emb y) = V c main_v91 y
  refine congrArg (V c main_v91) ?_
  funext a; apply Fin.ext
  match a with
  | ⟨0, _⟩ => show win3_3.index t (0 : Fin 2) * 256 + 1 * (y 0).val = (y 0).val; omega
  | ⟨1, _⟩ => show win3_3.index t (1 : Fin 2) * 1024 + 1 * (y 1).val = (y 1).val; omega

/-- Window 4's block is its whole array. -/
theorem whole3_4 (V : (c : Dev nD) → (b : Ref sig .tc) → Buf (Elt Ideal) ((c : Thread nD τ).loc b)) (c : Dev nD) (t : Fin cfg3.N) : iblk3 V c 4 t = V c main_v95 := by
  obtain ⟨a0, b0, a1, b1, a2, b2, a3, b3, a4, b4, a5, b5, a6, b6, a7, b7, a8, b8, a9, b9, a10, b10⟩ := idx_facts3 t
  funext y
  show V c main_v95 (((cfg3.win 4).blk t).view.emb y) = V c main_v95 y
  refine congrArg (V c main_v95) ?_
  funext a; apply Fin.ext
  match a with
  | ⟨0, _⟩ => show win3_4.index t (0 : Fin 2) * 1 + 1 * (y 0).val = (y 0).val; omega
  | ⟨1, _⟩ => show win3_4.index t (1 : Fin 2) * 1024 + 1 * (y 1).val = (y 1).val; omega

/-- Window 5's block is its whole array. -/
theorem whole3_5 (V : (c : Dev nD) → (b : Ref sig .tc) → Buf (Elt Ideal) ((c : Thread nD τ).loc b)) (c : Dev nD) (t : Fin cfg3.N) : iblk3 V c 5 t = V c main_v92 := by
  obtain ⟨a0, b0, a1, b1, a2, b2, a3, b3, a4, b4, a5, b5, a6, b6, a7, b7, a8, b8, a9, b9, a10, b10⟩ := idx_facts3 t
  funext y
  show V c main_v92 (((cfg3.win 5).blk t).view.emb y) = V c main_v92 y
  refine congrArg (V c main_v92) ?_
  funext a; apply Fin.ext
  match a with
  | ⟨0, _⟩ => show win3_5.index t (0 : Fin 2) * 16384 + 1 * (y 0).val = (y 0).val; omega
  | ⟨1, _⟩ => show win3_5.index t (1 : Fin 2) * 256 + 1 * (y 1).val = (y 1).val; omega

/-- Window 6's block is its whole array. -/
theorem whole3_6 (V : (c : Dev nD) → (b : Ref sig .tc) → Buf (Elt Ideal) ((c : Thread nD τ).loc b)) (c : Dev nD) (t : Fin cfg3.N) : iblk3 V c 6 t = V c main_v96 := by
  obtain ⟨a0, b0, a1, b1, a2, b2, a3, b3, a4, b4, a5, b5, a6, b6, a7, b7, a8, b8, a9, b9, a10, b10⟩ := idx_facts3 t
  funext y
  show V c main_v96 (((cfg3.win 6).blk t).view.emb y) = V c main_v96 y
  refine congrArg (V c main_v96) ?_
  funext a; apply Fin.ext
  match a with
  | ⟨0, _⟩ => show win3_6.index t (0 : Fin 2) * 1 + 1 * (y 0).val = (y 0).val; omega
  | ⟨1, _⟩ => show win3_6.index t (1 : Fin 2) * 256 + 1 * (y 1).val = (y 1).val; omega

/-- Window 7's block is its whole array. -/
theorem whole3_7 (V : (c : Dev nD) → (b : Ref sig .tc) → Buf (Elt Ideal) ((c : Thread nD τ).loc b)) (c : Dev nD) (t : Fin cfg3.N) : iblk3 V c 7 t = V c main_v93 := by
  obtain ⟨a0, b0, a1, b1, a2, b2, a3, b3, a4, b4, a5, b5, a6, b6, a7, b7, a8, b8, a9, b9, a10, b10⟩ := idx_facts3 t
  funext y
  show V c main_v93 (((cfg3.win 7).blk t).view.emb y) = V c main_v93 y
  refine congrArg (V c main_v93) ?_
  funext a; apply Fin.ext
  match a with
  | ⟨0, _⟩ => show win3_7.index t (0 : Fin 2) * 256 + 1 * (y 0).val = (y 0).val; omega
  | ⟨1, _⟩ => show win3_7.index t (1 : Fin 2) * 2 + 1 * (y 1).val = (y 1).val; omega

/-- Window 8's block is its whole array. -/
theorem whole3_8 (V : (c : Dev nD) → (b : Ref sig .tc) → Buf (Elt Ideal) ((c : Thread nD τ).loc b)) (c : Dev nD) (t : Fin cfg3.N) : iblk3 V c 8 t = V c main_v97 := by
  obtain ⟨a0, b0, a1, b1, a2, b2, a3, b3, a4, b4, a5, b5, a6, b6, a7, b7, a8, b8, a9, b9, a10, b10⟩ := idx_facts3 t
  funext y
  show V c main_v97 (((cfg3.win 8).blk t).view.emb y) = V c main_v97 y
  refine congrArg (V c main_v97) ?_
  funext a; apply Fin.ext
  match a with
  | ⟨0, _⟩ => show win3_8.index t (0 : Fin 2) * 1 + 1 * (y 0).val = (y 0).val; omega
  | ⟨1, _⟩ => show win3_8.index t (1 : Fin 2) * 2 + 1 * (y 1).val = (y 1).val; omega

/-- What the one point writes back through window 9: the body's stored value of the whole operand arrays. -/
theorem flushed3_9 (V : (c : Dev nD) → (b : Ref sig .tc) → Buf (Elt Ideal) ((c : Thread nD τ).loc b)) (c : Dev nD) (t : Fin cfg3.N) :
    (dat3 V c).flushed 9 t = ((cfg3.win 9).blk t).view.read (Elt Ideal) (k3_pay3 (F := Ideal) (V c main_v89) (V c main_v90) (V c main_v94) (V c main_v91) (V c main_v95)) := by
  show (cfg3.win 9).cut (grid3.coords t) ((dat3 V c).after 9 t) = _
  rw [after3_9]
  unfold out3_9
  rw [View.canon_unit_zero hz3]
  simp only [View.ld_unit_zero (S := S128x16384) hz3, View.ld_unit_zero (S := S16384x256) hz3, View.ld_unit_zero (S := S1x256) hz3, View.ld_unit_zero (S := S256x1024) hz3, View.ld_unit_zero (S := S1x1024) hz3]
  rw [whole3_0, whole3_1, whole3_2, whole3_3, whole3_4]
  obtain ⟨a0, b0, a1, b1, a2, b2, a3, b3, a4, b4, a5, b5, a6, b6, a7, b7, a8, b8, a9, b9, a10, b10⟩ := idx_facts3 t
  funext j
  show (k3_pay3 (F := Ideal) (V c main_v89) (V c main_v90) (V c main_v94) (V c main_v91) (V c main_v95)) j = (k3_pay3 (F := Ideal) (V c main_v89) (V c main_v90) (V c main_v94) (V c main_v91) (V c main_v95)) (((cfg3.win 9).blk t).view.emb j)
  refine congrArg (k3_pay3 (F := Ideal) (V c main_v89) (V c main_v90) (V c main_v94) (V c main_v91) (V c main_v95)) ?_
  funext a; apply Fin.ext
  match a with
  | ⟨0, _⟩ => show (j 0).val = win3_9.index t (0 : Fin 2) * 128 + 1 * (j 0).val; omega
  | ⟨1, _⟩ => show (j 1).val = win3_9.index t (1 : Fin 2) * 1024 + 1 * (j 1).val; omega

theorem mem_blk3_9 (t : Fin cfg3.N) (i : S128x1024.Idx) :
    i ∈ ((cfg3.win 9).blk t).view.set ↔ ∀ a : Fin 2, win3_9.index t a * S128x1024.size a ≤ (i a).val ∧ (i a).val < win3_9.index t a * S128x1024.size a + S128x1024.size a := by
  show i ∈ ((View.whole main_v98_0).slice (win3_9.rect t)).set ↔ _
  rw [View.set_slice_whole, Rect.mem_set_unit]
  exact Iff.rfl

/-- The one block is the whole output array. -/
theorem tile3_9 (i : S128x1024.Idx) : ∃ t : Fin cfg3.N, (cfg3.win 9).flush t = true ∧ i ∈ ((cfg3.win 9).blk t).view.set := by
  have hi0 : (i 0).val < 128 := (i 0).isLt
  have hi1 : (i 1).val < 1024 := (i 1).isLt
  obtain ⟨a0, b0, a1, b1, a2, b2, a3, b3, a4, b4, a5, b5, a6, b6, a7, b7, a8, b8, a9, b9, a10, b10⟩ := idx_facts3 t3_0
  refine ⟨t3_0, flush3_9 t3_0, ?_⟩
  rw [mem_blk3_9]
  intro a
  match a with
  | ⟨0, _⟩ => show win3_9.index t3_0 (0 : Fin 2) * 128 ≤ (i 0).val ∧ (i 0).val < win3_9.index t3_0 (0 : Fin 2) * 128 + 128; omega
  | ⟨1, _⟩ => show win3_9.index t3_0 (1 : Fin 2) * 1024 ≤ (i 1).val ∧ (i 1).val < win3_9.index t3_0 (1 : Fin 2) * 1024 + 1024; omega

/-- After the region the output array holds the body's stored value of the whole operand arrays as the region found them. -/
theorem policy3 (V : (c : Dev nD) → (b : Ref sig .tc) → Buf (Elt Ideal) ((c : Thread nD τ).loc b)) (c : Dev nD) :
    (dat3 V c).arrAt 9 cfg3.N = k3_pay3 (F := Ideal) (V c main_v89) (V c main_v90) (V c main_v94) (V c main_v91) (V c main_v95) :=
  (dat3 V c).arrAt_eq_of_cover 9 _ (fun t _ => flushed3_9 V c t) tile3_9

/-- What the one point writes back through window 10: the body's stored value of the whole operand arrays. -/
theorem flushed3_10 (V : (c : Dev nD) → (b : Ref sig .tc) → Buf (Elt Ideal) ((c : Thread nD τ).loc b)) (c : Dev nD) (t : Fin cfg3.N) :
    (dat3 V c).flushed 10 t = ((cfg3.win 10).blk t).view.read (Elt Ideal) (k3_pay1 (F := Ideal) (k3_pay4 (F := Ideal) (V c main_v89) (V c main_v92) (V c main_v96) (V c main_v93)) (V c main_v97)) := by
  show (cfg3.win 10).cut (grid3.coords t) ((dat3 V c).after 10 t) = _
  rw [after3_10]
  unfold out3_10
  rw [View.canon_unit_zero hz3]
  simp only [View.ld_unit_zero (S := S128x16384) hz3, View.ld_unit_zero (S := S16384x256) hz3, View.ld_unit_zero (S := S1x256) hz3, View.ld_unit_zero (S := S256x2) hz3, View.ld_unit_zero (S := S1x2) hz3]
  rw [whole3_0, whole3_5, whole3_6, whole3_7, whole3_8]
  obtain ⟨a0, b0, a1, b1, a2, b2, a3, b3, a4, b4, a5, b5, a6, b6, a7, b7, a8, b8, a9, b9, a10, b10⟩ := idx_facts3 t
  funext j
  show (k3_pay1 (F := Ideal) (k3_pay4 (F := Ideal) (V c main_v89) (V c main_v92) (V c main_v96) (V c main_v93)) (V c main_v97)) j = (k3_pay1 (F := Ideal) (k3_pay4 (F := Ideal) (V c main_v89) (V c main_v92) (V c main_v96) (V c main_v93)) (V c main_v97)) (((cfg3.win 10).blk t).view.emb j)
  refine congrArg (k3_pay1 (F := Ideal) (k3_pay4 (F := Ideal) (V c main_v89) (V c main_v92) (V c main_v96) (V c main_v93)) (V c main_v97)) ?_
  funext a; apply Fin.ext
  match a with
  | ⟨0, _⟩ => show (j 0).val = win3_10.index t (0 : Fin 2) * 128 + 1 * (j 0).val; omega
  | ⟨1, _⟩ => show (j 1).val = win3_10.index t (1 : Fin 2) * 2 + 1 * (j 1).val; omega

theorem mem_blk3_10 (t : Fin cfg3.N) (i : S128x2.Idx) :
    i ∈ ((cfg3.win 10).blk t).view.set ↔ ∀ a : Fin 2, win3_10.index t a * S128x2.size a ≤ (i a).val ∧ (i a).val < win3_10.index t a * S128x2.size a + S128x2.size a := by
  show i ∈ ((View.whole main_v98_1).slice (win3_10.rect t)).set ↔ _
  rw [View.set_slice_whole, Rect.mem_set_unit]
  exact Iff.rfl

/-- The one block is the whole output array. -/
theorem tile3_10 (i : S128x2.Idx) : ∃ t : Fin cfg3.N, (cfg3.win 10).flush t = true ∧ i ∈ ((cfg3.win 10).blk t).view.set := by
  have hi0 : (i 0).val < 128 := (i 0).isLt
  have hi1 : (i 1).val < 2 := (i 1).isLt
  obtain ⟨a0, b0, a1, b1, a2, b2, a3, b3, a4, b4, a5, b5, a6, b6, a7, b7, a8, b8, a9, b9, a10, b10⟩ := idx_facts3 t3_0
  refine ⟨t3_0, flush3_10 t3_0, ?_⟩
  rw [mem_blk3_10]
  intro a
  match a with
  | ⟨0, _⟩ => show win3_10.index t3_0 (0 : Fin 2) * 128 ≤ (i 0).val ∧ (i 0).val < win3_10.index t3_0 (0 : Fin 2) * 128 + 128; omega
  | ⟨1, _⟩ => show win3_10.index t3_0 (1 : Fin 2) * 2 ≤ (i 1).val ∧ (i 1).val < win3_10.index t3_0 (1 : Fin 2) * 2 + 2; omega

/-- After the region the output array holds the body's stored value of the whole operand arrays as the region found them. -/
theorem values3 (V : (c : Dev nD) → (b : Ref sig .tc) → Buf (Elt Ideal) ((c : Thread nD τ).loc b)) (c : Dev nD) :
    (dat3 V c).arrAt 10 cfg3.N = k3_pay1 (F := Ideal) (k3_pay4 (F := Ideal) (V c main_v89) (V c main_v92) (V c main_v96) (V c main_v93)) (V c main_v97) :=
  (dat3 V c).arrAt_eq_of_cover 10 _ (fun t _ => flushed3_10 V c t) tile3_10

end Cert.KernelIdeal.Whole

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«180005_j27084063768597_1_alg».proof.Proof.LibDotEntry
import proofs.«180005_j27084063768597_1_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.LibJoinVec.lean ====
/-
  Two vectors laid end to end, read at an entry. If `x` has a entries and `y` has b, their concatenation has c entries
  (the shape record's side condition makes c = a + b); its entry k is `x k` when k < a and `y (k - a)` otherwise.
-/
import Idealize.ShloMosaic.Lib.ValueIdx
import Idealize.ShloMosaic.Lib.Pipeline.Value

noncomputable section

namespace Cert.Lib.JoinVec

open Idealize.ShloMosaic Idealize.ShloMosaic.ValueIdx

variable {α : Type}

/-- A position inside the first vector reads the first vector there. -/
theorem concat_vec_left {a b c : Nat} (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1)) (k : Fin c) (hk : k.val < a) :
    concatenate (⟨1, ![c]⟩ : Shape) (0 : Fin 1) [⟨⟨1, ![a]⟩, x⟩, ⟨⟨1, ![b]⟩, y⟩] h (ix1 k) = x (ix1 ⟨k.val, hk⟩) :=
  concatenate_pair_apply_left (0 : Fin 1) x y h (ix1 k) rfl (ix1 ⟨k.val, hk⟩) (fun d => by
    match d with
    | ⟨0, _⟩ => rfl)

/-- A position past the first vector reads the second vector, the first one's length less. -/
theorem concat_vec_right {a b c : Nat} (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1)) (k : Fin c) (hk : a ≤ k.val)
    (hb : k.val - a < b) :
    concatenate (⟨1, ![c]⟩ : Shape) (0 : Fin 1) [⟨⟨1, ![a]⟩, x⟩, ⟨⟨1, ![b]⟩, y⟩] h (ix1 k) = y (ix1 ⟨k.val - a, hb⟩) :=
  concatenate_pair_apply_right (0 : Fin 1) x y h (ix1 k) rfl rfl (ix1 ⟨k.val - a, hb⟩) (fun d hd => by
    match d with
    | ⟨0, _⟩ => exact absurd rfl hd) (by show k.val - a + a = k.val; omega)

end Cert.Lib.JoinVec

end
-- ==== Proof.HeadsMath.lean ====
/-
  The two heads of the final fused layer, kernel against reference, at exact arithmetic.

  Both sides compute, from a 128 × 16384 matrix h, a policy head relu(h·Wp1 + bp1)·Wp2 + bp2 (128 × 1024) and two value
  heads relu(h·Wv1 + bv1)·w + b with w a 256 × 1 matrix and b a length-1 vector.  The kernel takes its matrix factors in a
  narrower float format, lays each bias out as a one-row matrix repeated down the rows, and computes the two value heads
  at once: it multiplies by the 256 × 2 matrix whose columns are the two weight columns, adds the length-2 vector made of
  the two biases, and the two heads are columns 0 and 1 of the 128 × 2 result.  The reference takes the host's products and
  lays each bias out by two broadcasts.  On the extended reals a change of float format is the identity, a matrix
  product read at entry (p, q) is the sum over k of left(p, k)·right(k, q) on either side, either layout of a bias reads
  bias(q) at (p, q), the zero compared against is the same extended real on both sides, and column c of the joined product
  is the product with the c-th weight column because column c of the joined matrix is that column.  So each head is the
  same function on the two sides, entry by entry; nothing needs to be finite.
-/
import Idealize.ShloMosaic.Lib.ValueIdx
import Idealize.ShloMosaic.Lib.ValueLayout
import Idealize.ShloMosaic.Lib.Pipeline.Value
import Idealize.ShloMosaic.PureOps.Ideal.Laws
import proofs.«180005_j27084063768597_1_alg».proof.Proof.Gen.KernelIdeal.Skeleton
import proofs.«180005_j27084063768597_1_alg».proof.Proof.Gen.ReferenceIdeal
import proofs.«180005_j27084063768597_1_alg».proof.Proof.LibDenseLayer
import proofs.«180005_j27084063768597_1_alg».proof.Proof.LibJoinCols
import proofs.«180005_j27084063768597_1_alg».proof.Proof.LibJoinVec

noncomputable section

namespace Cert.Heads

open Idealize.ShloMosaic Idealize.ShloMosaic.TcCoe Idealize.SL.Sem Idealize.ShloMosaic.ValueIdx
open Cert.Lib.DenseLayer

/-! ## A hidden layer and a head, read at an entry -/

section General

variable {m K n r : Nat}

/-- The zero both sides compare against: the extended real the all-zero 32-bit pattern denotes. -/
abbrev zeroE : EReal := Ideal.ofBits .f32 0x00000000#32

/-- A hidden unit: max(Σⱼ x(p, j)·w(j, k) + b(k), 0). -/
def hidden {φ₁ φ₂ : FTy} (x : FVec Ideal ⟨2, ![m, K]⟩ φ₁) (w : FVec Ideal ⟨2, ![K, n]⟩ φ₂) (b : FVec Ideal ⟨1, ![n]⟩ .f32)
    (p : Fin m) (k : Fin n) : EReal :=
  max ((∑ j : Fin K, x (ix2 p j) * w (ix2 j k)) + b (ix1 k)) zeroE

/-- The kernel's hidden layer — product into a zero accumulator, the bias row repeated down the rows, the maximum with
    a repeated scalar zero, a change of float format — at entry (p, k). -/
theorem kernel_hidden_entry {D : DotDims ⟨2, ![m, K]⟩ ⟨2, ![K, n]⟩ ⟨2, ![m, n]⟩} (hD : IsMatProduct D) {φ₁ φ₂ ψ : FTy}
    (x : FVec Ideal ⟨2, ![m, K]⟩ φ₁) (w : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (hlt : ψ.bits < FTy.bits .f32) (p : Fin m) (k : Fin n) :
    (truncf ψ (maximumf (addf (matmul D none x w (constant (F := Ideal) ⟨2, ![m, n]⟩ .f32 0x00000000#32))
          (broadcastTo ⟨2, ![m, n]⟩ (shapeCast ⟨2, ![1, n]⟩ b hsc) hbc))
        (broadcast ⟨2, ![m, n]⟩ (Scalar.ofBits (F := Ideal) .f32 0x00000000#32))) hlt : FVec Ideal ⟨2, ![m, n]⟩ ψ) (ix2 p k)
      = hidden x w b p k := by
  rw [truncf_apply, maximumf_apply, dense_entry hD, broadcast_apply]
  rfl

/-- The host's hidden layer — dot_general, the bias laid out by two broadcasts, the maximum with a broadcast scalar
    zero — at entry (p, k). -/
theorem host_hidden_entry {D : DotDims ⟨2, ![m, K]⟩ ⟨2, ![K, n]⟩ ⟨2, ![m, n]⟩} (hD : IsMatProduct D)
    (x : FVec Ideal ⟨2, ![m, K]⟩ .f32) (w : FVec Ideal ⟨2, ![K, n]⟩ .f32) (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2))
    (h₀ : (⟨0, ![]⟩ : Shape).BroadcastsInDim ⟨2, ![m, n]⟩ (![] : Fin 0 → Fin 2)) (p : Fin m) (k : Fin n) :
    maximumf (addf (Host.dotGeneral (F := Ideal) D none x w)
          (broadcastInDim ⟨2, ![m, n]⟩ ![0, 1] h₂ (broadcastInDim ⟨2, ![1, n]⟩ ![1] h₁ b)))
        (broadcastInDim ⟨2, ![m, n]⟩ ![] h₀ (constant (F := Ideal) ⟨0, ![]⟩ .f32 0x00000000#32)) (ix2 p k)
      = hidden x w b p k := by
  rw [maximumf_apply, host_dense_entry hD, broadcastInDim_apply _ h₀ _ (ix2 p k) ix0 (fun a => a.elim0), constant_apply]
  rfl

end General

/-! ## The reference's three heads, as functions of the layer's input and the head's weights -/

section Reference

open Cert.ReferenceIdeal Cert.ReferenceIdeal.Gen

/-- The reference's policy head. -/
def refPolicy (h : FVec Ideal S128x16384 .f32) (wp1 : FVec Ideal S16384x256 .f32) (bp1 : FVec Ideal S256 .f32)
    (wp2 : FVec Ideal S256x1024 .f32) (bp2 : FVec Ideal S1024 .f32) : FVec Ideal S128x1024 .f32 :=
  addf (Host.dotGeneral (F := Ideal) dot_S128x256_S256x1024_S128x1024_1_0_0_1_n_n none (maximumf (addf (Host.dotGeneral (F := Ideal) dot_S128x16384_S16384x256_S128x256_1_0_0_1_n_n none h wp1) (broadcastInDim S128x256 ![0, 1] bcast_S1x256_S128x256_0_1 (broadcastInDim S1x256 ![1] bcast_S256_S1x256_1 bp1))) (broadcastInDim S128x256 ![] bcast_S_S128x256 (constant (F := Ideal) S_ .f32 0x00000000#32))) wp2) (broadcastInDim S128x1024 ![0, 1] bcast_S1x1024_S128x1024_0_1 (broadcastInDim S1x1024 ![1] bcast_S1024_S1x1024_1 bp2))

/-- The reference's second value head. -/
def refValueExt (h : FVec Ideal S128x16384 .f32) (wv1 : FVec Ideal S16384x256 .f32) (bv1 : FVec Ideal S256 .f32)
    (wev : FVec Ideal S256x1 .f32) (bev : FVec Ideal S1 .f32) : FVec Ideal S128x1 .f32 :=
  addf (Host.dotGeneral (F := Ideal) dot_S128x256_S256x1_S128x1_1_0_0_1_n_n none (maximumf (addf (Host.dotGeneral (F := Ideal) dot_S128x16384_S16384x256_S128x256_1_0_0_1_n_n none h wv1) (broadcastInDim S128x256 ![0, 1] bcast_S1x256_S128x256_0_1 (broadcastInDim S1x256 ![1] bcast_S256_S1x256_1 bv1))) (broadcastInDim S128x256 ![] bcast_S_S128x256 (constant (F := Ideal) S_ .f32 0x00000000#32))) wev) (broadcastInDim S128x1 ![0, 1] bcast_S1x1_S128x1_0_1 (broadcastInDim S1x1 ![1] bcast_S1_S1x1_1 bev))

/-- The reference's first value head. -/
def refValueInt (h : FVec Ideal S128x16384 .f32) (wv1 : FVec Ideal S16384x256 .f32) (bv1 : FVec Ideal S256 .f32)
    (wiv : FVec Ideal S256x1 .f32) (biv : FVec Ideal S1 .f32) : FVec Ideal S128x1 .f32 :=
  addf (Host.dotGeneral (F := Ideal) dot_S128x256_S256x1_S128x1_1_0_0_1_n_n none (maximumf (addf (Host.dotGeneral (F := Ideal) dot_S128x16384_S16384x256_S128x256_1_0_0_1_n_n none h wv1) (broadcastInDim S128x256 ![0, 1] bcast_S1x256_S128x256_0_1 (broadcastInDim S1x256 ![1] bcast_S256_S1x256_1 bv1))) (broadcastInDim S128x256 ![] bcast_S_S128x256 (constant (F := Ideal) S_ .f32 0x00000000#32))) wiv) (broadcastInDim S128x1 ![0, 1] bcast_S1x1_S128x1_0_1 (broadcastInDim S1x1 ![1] bcast_S1_S1x1_1 biv))

end Reference

/-! ## The kernel's heads are the reference's -/

section Kernel

open Cert.KernelIdeal Cert.KernelIdeal.Gen

theorem policy_eq (h : FVec Ideal Cert.ReferenceIdeal.S128x16384 .f32) (wp1 : FVec Ideal Cert.ReferenceIdeal.S16384x256 .f32)
    (bp1 : FVec Ideal Cert.ReferenceIdeal.S256 .f32) (wp2 : FVec Ideal Cert.ReferenceIdeal.S256x1024 .f32)
    (bp2 : FVec Ideal Cert.ReferenceIdeal.S1024 .f32) :
    k3_pay3 (F := Ideal) (truncf .bf16 h bitsLt_bf16_f32) (truncf .bf16 wp1 bitsLt_bf16_f32)
        (shapeCast S1x256 bp1 shapeCasts_S256_S1x256) (truncf .bf16 wp2 bitsLt_bf16_f32)
        (shapeCast S1x1024 bp2 shapeCasts_S1024_S1x1024)
      = refPolicy h wp1 bp1 wp2 bp2 := by
  funext i
  obtain ⟨p, q, rfl⟩ : ∃ (p : Fin 128) (q : Fin 1024), i = ix2 p q := ⟨i 0, i 1, eq_ix2 i⟩
  unfold k3_pay3 k3_pay2 refPolicy
  dsimp only
  simp only [shapeCast_self]
  -- both sides as a sum over the hidden units plus a bias entry
  refine (dense_entry (D := dot_S128x256_S256x1024_S128x1024_1_0_0_1_n_n) ⟨rfl, rfl, rfl, rfl, rfl, rfl⟩ _ _ bp2 _ _ p q).trans ?_
  refine Eq.trans ?_ (host_dense_entry (D := Cert.ReferenceIdeal.dot_S128x256_S256x1024_S128x1024_1_0_0_1_n_n) ⟨rfl, rfl, rfl, rfl, rfl, rfl⟩ _ _
    bp2 _ _ p q).symm
  refine congrArg (· + bp2 (ix1 q)) (Finset.sum_congr rfl fun k _ => congrArg (· * wp2 (ix2 k q)) ?_)
  -- the hidden unit
  exact (kernel_hidden_entry (D := dot_S128x16384_S16384x256_S128x256_1_0_0_1_n_n) ⟨rfl, rfl, rfl, rfl, rfl, rfl⟩ _ _ bp1 _ _ _ p k).trans
    (host_hidden_entry (D := Cert.ReferenceIdeal.dot_S128x16384_S16384x256_S128x256_1_0_0_1_n_n) ⟨rfl, rfl, rfl, rfl, rfl, rfl⟩ h wp1 bp1 _ _ _ p k).symm

theorem value_int_eq (h : FVec Ideal Cert.ReferenceIdeal.S128x16384 .f32) (wv1 : FVec Ideal Cert.ReferenceIdeal.S16384x256 .f32)
    (bv1 : FVec Ideal Cert.ReferenceIdeal.S256 .f32) (wiv : FVec Ideal Cert.ReferenceIdeal.S256x1 .f32)
    (biv : FVec Ideal Cert.ReferenceIdeal.S1 .f32) (wev : FVec Ideal Cert.ReferenceIdeal.S256x1 .f32)
    (bev : FVec Ideal Cert.ReferenceIdeal.S1 .f32) :
    extractStridedSlice S128x1 ![0, 0]
        (k3_pay1 (F := Ideal)
          (k3_pay4 (F := Ideal) (truncf .bf16 h bitsLt_bf16_f32) (truncf .bf16 wv1 bitsLt_bf16_f32)
            (shapeCast S1x256 bv1 shapeCasts_S256_S1x256)
            (truncf .bf16 (concatenate S256x2 1 [⟨S256x1, wiv⟩, ⟨S256x1, wev⟩] concatenates_S256x1_S256x1_S256x2_d1)
              bitsLt_bf16_f32))
          (shapeCast S1x2 (concatenate S2 0 [⟨S1, biv⟩, ⟨S1, bev⟩] concatenates_S1_S1_S2_d0) shapeCasts_S2_S1x2))
        slices_S128x2_S128x1_0_0
      = refValueInt h wv1 bv1 wiv biv := by
  funext i
  obtain ⟨p, q, rfl⟩ : ∃ (p : Fin 128) (q : Fin 1), i = ix2 p q := ⟨i 0, i 1, eq_ix2 i⟩
  obtain rfl : q = ⟨0, Nat.one_pos⟩ := Fin.ext (by have := q.isLt; omega)
  unfold k3_pay1 k3_pay4 k3_pay2 refValueInt
  dsimp only
  simp only [shapeCast_self]
  -- the slice's one column is column 0 of the joined result
  refine (slice2_axis1_apply 0 _ _ p ⟨0, Nat.one_pos⟩ ⟨0, by omega⟩ rfl).trans ?_
  -- both sides as a sum over the hidden units plus a bias entry
  refine (dense_entry (D := dot_S128x256_S256x2_S128x2_1_0_0_1_n_n) ⟨rfl, rfl, rfl, rfl, rfl, rfl⟩ _ _
    (concatenate S2 0 [⟨S1, biv⟩, ⟨S1, bev⟩] concatenates_S1_S1_S2_d0) _ _ p ⟨0, by omega⟩).trans ?_
  refine Eq.trans ?_ (host_dense_entry (D := Cert.ReferenceIdeal.dot_S128x256_S256x1_S128x1_1_0_0_1_n_n) ⟨rfl, rfl, rfl, rfl, rfl, rfl⟩ _ _
    biv _ _ p ⟨0, Nat.one_pos⟩).symm
  refine congr (congrArg HAdd.hAdd (Finset.sum_congr rfl fun k _ => congr (congrArg HMul.hMul ?_) ?_)) ?_
  · -- the hidden unit
    exact (kernel_hidden_entry (D := dot_S128x16384_S16384x256_S128x256_1_0_0_1_n_n) ⟨rfl, rfl, rfl, rfl, rfl, rfl⟩ _ _ bv1 _ _ _ p k).trans
      (host_hidden_entry (D := Cert.ReferenceIdeal.dot_S128x16384_S16384x256_S128x256_1_0_0_1_n_n) ⟨rfl, rfl, rfl, rfl, rfl, rfl⟩ h wv1 bv1 _ _ _ p k).symm
  · -- column 0 of the joined matrix is the first weight column
    exact Cert.Lib.JoinCols.concat_cols_left wiv wev concatenates_S256x1_S256x1_S256x2_d1 k ⟨0, by omega⟩ Nat.one_pos
  · -- entry 0 of the joined bias is the first bias
    exact Cert.Lib.JoinVec.concat_vec_left biv bev concatenates_S1_S1_S2_d0 ⟨0, by omega⟩ Nat.one_pos

theorem value_ext_eq (h : FVec Ideal Cert.ReferenceIdeal.S128x16384 .f32) (wv1 : FVec Ideal Cert.ReferenceIdeal.S16384x256 .f32)
    (bv1 : FVec Ideal Cert.ReferenceIdeal.S256 .f32) (wiv : FVec Ideal Cert.ReferenceIdeal.S256x1 .f32)
    (biv : FVec Ideal Cert.ReferenceIdeal.S1 .f32) (wev : FVec Ideal Cert.ReferenceIdeal.S256x1 .f32)
    (bev : FVec Ideal Cert.ReferenceIdeal.S1 .f32) :
    extractStridedSlice S128x1 ![0, 1]
        (k3_pay1 (F := Ideal)
          (k3_pay4 (F := Ideal) (truncf .bf16 h bitsLt_bf16_f32) (truncf .bf16 wv1 bitsLt_bf16_f32)
            (shapeCast S1x256 bv1 shapeCasts_S256_S1x256)
            (truncf .bf16 (concatenate S256x2 1 [⟨S256x1, wiv⟩, ⟨S256x1, wev⟩] concatenates_S256x1_S256x1_S256x2_d1)
              bitsLt_bf16_f32))
          (shapeCast S1x2 (concatenate S2 0 [⟨S1, biv⟩, ⟨S1, bev⟩] concatenates_S1_S1_S2_d0) shapeCasts_S2_S1x2))
        slices_S128x2_S128x1_0_1
      = refValueExt h wv1 bv1 wev bev := by
  funext i
  obtain ⟨p, q, rfl⟩ : ∃ (p : Fin 128) (q : Fin 1), i = ix2 p q := ⟨i 0, i 1, eq_ix2 i⟩
  obtain rfl : q = ⟨0, Nat.one_pos⟩ := Fin.ext (by have := q.isLt; omega)
  unfold k3_pay1 k3_pay4 k3_pay2 refValueExt
  dsimp only
  simp only [shapeCast_self]
  -- the slice's one column is column 1 of the joined result
  refine (slice2_axis1_apply 1 _ _ p ⟨0, Nat.one_pos⟩ ⟨1, by omega⟩ rfl).trans ?_
  -- both sides as a sum over the hidden units plus a bias entry
  refine (dense_entry (D := dot_S128x256_S256x2_S128x2_1_0_0_1_n_n) ⟨rfl, rfl, rfl, rfl, rfl, rfl⟩ _ _
    (concatenate S2 0 [⟨S1, biv⟩, ⟨S1, bev⟩] concatenates_S1_S1_S2_d0) _ _ p ⟨1, by omega⟩).trans ?_
  refine Eq.trans ?_ (host_dense_entry (D := Cert.ReferenceIdeal.dot_S128x256_S256x1_S128x1_1_0_0_1_n_n) ⟨rfl, rfl, rfl, rfl, rfl, rfl⟩ _ _
    bev _ _ p ⟨0, Nat.one_pos⟩).symm
  refine congr (congrArg HAdd.hAdd (Finset.sum_congr rfl fun k _ => congr (congrArg HMul.hMul ?_) ?_)) ?_
  · -- the hidden unit
    exact (kernel_hidden_entry (D := dot_S128x16384_S16384x256_S128x256_1_0_0_1_n_n) ⟨rfl, rfl, rfl, rfl, rfl, rfl⟩ _ _ bv1 _ _ _ p k).trans
      (host_hidden_entry (D := Cert.ReferenceIdeal.dot_S128x16384_S16384x256_S128x256_1_0_0_1_n_n) ⟨rfl, rfl, rfl, rfl, rfl, rfl⟩ h wv1 bv1 _ _ _ p k).symm
  · -- column 1 of the joined matrix is the second weight column
    exact Cert.Lib.JoinCols.concat_cols_right wiv wev concatenates_S256x1_S256x1_S256x2_d1 k ⟨1, by omega⟩ (Nat.le_refl 1) Nat.one_pos
  · -- entry 1 of the joined bias is the second bias
    exact Cert.Lib.JoinVec.concat_vec_right biv bev concatenates_S1_S1_S2_d0 ⟨1, by omega⟩ (Nat.le_refl 1) Nat.one_pos

end Kernel

end Cert.Heads

end
-- ==== Proof.KernelFeatures.lean ====
/-
  The kernel's node features after its three graph layers, as one function of the arguments: each layer is the host's
  gather, scale, scatter-add, bias and maximum with zero over the whole-array product of the previous layer's output by
  the layer's weight matrix.
-/
import proofs.«180005_j27084063768597_1_alg».proof.Proof.GraphStagesKernel
import proofs.«180005_j27084063768597_1_alg».proof.Proof.LibMatProduct

noncomputable section

namespace Cert.KernelIdeal.Graph

open Cert.KernelIdeal Cert.KernelIdeal.Gen Idealize.ShloMosaic Idealize.ShloMosaic.TcCoe Idealize.SL.Sem

/-- Three layers over whole-array matrix products. -/
def features3 (x : (⟨S131072x32, .f32⟩ : BufTy).Contents (Elt Ideal)) (ei : (⟨S2x4194304, .i32⟩ : BufTy).Contents (Elt Ideal))
    (W1 : (⟨S32x16, .f32⟩ : BufTy).Contents (Elt Ideal)) (b1 : (⟨S16, .f32⟩ : BufTy).Contents (Elt Ideal)) (W2 : (⟨S16x16, .f32⟩ : BufTy).Contents (Elt Ideal)) (b2 : (⟨S16, .f32⟩ : BufTy).Contents (Elt Ideal))
    (W3 : (⟨S16x16, .f32⟩ : BufTy).Contents (Elt Ideal)) (b3 : (⟨S16, .f32⟩ : BufTy).Contents (Elt Ideal)) : (⟨S131072x16, .f32⟩ : BufTy).Contents (Elt Ideal) :=
  hiddenOf ei (Cert.Dense.mm (m := 131072) (K := 16) (n := 16) (hiddenOf ei (Cert.Dense.mm (m := 131072) (K := 16) (n := 16) (hiddenOf ei (Cert.Dense.mm (m := 131072) (K := 32) (n := 16) x W1) b1) W2) b2) W3) b3

end Cert.KernelIdeal.Graph

end
-- ==== Proof.KernelValue.lean ====
/-
  The idealized kernel's three results as functions of its arguments.

  Boundary by boundary: the first region leaves x·W₁; the stretch after it turns that into the first layer's output h₁
  (gather, scale by the edges' coefficients, scatter-add, bias, maximum with zero); the second region leaves h₁·W₂, and
  so on to the third layer's output h₃. The last region's operands are h₃ laid out as 128 rows of 16384 entries and the
  head weights and biases, cast, joined and reshaped; its two outputs are the policy head and the joined value head, and
  at exact arithmetic these are the reference's head terms of the same arrays (the head equations are proved apart).
  Every product is the whole-array matrix product; every other step is the host's own operation.
-/
import proofs.«180005_j27084063768597_1_alg».proof.Proof.KernelStages
import proofs.«180005_j27084063768597_1_alg».proof.Proof.KernelCarry
import proofs.«180005_j27084063768597_1_alg».proof.Proof.LinearRegions
import proofs.«180005_j27084063768597_1_alg».proof.Proof.HeadsRegion
import proofs.«180005_j27084063768597_1_alg».proof.Proof.HeadsMath
import proofs.«180005_j27084063768597_1_alg».proof.Proof.KernelFeatures

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After region 0: the node features times the first weight matrix. -/
theorem prod_at4 : (W4 m ρ c (Proc.devRef .tc main_v32)) = (Cert.Dense.mm (m := 131072) (K := 32) (n := 16) (m ((c : Thread nD τ).loc main_arg0)) (m ((c : Thread nD τ).loc main_arg2))) :=
  (W4_arr m ρ c 2).trans ((product0 (V3 m ρ) c).trans (by
    show (Cert.Dense.mm (m := 131072) (K := 32) (n := 16) (W3 m ρ c (Proc.devRef .tc main_arg0)) (W3 m ρ c (Proc.devRef .tc main_arg2))) = _
    rw [at3_main_arg0 m ρ c, at3_main_arg2 m ρ c]))

/-- The first layer's output. -/
theorem feat_at6 : (W6 m ρ c (Proc.devRef .tc main_v49)) = (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) :=
  (layer_at6 m ρ c).trans (by
    rw [at4_src m ρ c, at4_dst m ρ c, at4_coeff m ρ c, prod_at4 m ρ c, at4_main_arg3 m ρ c] <;> rfl)

/-- After region 1: the first layer's output times the second weight matrix. -/
theorem prod_at7 : (W7 m ρ c (Proc.devRef .tc main_v50)) = (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) :=
  (W7_arr m ρ c 2).trans ((product1 (V6 m ρ) c).trans (by
    show (Cert.Dense.mm (m := 131072) (K := 16) (n := 16) (W6 m ρ c (Proc.devRef .tc main_v49)) (W6 m ρ c (Proc.devRef .tc main_arg4))) = _
    rw [feat_at6 m ρ c, at6_main_arg4 m ρ c]))

/-- The second layer's output. -/
theorem feat_at9 : (W9 m ρ c (Proc.devRef .tc main_v67)) = (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) :=
  (layer_at9 m ρ c).trans (by
    rw [at7_src m ρ c, at7_dst m ρ c, at7_coeff m ρ c, prod_at7 m ρ c, at7_main_arg5 m ρ c] <;> rfl)

/-- After region 2: the second layer's output times the third weight matrix. -/
theorem prod_at10 : (W10 m ρ c (Proc.devRef .tc main_v68)) = (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) :=
  (W10_arr m ρ c 2).trans ((product2 (V9 m ρ) c).trans (by
    show (Cert.Dense.mm (m := 131072) (K := 16) (n := 16) (W9 m ρ c (Proc.devRef .tc main_v67)) (W9 m ρ c (Proc.devRef .tc main_arg6))) = _
    rw [feat_at9 m ρ c, at9_main_arg6 m ρ c]))

/-- The third layer's output. -/
theorem feat_at12 : (W12 m ρ c (Proc.devRef .tc main_v85)) = (Graph.hiddenOf (m ((c : Thread nD τ).loc main_arg1)) (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) :=
  (layer_at12 m ρ c).trans (by
    rw [at10_src m ρ c, at10_dst m ρ c, at10_coeff m ρ c, prod_at10 m ρ c, at10_main_arg7 m ρ c] <;> rfl)

/-! ## The last region's operands, as functions of the arguments -/
theorem op_main_v89 : (W13 m ρ c (Proc.devRef .tc main_v89)) = truncf (F := Ideal) .bf16 (shapeCast S128x16384 (Graph.hiddenOf (m ((c : Thread nD τ).loc main_arg1)) (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) shapeCasts_S131072x16_S128x16384) bitsLt_bf16_f32 :=
  (at13_main_v89 m ρ c).trans (by rw [feat_at12 m ρ c])
theorem op_main_v90 : (W13 m ρ c (Proc.devRef .tc main_v90)) = truncf (F := Ideal) .bf16 (m ((c : Thread nD τ).loc main_arg8)) bitsLt_bf16_f32 :=
  (at13_main_v90 m ρ c).trans (by rw [at12_main_arg8 m ρ c])
theorem op_main_v91 : (W13 m ρ c (Proc.devRef .tc main_v91)) = truncf (F := Ideal) .bf16 (m ((c : Thread nD τ).loc main_arg10)) bitsLt_bf16_f32 :=
  (at13_main_v91 m ρ c).trans (by rw [at12_main_arg10 m ρ c])
theorem op_main_v92 : (W13 m ρ c (Proc.devRef .tc main_v92)) = truncf (F := Ideal) .bf16 (m ((c : Thread nD τ).loc main_arg12)) bitsLt_bf16_f32 :=
  (at13_main_v92 m ρ c).trans (by rw [at12_main_arg12 m ρ c])
theorem op_main_v93 : (W13 m ρ c (Proc.devRef .tc main_v93)) = truncf (F := Ideal) .bf16 (concatenate S256x2 1 [⟨S256x1, (m ((c : Thread nD τ).loc main_arg14))⟩, ⟨S256x1, (m ((c : Thread nD τ).loc main_arg16))⟩] concatenates_S256x1_S256x1_S256x2_d1) bitsLt_bf16_f32 :=
  (at13_main_v93 m ρ c).trans (by rw [at12_main_arg14 m ρ c, at12_main_arg16 m ρ c])
theorem op_main_v94 : (W13 m ρ c (Proc.devRef .tc main_v94)) = shapeCast S1x256 (m ((c : Thread nD τ).loc main_arg9)) shapeCasts_S256_S1x256 :=
  (at13_main_v94 m ρ c).trans (by rw [at12_main_arg9 m ρ c])
theorem op_main_v95 : (W13 m ρ c (Proc.devRef .tc main_v95)) = shapeCast S1x1024 (m ((c : Thread nD τ).loc main_arg11)) shapeCasts_S1024_S1x1024 :=
  (at13_main_v95 m ρ c).trans (by rw [at12_main_arg11 m ρ c])
theorem op_main_v96 : (W13 m ρ c (Proc.devRef .tc main_v96)) = shapeCast S1x256 (m ((c : Thread nD τ).loc main_arg13)) shapeCasts_S256_S1x256 :=
  (at13_main_v96 m ρ c).trans (by rw [at12_main_arg13 m ρ c])
theorem op_main_v97 : (W13 m ρ c (Proc.devRef .tc main_v97)) = shapeCast S1x2 (concatenate S2 0 [⟨S1, (m ((c : Thread nD τ).loc main_arg15))⟩, ⟨S1, (m ((c : Thread nD τ).loc main_arg17))⟩] concatenates_S1_S1_S2_d0) shapeCasts_S2_S1x2 :=
  (at13_main_v97 m ρ c).trans (by rw [at12_main_arg15 m ρ c, at12_main_arg17 m ρ c])

/-! ## The three results -/

/-- The policy head: the last region's first output, which is the reference's policy term of the flattened third layer
    and the policy weights. -/
theorem policy_at15 : (W15 m ρ c (Proc.devRef .tc main_v98_0)) = Cert.Heads.refPolicy (shapeCast S128x16384 (Graph.hiddenOf (m ((c : Thread nD τ).loc main_arg1)) (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) shapeCasts_S131072x16_S128x16384) (m ((c : Thread nD τ).loc main_arg8)) (m ((c : Thread nD τ).loc main_arg9)) (m ((c : Thread nD τ).loc main_arg10)) (m ((c : Thread nD τ).loc main_arg11)) :=
  (at15_policy m ρ c).trans ((W14_arr m ρ c 9).trans ((policy3 (V13 m ρ) c).trans (by
    show k3_pay3 (F := Ideal) (W13 m ρ c (Proc.devRef .tc main_v89)) (W13 m ρ c (Proc.devRef .tc main_v90)) (W13 m ρ c (Proc.devRef .tc main_v94)) (W13 m ρ c (Proc.devRef .tc main_v91)) (W13 m ρ c (Proc.devRef .tc main_v95)) = _
    rw [op_main_v89 m ρ c, op_main_v90 m ρ c, op_main_v94 m ρ c, op_main_v91 m ρ c, op_main_v95 m ρ c]
    exact Cert.Heads.policy_eq _ _ _ _ _)))

/-- The last region's second output: the joined value head. -/
theorem values_at14 : (W14 m ρ c (Proc.devRef .tc main_v98_1)) = k3_pay1 (F := Ideal) (k3_pay4 (F := Ideal) (truncf (F := Ideal) .bf16 (shapeCast S128x16384 (Graph.hiddenOf (m ((c : Thread nD τ).loc main_arg1)) (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) shapeCasts_S131072x16_S128x16384) bitsLt_bf16_f32) (truncf (F := Ideal) .bf16 (m ((c : Thread nD τ).loc main_arg12)) bitsLt_bf16_f32) (shapeCast S1x256 (m ((c : Thread nD τ).loc main_arg13)) shapeCasts_S256_S1x256) (truncf (F := Ideal) .bf16 (concatenate S256x2 1 [⟨S256x1, (m ((c : Thread nD τ).loc main_arg14))⟩, ⟨S256x1, (m ((c : Thread nD τ).loc main_arg16))⟩] concatenates_S256x1_S256x1_S256x2_d1) bitsLt_bf16_f32)) (shapeCast S1x2 (concatenate S2 0 [⟨S1, (m ((c : Thread nD τ).loc main_arg15))⟩, ⟨S1, (m ((c : Thread nD τ).loc main_arg17))⟩] concatenates_S1_S1_S2_d0) shapeCasts_S2_S1x2) :=
  (W14_arr m ρ c 10).trans ((values3 (V13 m ρ) c).trans (by
    show k3_pay1 (F := Ideal) (k3_pay4 (F := Ideal) (W13 m ρ c (Proc.devRef .tc main_v89)) (W13 m ρ c (Proc.devRef .tc main_v92)) (W13 m ρ c (Proc.devRef .tc main_v96)) (W13 m ρ c (Proc.devRef .tc main_v93))) (W13 m ρ c (Proc.devRef .tc main_v97)) = _
    rw [op_main_v89 m ρ c, op_main_v92 m ρ c, op_main_v96 m ρ c, op_main_v93 m ρ c, op_main_v97 m ρ c]))

/-- The first value head: column 0 of the joined head. -/
theorem value_int_at15 : (W15 m ρ c (Proc.devRef .tc main_v99)) = Cert.Heads.refValueInt (shapeCast S128x16384 (Graph.hiddenOf (m ((c : Thread nD τ).loc main_arg1)) (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) shapeCasts_S131072x16_S128x16384) (m ((c : Thread nD τ).loc main_arg12)) (m ((c : Thread nD τ).loc main_arg13)) (m ((c : Thread nD τ).loc main_arg14)) (m ((c : Thread nD τ).loc main_arg15)) :=
  (at15_value_int m ρ c).trans (by
    rw [values_at14 m ρ c]
    exact Cert.Heads.value_int_eq _ _ _ _ _ _ _)

/-- The second value head: column 1 of the joined head. -/
theorem value_ext_at15 : (W15 m ρ c (Proc.devRef .tc main_v100)) = Cert.Heads.refValueExt (shapeCast S128x16384 (Graph.hiddenOf (m ((c : Thread nD τ).loc main_arg1)) (Cert.Dense.mm (m := 131072) (K := 16) (n := 16) (Graph.hiddenOf (m ((c : Thread nD τ).loc main_arg1)) (Cert.Dense.mm (m := 131072) (K := 16) (n := 16) (Graph.hiddenOf (m ((c : Thread nD τ).loc main_arg1)) (Cert.Dense.mm (m := 131072) (K := 32) (n := 16) (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6))) (m ((c : Thread nD τ).loc main_arg7))) shapeCasts_S131072x16_S128x16384) (m ((c : Thread nD τ).loc main_arg12)) (m ((c : Thread nD τ).loc main_arg13)) (m ((c : Thread nD τ).loc main_arg16)) (m ((c : Thread nD τ).loc main_arg17)) :=
  (at15_value_ext m ρ c).trans (by
    rw [values_at14 m ρ c]
    exact Cert.Heads.value_ext_eq _ _ _ _ _ _ _)

/-! ## The same, over the features as one function of the arguments -/

theorem policy_value : (W15 m ρ c (Proc.devRef .tc main_v98_0)) = Cert.Heads.refPolicy (shapeCast S128x16384 (Graph.features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S131072x16_S128x16384) (m ((c : Thread nD τ).loc main_arg8)) (m ((c : Thread nD τ).loc main_arg9)) (m ((c : Thread nD τ).loc main_arg10)) (m ((c : Thread nD τ).loc main_arg11)) :=
  policy_at15 m ρ c
theorem value_ext_value : (W15 m ρ c (Proc.devRef .tc main_v100)) = Cert.Heads.refValueExt (shapeCast S128x16384 (Graph.features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S131072x16_S128x16384) (m ((c : Thread nD τ).loc main_arg12)) (m ((c : Thread nD τ).loc main_arg13)) (m ((c : Thread nD τ).loc main_arg16)) (m ((c : Thread nD τ).loc main_arg17)) :=
  value_ext_at15 m ρ c
theorem value_int_value : (W15 m ρ c (Proc.devRef .tc main_v99)) = Cert.Heads.refValueInt (shapeCast S128x16384 (Graph.features3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S131072x16_S128x16384) (m ((c : Thread nD τ).loc main_arg12)) (m ((c : Thread nD τ).loc main_arg13)) (m ((c : Thread nD τ).loc main_arg14)) (m ((c : Thread nD τ).loc main_arg15)) :=
  value_int_at15 m ρ c

end Cert.KernelIdeal.Whole

end
-- ==== Proof.GraphStagesReference.lean ====
/-
  The graph side of the idealized reference program, as functions of arrays.

  The graph is given as a 2 × E array of node numbers (row 0 the sources, row 1 the targets). Every node gets a
  self-loop: the index vectors are the edge endpoints followed by 0 … N−1. A node's degree is the number of index
  entries that target it (a scatter-add of ones); its weight is 1/√degree where the degree is positive and 0 elsewhere;
  an edge's coefficient is the product of its two endpoints' weights (two gathers, negative node numbers wrapped by N).
  One graph layer takes the node features already multiplied by the layer's weight matrix, gathers each edge's source
  row, scales it by the edge's coefficient, scatter-adds the rows to the edges' targets, adds the bias to every row and
  takes the maximum with zero. These are the host operations of the program, composed; nothing is evaluated here.
-/
import proofs.«180005_j27084063768597_1_alg».proof.ReferenceIdeal
import proofs.«180005_j27084063768597_1_alg».proof.Proof.Gen.ReferenceIdeal

noncomputable section

namespace Cert.ReferenceIdeal.Graph

open Cert.ReferenceIdeal Cert.ReferenceIdeal.Gen Idealize.ShloMosaic Idealize.ShloMosaic.TcCoe Idealize.SL.Sem

variable {F : FTy → Type} [FloatOps F]

/-- The edges' source nodes followed by every node once. -/
def srcIdx (ei : (⟨S2x4194304, .i32⟩ : BufTy).Contents (Elt F)) : (⟨S4325376, .i32⟩ : BufTy).Contents (Elt F) :=
  concatenate S4325376 0 [⟨S4194304, (shapeCast _ (extractStridedSlice S1x4194304 ![0, 0] ei slices_S2x4194304_S1x4194304_0_0) shapeCasts_S1x4194304_S4194304)⟩, ⟨S131072, (iotaInDim S131072 32 0)⟩] concatenates_S4194304_S131072_S4325376_d0

/-- The edges' target nodes followed by every node once. -/
def dstIdx (ei : (⟨S2x4194304, .i32⟩ : BufTy).Contents (Elt F)) : (⟨S4325376, .i32⟩ : BufTy).Contents (Elt F) :=
  concatenate S4325376 0 [⟨S4194304, (shapeCast _ (extractStridedSlice S1x4194304 ![1, 0] ei slices_S2x4194304_S1x4194304_1_0) shapeCasts_S1x4194304_S4194304)⟩, ⟨S131072, (iotaInDim S131072 32 0)⟩] concatenates_S4194304_S131072_S4325376_d0

/-- An index vector as a column, negative entries wrapped by the node count. -/
def wrapIdx (v : (⟨S4325376, .i32⟩ : BufTy).Contents (Elt F)) : (⟨S4325376x1, .i32⟩ : BufTy).Contents (Elt F) :=
  broadcastInDim S4325376x1 ![0] bcast_S4325376_S4325376x1_0 (select (cmpi .slt v (broadcastInDim S4325376 ![] bcast_S_S4325376 (constantI S_ 32 0#32))) (addi v (broadcastInDim S4325376 ![] bcast_S_S4325376 (constantI S_ 32 131072#32))) v)

/-- Each node's degree: the number of index entries that target it. -/
def degree (dst : (⟨S4325376, .i32⟩ : BufTy).Contents (Elt F)) : (⟨S131072, .f32⟩ : BufTy).Contents (Elt F) :=
  Host.scatterAdd scatter_S131072_S4325376x1_S4325376_n_0_0_1 (broadcastInDim S131072 ![] bcast_S_S131072 (constant S_ .f32 0x00000000#32)) (broadcastInDim S4325376x1 ![0] bcast_S4325376_S4325376x1_0 dst) (broadcastInDim S4325376 ![] bcast_S_S4325376 (constant S_ .f32 0x3F800000#32))

/-- Each node's weight: the inverse square root of its degree (taken of the larger of the degree and one) where the
    degree is positive, zero elsewhere. -/
def nodeWeight (dst : (⟨S4325376, .i32⟩ : BufTy).Contents (Elt F)) : (⟨S131072, .f32⟩ : BufTy).Contents (Elt F) :=
  select (cmpf .ogt (degree dst) (broadcastInDim S131072 ![] bcast_S_S131072 (constant S_ .f32 0x00000000#32))) (Host.rsqrt (maximumf (degree dst) (broadcastInDim S131072 ![] bcast_S_S131072 (constant S_ .f32 0x3F800000#32)))) (broadcastInDim S131072 ![] bcast_S_S131072 (id (constant S_ .f32 0x00000000#32)))

/-- Each edge's coefficient: the product of its source's and its target's weights. -/
def edgeCoeff (src dst : (⟨S4325376, .i32⟩ : BufTy).Contents (Elt F)) : (⟨S4325376, .f32⟩ : BufTy).Contents (Elt F) :=
  mulf (Host.gather gather_S131072_S4325376x1_S4325376_n_0_n_n_0_1_1 (nodeWeight dst) (wrapIdx src)) (Host.gather gather_S131072_S4325376x1_S4325376_n_0_n_n_0_1_1 (nodeWeight dst) (wrapIdx dst))

/-- One graph layer after its matrix product: gather the sources' rows, scale by the edges' coefficients, add up at the
    targets, add the bias, take the maximum with zero. -/
def layer (src dst : (⟨S4325376, .i32⟩ : BufTy).Contents (Elt F)) (coeff : (⟨S4325376, .f32⟩ : BufTy).Contents (Elt F)) (hw : (⟨S131072x16, .f32⟩ : BufTy).Contents (Elt F)) (b : (⟨S16, .f32⟩ : BufTy).Contents (Elt F)) : (⟨S131072x16, .f32⟩ : BufTy).Contents (Elt F) :=
  maximumf (addf (Host.scatterAdd scatter_S131072x16_S4325376x1_S4325376x16_1_0_0_1 (broadcastInDim S131072x16 ![] bcast_S_S131072x16 (constant S_ .f32 0x00000000#32)) (broadcastInDim S4325376x1 ![0] bcast_S4325376_S4325376x1_0 dst) (mulf (broadcastInDim S4325376x16 ![0, 1] bcast_S4325376x1_S4325376x16_0_1 (broadcastInDim S4325376x1 ![0] bcast_S4325376_S4325376x1_0 coeff)) (Host.gather gather_S131072x16_S4325376x1_S4325376x16_1_0_n_n_0_1_116 hw (wrapIdx src)))) (broadcastInDim S131072x16 ![0, 1] bcast_S1x16_S131072x16_0_1 (broadcastInDim S1x16 ![1] bcast_S16_S1x16_1 b))) (broadcastInDim S131072x16 ![] bcast_S_S131072x16 (constant S_ .f32 0x00000000#32))

/-- One graph layer over the graph's own index vectors and coefficients, all computed from the edge array. -/
def hiddenOf (ei : (⟨S2x4194304, .i32⟩ : BufTy).Contents (Elt F)) (hw : (⟨S131072x16, .f32⟩ : BufTy).Contents (Elt F)) (b : (⟨S16, .f32⟩ : BufTy).Contents (Elt F)) : (⟨S131072x16, .f32⟩ : BufTy).Contents (Elt F) :=
  layer (srcIdx ei) (dstIdx ei) (edgeCoeff (srcIdx ei) (dstIdx ei)) hw b

end Cert.ReferenceIdeal.Graph

end
-- ==== Proof.ReferenceValue.lean ====
/-
  The idealized reference's three results as functions of its arguments, and the reference's node features equal to the
  kernel's.

  The reference recomputes the graph's index vectors and edge coefficients in each of its three layers; since they
  depend on the edge array alone, the three copies are one term. Its three results are the head terms of the third
  layer's output laid out as 128 rows of 16384 entries. The reference multiplies by each layer's weight matrix with a
  host dot_general that contracts the left factor's columns against the right factor's rows; at exact arithmetic that
  is the whole-array matrix product the kernel's regions compute, and every other step of a layer is the same host
  operation in both programs.
-/
import proofs.«180005_j27084063768597_1_alg».proof.Proof.ReferenceRun
import proofs.«180005_j27084063768597_1_alg».proof.Proof.GraphStagesReference
import proofs.«180005_j27084063768597_1_alg».proof.Proof.KernelFeatures
import proofs.«180005_j27084063768597_1_alg».proof.Proof.HeadsMath
import proofs.«180005_j27084063768597_1_alg».proof.Proof.LibMatProduct

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem

/-- The reference's node features after its three layers. -/
def features (x : FVec Ideal S131072x32 .f32) (ei : (⟨S2x4194304, .i32⟩ : BufTy).Contents (Elt Ideal))
    (W1 : FVec Ideal S32x16 .f32) (b1 : FVec Ideal S16 .f32)
    (W2 : FVec Ideal S16x16 .f32) (b2 : FVec Ideal S16 .f32)
    (W3 : FVec Ideal S16x16 .f32) (b3 : FVec Ideal S16 .f32) :
    FVec Ideal S131072x16 .f32 :=
  Graph.hiddenOf ei (Host.dotGeneral (F := Ideal) (φ₁ := .f32) (φ₂ := .f32) dot_S131072x16_S16x16_S131072x16_1_0_0_1_n_n none (Graph.hiddenOf ei (Host.dotGeneral (F := Ideal) (φ₁ := .f32) (φ₂ := .f32) dot_S131072x16_S16x16_S131072x16_1_0_0_1_n_n none (Graph.hiddenOf ei (Host.dotGeneral (F := Ideal) (φ₁ := .f32) (φ₂ := .f32) dot_S131072x32_S32x16_S131072x16_1_0_0_1_n_n none x W1) b1) W2) b2) W3) b3

/-- One layer is the same function in the two programs: the same host operations with the same dimension numbers. -/
theorem hiddenOf_eq (ei : (⟨S2x4194304, .i32⟩ : BufTy).Contents (Elt Ideal)) (hw : FVec Ideal S131072x16 .f32)
    (b : FVec Ideal S16 .f32) :
    Graph.hiddenOf ei hw b = Cert.KernelIdeal.Graph.hiddenOf ei hw b := rfl

/-- The reference's features are the kernel's. -/
theorem features_eq (x : FVec Ideal S131072x32 .f32) (ei : (⟨S2x4194304, .i32⟩ : BufTy).Contents (Elt Ideal))
    (W1 : FVec Ideal S32x16 .f32) (b1 : FVec Ideal S16 .f32)
    (W2 : FVec Ideal S16x16 .f32) (b2 : FVec Ideal S16 .f32)
    (W3 : FVec Ideal S16x16 .f32) (b3 : FVec Ideal S16 .f32) :
    features x ei W1 b1 W2 b2 W3 b3 = Cert.KernelIdeal.Graph.features3 x ei W1 b1 W2 b2 W3 b3 := by
  unfold features Cert.KernelIdeal.Graph.features3
  rw [Cert.Dense.dotGeneral_eq_mm (m := 131072) (K := 32) (n := 16) dot_S131072x32_S32x16_S131072x16_1_0_0_1_n_n rfl rfl rfl rfl rfl rfl,
    Cert.Dense.dotGeneral_eq_mm (m := 131072) (K := 16) (n := 16) dot_S131072x16_S16x16_S131072x16_1_0_0_1_n_n rfl rfl rfl rfl rfl rfl,
    Cert.Dense.dotGeneral_eq_mm (m := 131072) (K := 16) (n := 16) dot_S131072x16_S16x16_S131072x16_1_0_0_1_n_n rfl rfl rfl rfl rfl rfl,
    hiddenOf_eq, hiddenOf_eq, hiddenOf_eq]

variable (m : (ℓ : Loc nD τ sig) → Buf (Elt Ideal) ℓ) (c : Dev nD)

/-- The reference's policy result. -/
theorem policy_term : res_main_v159 (F := Ideal) m c = Cert.Heads.refPolicy (shapeCast _ (features (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S131072x16_S128x16384) (m ((c.tc : Thread nD τ).loc main_arg8)) (m ((c.tc : Thread nD τ).loc main_arg9)) (m ((c.tc : Thread nD τ).loc main_arg10)) (m ((c.tc : Thread nD τ).loc main_arg11)) := by
  unfold res_main_v159 Cert.Heads.refPolicy features Graph.hiddenOf Graph.layer Graph.edgeCoeff Graph.nodeWeight Graph.degree Graph.wrapIdx Graph.srcIdx Graph.dstIdx
  rfl

/-- The reference's second value result. -/
theorem value_ext_term : res_main_v172 (F := Ideal) m c = Cert.Heads.refValueExt (shapeCast _ (features (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S131072x16_S128x16384) (m ((c.tc : Thread nD τ).loc main_arg12)) (m ((c.tc : Thread nD τ).loc main_arg13)) (m ((c.tc : Thread nD τ).loc main_arg16)) (m ((c.tc : Thread nD τ).loc main_arg17)) := by
  unfold res_main_v172 Cert.Heads.refValueExt features Graph.hiddenOf Graph.layer Graph.edgeCoeff Graph.nodeWeight Graph.degree Graph.wrapIdx Graph.srcIdx Graph.dstIdx
  rfl

/-- The reference's first value result. -/
theorem value_int_term : res_main_v168 (F := Ideal) m c = Cert.Heads.refValueInt (shapeCast _ (features (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S131072x16_S128x16384) (m ((c.tc : Thread nD τ).loc main_arg12)) (m ((c.tc : Thread nD τ).loc main_arg13)) (m ((c.tc : Thread nD τ).loc main_arg14)) (m ((c.tc : Thread nD τ).loc main_arg15)) := by
  unfold res_main_v168 Cert.Heads.refValueInt features Graph.hiddenOf Graph.layer Graph.edgeCoeff Graph.nodeWeight Graph.degree Graph.wrapIdx Graph.srcIdx Graph.dstIdx
  rfl

end Cert.ReferenceIdeal.RefValue

end
-- ==== Proof.lean ====
/-
  The certificate: the idealized kernel and the idealized reference compute the same three arrays.

  Both programs are a three-layer graph convolution followed by two dense heads. The kernel multiplies by each layer's
  weight matrix in a TensorCore region, eight blocks of 16384 rows at a time, and computes both heads in a fourth
  region, the two single-column value heads joined into one two-column product; the reference uses the host's
  dot_general throughout and recomputes the graph's edge coefficients in every layer. At exact arithmetic a change of
  float format is the identity, a block-wise product is the whole product, and column j of a product with two joined
  columns is the product with column j; so the three results agree entry by entry — the same sums on both sides, with no
  use of the inputs' finiteness. The frames of the kernel's two printings are the generated ones; the reference's frame
  is its run with the results dropped; nothing was rewritten between the kernel and its idealization.
-/
import proofs.«180005_j27084063768597_1_alg».proof.Defs
import proofs.«180005_j27084063768597_1_alg».proof.Proof.Gen.Kernel
import proofs.«180005_j27084063768597_1_alg».proof.Proof.Gen.Kernel.Frame
import proofs.«180005_j27084063768597_1_alg».proof.Proof.Gen.KernelIdeal
import proofs.«180005_j27084063768597_1_alg».proof.Proof.Gen.KernelIdeal.Frame
import proofs.«180005_j27084063768597_1_alg».proof.Proof.Gen.ReferenceIdeal
import proofs.«180005_j27084063768597_1_alg».proof.Proof.ReferenceRun
import proofs.«180005_j27084063768597_1_alg».proof.Proof.Gen.Pre_finite_inputs
import proofs.«180005_j27084063768597_1_alg».proof.Proof.KernelRun
import proofs.«180005_j27084063768597_1_alg».proof.Proof.KernelValue
import proofs.«180005_j27084063768597_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the three results dropped. -/
theorem frame_reference_ideal : Cert.frame_ReferenceIdeal := fun m ρ _ =>
  (θ_run Cert.ReferenceIdeal.defs _ _).mono (fun _ h c => (h c).2.2.2) (Cert.ReferenceIdeal.ValueP.run (F := Ideal) m ρ)

/-- The two programs' results agree. -/
theorem algebraic : Cert.algebraic_KernelIdeal_ReferenceIdeal := by
  intro m ρ m' ρ' _ hagree
  refine ⟨fun c => Cert.Heads.refPolicy (shapeCast Cert.KernelIdeal.S128x16384 (Cert.KernelIdeal.Graph.features3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) Cert.KernelIdeal.Gen.shapeCasts_S131072x16_S128x16384) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Heads.refValueExt (shapeCast Cert.KernelIdeal.S128x16384 (Cert.KernelIdeal.Graph.features3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) Cert.KernelIdeal.Gen.shapeCasts_S131072x16_S128x16384) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.Heads.refValueInt (shapeCast Cert.KernelIdeal.S128x16384 (Cert.KernelIdeal.Graph.features3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) Cert.KernelIdeal.Gen.shapeCasts_S131072x16_S128x16384) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Whole.run_results m ρ)
    obtain ⟨h0, h1, h2, hargs⟩ := h c
    exact ⟨h0.trans (Cert.KernelIdeal.Whole.policy_value m ρ c), h1.trans (Cert.KernelIdeal.Whole.value_ext_value m ρ c),
      h2.trans (Cert.KernelIdeal.Whole.value_int_value m ρ c), hargs⟩
  · refine (θ_run Cert.ReferenceIdeal.defs _ _).mono (fun r h c => ?_) (Cert.ReferenceIdeal.ValueP.run (F := Ideal) m' ρ')
    obtain ⟨h0, h1, h2, hargs⟩ := h c
    obtain ⟨a0, a1, a2, a3, a4, a5, a6, a7, a8, a9, a10, a11, a12, a13, a14, a15, a16, a17⟩ := hagree c
    refine ⟨h0.trans ?_, h1.trans ?_, h2.trans ?_, hargs⟩
    · rw [Cert.ReferenceIdeal.RefValue.policy_term, Cert.ReferenceIdeal.RefValue.features_eq, a0, a1, a2, a3, a4, a5, a6, a7, a8, a9, a10, a11] <;> rfl
    · rw [Cert.ReferenceIdeal.RefValue.value_ext_term, Cert.ReferenceIdeal.RefValue.features_eq, a0, a1, a2, a3, a4, a5, a6, a7, a12, a13, a16, a17] <;> rfl
    · rw [Cert.ReferenceIdeal.RefValue.value_int_term, Cert.ReferenceIdeal.RefValue.features_eq, a0, a1, a2, a3, a4, a5, a6, a7, a12, a13, a14, a15] <;> rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
